-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x4096x64 : Shape := ⟨4, ![4, 8, 4096, 64]⟩
abbrev S4x8x1x64 : Shape := ⟨4, ![4, 8, 1, 64]⟩
abbrev S4x4096 : Shape := ⟨2, ![4, 4096]⟩
abbrev S5 : Shape := ⟨1, ![5]⟩
abbrev S_ : Shape := ⟨0, ![]⟩

class Facts : Prop where
  bcast_S_S4x8x4096x64 : S_.BroadcastsInDim S4x8x4096x64 (![] : Fin 0 → Fin S4x8x4096x64.rank)
  reducesTo_S4x8x4096x64_S_d0_1_2_3 : S4x8x4096x64.ReducesTo [0, 1, 2, 3] S_
  h_S_ : 0 < S_.numel
  bcast_S_S4x8x1x64 : S_.BroadcastsInDim S4x8x1x64 (![] : Fin 0 → Fin S4x8x1x64.rank)
  reducesTo_S4x8x1x64_S_d0_1_2_3 : S4x8x1x64.ReducesTo [0, 1, 2, 3] S_
  bcast_S_S4x4096 : S_.BroadcastsInDim S4x4096 (![] : Fin 0 → Fin S4x4096.rank)
  reducesTo_S4x4096_S_d0_1 : S4x4096.ReducesTo [0, 1] S_
  bcast_S_S5 : S_.BroadcastsInDim S5 (![] : Fin 0 → Fin S5.rank)
  reducesTo_S5_S_d0 : S5.ReducesTo [0] S_

variable [Facts]

def fn_part1 {F : FTy → Type} [FloatOps F] (main_arg4 : FVec F S4x4096 .f32) (main_arg5 : FVec F S5 .f32) (main_v13 : IVec S_ 1) (main_v16 : IVec S4x8x4096x64 1) : IVec S_ 1 :=
  let main_c_5 : IVec S_ 1 := constantI S_ 1 1#1
  let main_v17 : IVec S_ 1 := (fun x v => Host.reduce IntOp.andi x v reducesTo_S4x8x4096x64_S_d0_1_2_3 h_S_) main_v16 main_c_5
  let main_v18 : IVec S_ 1 := andi main_v13 main_v17
  let main_v19 : FVec F S4x4096 .f32 := Host.absf main_arg4
  let main_cst_6 : FVec F S_ .f32 := constant S_ .f32 0x7F800000#32
  let main_v20 : FVec F S4x4096 .f32 := broadcastInDim S4x4096 ![] bcast_S_S4x4096 main_cst_6
  let main_v21 : IVec S4x4096 1 := cmpf .olt main_v19 main_v20
  let main_c_7 : IVec S_ 1 := constantI S_ 1 1#1
  let main_v22 : IVec S_ 1 := (fun x v => Host.reduce IntOp.andi x v reducesTo_S4x4096_S_d0_1 h_S_) main_v21 main_c_7
  let main_v23 : IVec S_ 1 := andi main_v18 main_v22
  let main_v24 : FVec F S5 .f32 := Host.absf main_arg5
  let main_cst_8 : FVec F S_ .f32 := constant S_ .f32 0x7F800000#32
  let main_v25 : FVec F S5 .f32 := broadcastInDim S5 ![] bcast_S_S5 main_cst_8
  let main_v26 : IVec S5 1 := cmpf .olt main_v24 main_v25
  let main_c_9 : IVec S_ 1 := constantI S_ 1 1#1
  let main_v27 : IVec S_ 1 := (fun x v => Host.reduce IntOp.andi x v reducesTo_S5_S_d0 h_S_) main_v26 main_c_9
  let main_v28 : IVec S_ 1 := andi main_v23 main_v27
  main_v28

def fn {F : FTy → Type} [FloatOps F] (main_arg0 : FVec F S4x8x4096x64 .f32) (main_arg1 : FVec F S4x8x1x64 .f32) (main_arg2 : FVec F S4x8x4096x64 .f32) (main_arg3 : FVec F S4x8x4096x64 .f32) (main_arg4 : FVec F S4x4096 .f32) (main_arg5 : FVec F S5 .f32) : IVec S_ 1 :=
  let main_v0 : FVec F S4x8x4096x64 .f32 := Host.absf main_arg0
  let main_cst : FVec F S_ .f32 := constant S_ .f32 0x7F800000#32
  let main_v1 : FVec F S4x8x4096x64 .f32 := broadcastInDim S4x8x4096x64 ![] bcast_S_S4x8x4096x64 main_cst
  let main_v2 : IVec S4x8x4096x64 1 := cmpf .olt main_v0 main_v1
  let main_c : IVec S_ 1 := constantI S_ 1 1#1
  let main_v3 : IVec S_ 1 := (fun x v => Host.reduce IntOp.andi x v reducesTo_S4x8x4096x64_S_d0_1_2_3 h_S_) main_v2 main_c
  let main_v4 : FVec F S4x8x1x64 .f32 := Host.absf main_arg1
  let main_cst_0 : FVec F S_ .f32 := constant S_ .f32 0x7F800000#32
  let main_v5 : FVec F S4x8x1x64 .f32 := broadcastInDim S4x8x1x64 ![] bcast_S_S4x8x1x64 main_cst_0
  let main_v6 : IVec S4x8x1x64 1 := cmpf .olt main_v4 main_v5
  let main_c_1 : IVec S_ 1 := constantI S_ 1 1#1
  let main_v7 : IVec S_ 1 := (fun x v => Host.reduce IntOp.andi x v reducesTo_S4x8x1x64_S_d0_1_2_3 h_S_) main_v6 main_c_1
  let main_v8 : IVec S_ 1 := andi main_v3 main_v7
  let main_v9 : FVec F S4x8x4096x64 .f32 := Host.absf main_arg2
  let main_cst_2 : FVec F S_ .f32 := constant S_ .f32 0x7F800000#32
  let main_v10 : FVec F S4x8x4096x64 .f32 := broadcastInDim S4x8x4096x64 ![] bcast_S_S4x8x4096x64 main_cst_2
  let main_v11 : IVec S4x8x4096x64 1 := cmpf .olt main_v9 main_v10
  let main_c_3 : IVec S_ 1 := constantI S_ 1 1#1
  let main_v12 : IVec S_ 1 := (fun x v => Host.reduce IntOp.andi x v reducesTo_S4x8x4096x64_S_d0_1_2_3 h_S_) main_v11 main_c_3
  let main_v13 : IVec S_ 1 := andi main_v8 main_v12
  let main_v14 : FVec F S4x8x4096x64 .f32 := Host.absf main_arg3
  let main_cst_4 : FVec F S_ .f32 := constant S_ .f32 0x7F800000#32
  let main_v15 : FVec F S4x8x4096x64 .f32 := broadcastInDim S4x8x4096x64 ![] bcast_S_S4x8x4096x64 main_cst_4
  let main_v16 : IVec S4x8x4096x64 1 := cmpf .olt main_v14 main_v15
  fn_part1 (F := F) main_arg4 main_arg5 main_v13 main_v16
-- ==== Kernel.lean ====
abbrev S4x8x4096x64 : Shape := ⟨4, ![4, 8, 4096, 64]⟩
abbrev S4x8x1x64 : Shape := ⟨4, ![4, 8, 1, 64]⟩
abbrev S4x4096 : Shape := ⟨2, ![4, 4096]⟩
abbrev S5 : Shape := ⟨1, ![5]⟩
abbrev S_ : Shape := ⟨0, ![]⟩
abbrev S1 : Shape := ⟨1, ![1]⟩
abbrev S4x8x1x128 : Shape := ⟨4, ![4, 8, 1, 128]⟩
abbrev S4x2048x2 : Shape := ⟨3, ![4, 2048, 2]⟩
abbrev S4x2048x1 : Shape := ⟨3, ![4, 2048, 1]⟩
abbrev S4x2048x64 : Shape := ⟨3, ![4, 2048, 64]⟩
abbrev S4x2048x128 : Shape := ⟨3, ![4, 2048, 128]⟩
abbrev S4x1x2048x128 : Shape := ⟨4, ![4, 1, 2048, 128]⟩
abbrev S4x8x2048x128 : Shape := ⟨4, ![4, 8, 2048, 128]⟩
abbrev S4x8x8x128 : Shape := ⟨4, ![4, 8, 8, 128]⟩
abbrev S1x2x2048x128 : Shape := ⟨4, ![1, 2, 2048, 128]⟩
abbrev S1x1x2048x128 : Shape := ⟨4, ![1, 1, 2048, 128]⟩
abbrev S1x2x1x128 : Shape := ⟨4, ![1, 2, 1, 128]⟩
abbrev S1x2x8x128 : Shape := ⟨4, ![1, 2, 8, 128]⟩
abbrev S2048x128 : Shape := ⟨2, ![2048, 128]⟩
abbrev S1x1x1x128 : Shape := ⟨4, ![1, 1, 1, 128]⟩
abbrev S1x128 : Shape := ⟨2, ![1, 128]⟩
abbrev S2048x64 : Shape := ⟨2, ![2048, 64]⟩
abbrev S2048 : Shape := ⟨1, ![2048]⟩
abbrev S2048x1 : Shape := ⟨2, ![2048, 1]⟩
abbrev S64 : Shape := ⟨1, ![64]⟩
abbrev S1x64 : Shape := ⟨2, ![1, 64]⟩
abbrev S64x64 : Shape := ⟨2, ![64, 64]⟩
abbrev S64x1 : Shape := ⟨2, ![64, 1]⟩
abbrev S1x1 : Shape := ⟨2, ![1, 1]⟩
abbrev S8x128 : Shape := ⟨2, ![8, 128]⟩
abbrev S1x1x8x128 : Shape := ⟨4, ![1, 1, 8, 128]⟩
abbrev S4x8x1x1 : Shape := ⟨4, ![4, 8, 1, 1]⟩
abbrev S4x8 : Shape := ⟨2, ![4, 8]⟩
abbrev S4 : Shape := ⟨1, ![4]⟩

abbrev nBuf : Space → Nat
  | .hbm => 61
  | .vmem => 14
  | .smem => 0
  | _ => 0

abbrev bufTy : (tb : Table) → Fin (tcTables nBuf tb) → BufTy
  | .hbm, ⟨0, _⟩ => ⟨S4x8x4096x64, .f32⟩
  | .hbm, ⟨1, _⟩ => ⟨S4x8x1x64, .f32⟩
  | .hbm, ⟨2, _⟩ => ⟨S4x8x4096x64, .f32⟩
  | .hbm, ⟨3, _⟩ => ⟨S4x8x4096x64, .f32⟩
  | .hbm, ⟨4, _⟩ => ⟨S4x4096, .f32⟩
  | .hbm, ⟨5, _⟩ => ⟨S5, .f32⟩
  | .hbm, ⟨6, _⟩ => ⟨S4x8x1x64, .f32⟩
  | .hbm, ⟨7, _⟩ => ⟨S4x8x1x64, .f32⟩
  | .hbm, ⟨8, _⟩ => ⟨S_, .f32⟩
  | .hbm, ⟨9, _⟩ => ⟨S4x8x1x64, .f32⟩
  | .hbm, ⟨10, _⟩ => ⟨S4x8x1x64, .f32⟩
  | .hbm, ⟨11, _⟩ => ⟨S_, .f32⟩
  | .hbm, ⟨12, _⟩ => ⟨S4x8x1x64, .f32⟩
  | .hbm, ⟨13, _⟩ => ⟨S4x8x1x64, .f32⟩
  | .hbm, ⟨14, _⟩ => ⟨S1, .f32⟩
  | .hbm, ⟨15, _⟩ => ⟨S_, .f32⟩
  | .hbm, ⟨16, _⟩ => ⟨S4x8x1x64, .f32⟩
  | .hbm, ⟨17, _⟩ => ⟨S4x8x1x64, .f32⟩
  | .hbm, ⟨18, _⟩ => ⟨S1, .f32⟩
  | .hbm, ⟨19, _⟩ => ⟨S_, .f32⟩
  | .hbm, ⟨20, _⟩ => ⟨S4x8x1x64, .f32⟩
  | .hbm, ⟨21, _⟩ => ⟨S4x8x1x64, .f32⟩
  | .hbm, ⟨22, _⟩ => ⟨S4x8x1x64, .f32⟩
  | .hbm, ⟨23, _⟩ => ⟨S1, .f32⟩
  | .hbm, ⟨24, _⟩ => ⟨S_, .f32⟩
  | .hbm, ⟨25, _⟩ => ⟨S4x8x1x64, .f32⟩
  | .hbm, ⟨26, _⟩ => ⟨S4x8x1x64, .f32⟩
  | .hbm, ⟨27, _⟩ => ⟨S4x8x1x64, .f32⟩
  | .hbm, ⟨28, _⟩ => ⟨S1, .f32⟩
  | .hbm, ⟨29, _⟩ => ⟨S_, .f32⟩
  | .hbm, ⟨30, _⟩ => ⟨S4x8x1x64, .f32⟩
  | .hbm, ⟨31, _⟩ => ⟨S4x8x1x64, .f32⟩
  | .hbm, ⟨32, _⟩ => ⟨S4x8x1x64, .f32⟩
  | .hbm, ⟨33, _⟩ => ⟨S1, .f32⟩
  | .hbm, ⟨34, _⟩ => ⟨S_, .f32⟩
  | .hbm, ⟨35, _⟩ => ⟨S4x8x1x64, .f32⟩
  | .hbm, ⟨36, _⟩ => ⟨S4x8x1x64, .f32⟩
  | .hbm, ⟨37, _⟩ => ⟨S4x8x1x128, .f32⟩
  | .hbm, ⟨38, _⟩ => ⟨S_, .f32⟩
  | .hbm, ⟨39, _⟩ => ⟨S4x4096, .f32⟩
  | .hbm, ⟨40, _⟩ => ⟨S4x4096, .f32⟩
  | .hbm, ⟨41, _⟩ => ⟨S_, .f32⟩
  | .hbm, ⟨42, _⟩ => ⟨S4x4096, .f32⟩
  | .hbm, ⟨43, _⟩ => ⟨S4x4096, .f32⟩
  | .hbm, ⟨44, _⟩ => ⟨S4x2048x2, .f32⟩
  | .hbm, ⟨45, _⟩ => ⟨S4x2048x1, .f32⟩
  | .hbm, ⟨46, _⟩ => ⟨S4x2048x64, .f32⟩
  | .hbm, ⟨47, _⟩ => ⟨S4x2048x1, .f32⟩
  | .hbm, ⟨48, _⟩ => ⟨S4x2048x64, .f32⟩
  | .hbm, ⟨49, _⟩ => ⟨S4x2048x128, .f32⟩
  | .hbm, ⟨50, _⟩ => ⟨S4x1x2048x128, .f32⟩
  | .hbm, ⟨51, _⟩ => ⟨S4x8x2048x128, .f32⟩
  | .hbm, ⟨52, _⟩ => ⟨S4x8x2048x128, .f32⟩
  | .hbm, ⟨53, _⟩ => ⟨S4x8x2048x128, .f32⟩
  | .hbm, ⟨54, _⟩ => ⟨S4x8x2048x128, .f32⟩
  | .hbm, ⟨55, _⟩ => ⟨S4x8x8x128, .f32⟩
  | .hbm, ⟨56, _⟩ => ⟨S4x8x4096x64, .f32⟩
  | .hbm, ⟨57, _⟩ => ⟨S4x8x1x1, .f32⟩
  | .hbm, ⟨58, _⟩ => ⟨S4x8, .f32⟩
  | .hbm, ⟨59, _⟩ => ⟨S_, .f32⟩
  | .hbm, ⟨60, _⟩ => ⟨S4, .f32⟩
  | .local _ .vmem, ⟨0, _⟩ => ⟨S1x2x2048x128, .f32⟩
  | .local _ .vmem, ⟨1, _⟩ => ⟨S1x2x2048x128, .f32⟩
  | .local _ .vmem, ⟨2, _⟩ => ⟨S1x2x2048x128, .f32⟩
  | .local _ .vmem, ⟨3, _⟩ => ⟨S1x2x2048x128, .f32⟩
  | .local _ .vmem, ⟨4, _⟩ => ⟨S1x2x2048x128, .f32⟩
  | .local _ .vmem, ⟨5, _⟩ => ⟨S1x2x2048x128, .f32⟩
  | .local _ .vmem, ⟨6, _⟩ => ⟨S1x1x2048x128, .f32⟩
  | .local _ .vmem, ⟨7, _⟩ => ⟨S1x1x2048x128, .f32⟩
  | .local _ .vmem, ⟨8, _⟩ => ⟨S1x2x1x128, .f32⟩
  | .local _ .vmem, ⟨9, _⟩ => ⟨S1x2x1x128, .f32⟩
  | .local _ .vmem, ⟨10, _⟩ => ⟨S1x2x2048x128, .f32⟩
  | .local _ .vmem, ⟨11, _⟩ => ⟨S1x2x2048x128, .f32⟩
  | .local _ .vmem, ⟨12, _⟩ => ⟨S1x2x8x128, .f32⟩
  | .local _ .vmem, ⟨13, _⟩ => ⟨S1x2x8x128, .f32⟩
  | _, _ => ⟨S4x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44_0 : Ref sig .tc := ⟨.hbm, 54, rfl⟩
abbrev main_v44_1 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_3 : Ref sig .tc := ⟨.hbm, 59, rfl⟩
abbrev main_v48 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S4x8x1x64 : S_.BroadcastsInDim S4x8x1x64 (![] : Fin 0 → Fin S4x8x1x64.rank)
  slices_S5_S1_4 : S5.Slices ![4] S1
  shapeCasts_S1_S_ : S1.ShapeCasts S_
  slices_S5_S1_3 : S5.Slices ![3] S1
  slices_S5_S1_2 : S5.Slices ![2] S1
  slices_S5_S1_1 : S5.Slices ![1] S1
  slices_S5_S1_0 : S5.Slices ![0] S1
  concatenates_S4x8x1x64_S4x8x1x64_S4x8x1x128_d3 : Shape.Concatenates [S4x8x1x64, S4x8x1x64] S4x8x1x128 3
  bcast_S_S4x4096 : S_.BroadcastsInDim S4x4096 (![] : Fin 0 → Fin S4x4096.rank)
  shapeCasts_S4x4096_S4x2048x2 : S4x4096.ShapeCasts S4x2048x2
  slices_S4x2048x2_S4x2048x1_0_0_0 : S4x2048x2.Slices ![0, 0, 0] S4x2048x1
  bcast_S4x2048x1_S4x2048x64_0_1_2 : S4x2048x1.BroadcastsInDim S4x2048x64 (![0, 1, 2] : Fin 3 → Fin S4x2048x64.rank)
  slices_S4x2048x2_S4x2048x1_0_0_1 : S4x2048x2.Slices ![0, 0, 1] S4x2048x1
  concatenates_S4x2048x64_S4x2048x64_S4x2048x128_d2 : Shape.Concatenates [S4x2048x64, S4x2048x64] S4x2048x128 2
  shapeCasts_S4x2048x128_S4x1x2048x128 : S4x2048x128.ShapeCasts S4x1x2048x128
  shapeCasts_S4x8x4096x64_S4x8x2048x128 : S4x8x4096x64.ShapeCasts S4x8x2048x128
  inb_S1x1x2048x128_S1x1x2048x128_0_0_0_0 : ∀ a, (![0, 0, 0, 0] : Fin 4 → Nat) a + S1x1x2048x128.size a ≤ S1x1x2048x128.size a
  h_S1x1x2048x128 : 0 < S1x1x2048x128.numel
  shapeCasts_S1x1x2048x128_S2048x128 : S1x1x2048x128.ShapeCasts S2048x128
  inb_S1x2x2048x128_S1x1x2048x128_0_0_0_0 : ∀ a, (![0, 0, 0, 0] : Fin 4 → Nat) a + S1x1x2048x128.size a ≤ S1x2x2048x128.size a
  inb_S1x2x1x128_S1x1x1x128_0_0_0_0 : ∀ a, (![0, 0, 0, 0] : Fin 4 → Nat) a + S1x1x1x128.size a ≤ S1x2x1x128.size a
  h_S1x1x1x128 : 0 < S1x1x1x128.numel
  shapeCasts_S1x1x1x128_S1x128 : S1x1x1x128.ShapeCasts S1x128
  slices_S2048x128_o0_0_S2048x64 : S2048x128.Slices ![0, 0] S2048x64
  slices_S2048x128_o0_64_S2048x64 : S2048x128.Slices ![0, 64] S2048x64
  reduces_S2048x64_S2048 : S2048x64.Reduces [1] S2048
  shapeCasts_S2048_S2048x1 : S2048.ShapeCasts S2048x1
  shapeCasts_S2048x1_S2048x1 : S2048x1.ShapeCasts S2048x1
  broadcasts_S2048x1_S2048x64 : S2048x1.Broadcasts S2048x64
  concatenates_S2048x64_S2048x64_S2048x128_d1 : Shape.Concatenates [S2048x64, S2048x64] S2048x128 1
  reduces_S2048x64_S64 : S2048x64.Reduces [0] S64
  shapeCasts_S64_S1x64 : S64.ShapeCasts S1x64
  concatenates_S1x64_S1x64_S1x128_d1 : Shape.Concatenates [S1x64, S1x64] S1x128 1
  shapeCasts_S1x128_S1x128 : S1x128.ShapeCasts S1x128
  broadcasts_S1x128_S2048x128 : S1x128.Broadcasts S2048x128
  bitsLt_bf16_f32 : FTy.bits .bf16 < FTy.bits .f32
  slices_S1x128_o0_0_S1x64 : S1x128.Slices ![0, 0] S1x64
  slices_S1x128_o0_64_S1x64 : S1x128.Slices ![0, 64] S1x64
  broadcasts_S1x64_S2048x64 : S1x64.Broadcasts S2048x64
  shapeCasts_S2048x128_S1x1x2048x128 : S2048x128.ShapeCasts S1x1x2048x128
  iota_S64x64_d0_w32 : S64x64.Iotas .tc 32 [0]
  iota_S64x64_d1_w32 : S64x64.Iotas .tc 32 [1]
  natLt_1_32 : 1 < 32
  reduces_S64x64_S64 : S64x64.Reduces [1] S64
  shapeCasts_S64_S64x1 : S64.ShapeCasts S64x1
  reduces_S64x1_S1 : S64x1.Reduces [0] S1
  shapeCasts_S1_S1x1 : S1.ShapeCasts S1x1
  shapeCasts_S1x1_S1x1 : S1x1.ShapeCasts S1x1
  broadcasts_S1x1_S8x128 : S1x1.Broadcasts S8x128
  inb_S1x2x8x128_S1x1x8x128_0_0_0_0 : ∀ a, (![0, 0, 0, 0] : Fin 4 → Nat) a + S1x1x8x128.size a ≤ S1x2x8x128.size a
  h_S1x1x8x128 : 0 < S1x1x8x128.numel
  shapeCasts_S1x1x8x128_S8x128 : S1x1x8x128.ShapeCasts S8x128
  shapeCasts_S8x128_S1x1x8x128 : S8x128.ShapeCasts S1x1x8x128
  inb_S1x2x2048x128_S1x1x2048x128_0_1_0_0 : ∀ a, (![0, 1, 0, 0] : Fin 4 → Nat) a + S1x1x2048x128.size a ≤ S1x2x2048x128.size a
  inb_S1x2x1x128_S1x1x1x128_0_1_0_0 : ∀ a, (![0, 1, 0, 0] : Fin 4 → Nat) a + S1x1x1x128.size a ≤ S1x2x1x128.size a
  inb_S1x2x8x128_S1x1x8x128_0_1_0_0 : ∀ a, (![0, 1, 0, 0] : Fin 4 → Nat) a + S1x1x8x128.size a ≤ S1x2x8x128.size a
  shapeCasts_S4x8x2048x128_S4x8x4096x64 : S4x8x2048x128.ShapeCasts S4x8x4096x64
  slices_S4x8x8x128_S4x8x1x1_0_0_0_0 : S4x8x8x128.Slices ![0, 0, 0, 0] S4x8x1x1
  shapeCasts_S4x8x1x1_S4x8 : S4x8x1x1.ShapeCasts S4x8
  reducesTo_S4x8_S4_d1 : S4x8.ReducesTo [1] S4
  h_S_ : 0 < S_.numel
  dot_S2048x64_S2048x64_S64x64_0_0_1_1_n_n_wf : DotDims.WF S2048x64 S2048x64 S64x64 [0] [0] [1] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x2048x128.size a ≤ S4x8x2048x128.size a
  hwx0_0 : ∀ i : grid0.Coords, EltTy.bits .f32 = 32 ∨ (Rect.block (s := S4x8x2048x128) S1x2x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x2048x128.size a ≤ S4x8x2048x128.size a
  hwx0_1 : ∀ i : grid0.Coords, EltTy.bits .f32 = 32 ∨ (Rect.block (s := S4x8x2048x128) S1x2x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x2048x128.size a ≤ S4x8x2048x128.size a
  hwx0_2 : ∀ i : grid0.Coords, EltTy.bits .f32 = 32 ∨ (Rect.block (s := S4x8x2048x128) S1x2x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048x128.size a ≤ S4x1x2048x128.size a
  hwx0_3 : ∀ i : grid0.Coords, EltTy.bits .f32 = 32 ∨ (Rect.block (s := S4x1x2048x128) S1x1x2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x1x128.size a ≤ S4x8x1x128.size a
  hwx0_4 : ∀ i : grid0.Coords, EltTy.bits .f32 = 32 ∨ (Rect.block (s := S4x8x1x128) S1x2x1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2x2048x128.size a ≤ S4x8x2048x128.size a
  hwx0_5 : ∀ i : grid0.Coords, EltTy.bits .f32 = 32 ∨ (Rect.block (s := S4x8x2048x128) S1x2x2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2x8x128.size a ≤ S4x8x8x128.size a
  hwx0_6 : ∀ i : grid0.Coords, EltTy.bits .f32 = 32 ∨ (Rect.block (s := S4x8x8x128) S1x2x8x128.size (cc0_transform_6 i) (hinb0_6 i)).WholeWords (EltTy.packing .f32)

variable [Facts₀]

def dot_S2048x64_S2048x64_S64x64_0_0_1_1_n_n : DotDims S2048x64 S2048x64 S64x64 where
  lhsContracting := [0]
  rhsContracting := [0]
  lhsNonContracting := [1]
  rhsNonContracting := [1]
  lhsBatch := []
  rhsBatch := []
  wf := dot_S2048x64_S2048x64_S64x64_0_0_1_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_v41) S1x2x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S1x2x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x2x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x1x2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x2x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v44_0) S1x2x2048x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v44_1) S1x2x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x8x4096x64 : Shape := ⟨4, ![4, 8, 4096, 64]⟩
abbrev S4x8x1x64 : Shape := ⟨4, ![4, 8, 1, 64]⟩
abbrev S4x4096 : Shape := ⟨2, ![4, 4096]⟩
abbrev S5 : Shape := ⟨1, ![5]⟩
abbrev S_ : Shape := ⟨0, ![]⟩
abbrev S4x8x4096 : Shape := ⟨3, ![4, 8, 4096]⟩
abbrev S4x8x4096x1 : Shape := ⟨4, ![4, 8, 4096, 1]⟩
abbrev S4x1x4096x1 : Shape := ⟨4, ![4, 1, 4096, 1]⟩
abbrev S4x8x64 : Shape := ⟨3, ![4, 8, 64]⟩
abbrev S1 : Shape := ⟨1, ![1]⟩
abbrev S4x8x64x64 : Shape := ⟨4, ![4, 8, 64, 64]⟩
abbrev S64x64 : Shape := ⟨2, ![64, 64]⟩
abbrev S1x1x64x64 : Shape := ⟨4, ![1, 1, 64, 64]⟩
abbrev S4 : Shape := ⟨1, ![4]⟩

abbrev nBuf : Space → Nat
  | .hbm => 112
  | .vmem => 0
  | .smem => 0
  | _ => 0

abbrev bufTy : (tb : Table) → Fin (tcTables nBuf tb) → BufTy
  | .hbm, ⟨0, _⟩ => ⟨S4x8x4096x64, .f32⟩
  | .hbm, ⟨1, _⟩ => ⟨S4x8x1x64, .f32⟩
  | .hbm, ⟨2, _⟩ => ⟨S4x8x4096x64, .f32⟩
  | .hbm, ⟨3, _⟩ => ⟨S4x8x4096x64, .f32⟩
  | .hbm, ⟨4, _⟩ => ⟨S4x4096, .f32⟩
  | .hbm, ⟨5, _⟩ => ⟨S5, .f32⟩
  | .hbm, ⟨6, _⟩ => ⟨S_, .f32⟩
  | .hbm, ⟨7, _⟩ => ⟨S4x8x4096, .f32⟩
  | .hbm, ⟨8, _⟩ => ⟨S_, .f32⟩
  | .hbm, ⟨9, _⟩ => ⟨S4x8x4096, .f32⟩
  | .hbm, ⟨10, _⟩ => ⟨S4x8x4096, .f32⟩
  | .hbm, ⟨11, _⟩ => ⟨S4x8x4096x1, .f32⟩
  | .hbm, ⟨12, _⟩ => ⟨S4x8x4096x64, .f32⟩
  | .hbm, ⟨13, _⟩ => ⟨S4x8x4096x64, .f32⟩
  | .hbm, ⟨14, _⟩ => ⟨S4x8x4096x64, .f32⟩
  | .hbm, ⟨15, _⟩ => ⟨S_, .f32⟩
  | .hbm, ⟨16, _⟩ => ⟨S4x8x4096, .f32⟩
  | .hbm, ⟨17, _⟩ => ⟨S4x8x4096x1, .f32⟩
  | .hbm, ⟨18, _⟩ => ⟨S4x8x4096x64, .f32⟩
  | .hbm, ⟨19, _⟩ => ⟨S4x8x4096x64, .f32⟩
  | .hbm, ⟨20, _⟩ => ⟨S4x1x4096x1, .f32⟩
  | .hbm, ⟨21, _⟩ => ⟨S_, .f32⟩
  | .hbm, ⟨22, _⟩ => ⟨S4x1x4096x1, .f32⟩
  | .hbm, ⟨23, _⟩ => ⟨S4x1x4096x1, .f32⟩
  | .hbm, ⟨24, _⟩ => ⟨S_, .f32⟩
  | .hbm, ⟨25, _⟩ => ⟨S4x1x4096x1, .f32⟩
  | .hbm, ⟨26, _⟩ => ⟨S4x1x4096x1, .f32⟩
  | .hbm, ⟨27, _⟩ => ⟨S4x8x4096x64, .f32⟩
  | .hbm, ⟨28, _⟩ => ⟨S4x8x4096x64, .f32⟩
  | .hbm, ⟨29, _⟩ => ⟨S_, .f32⟩
  | .hbm, ⟨30, _⟩ => ⟨S4x8x64, .f32⟩
  | .hbm, ⟨31, _⟩ => ⟨S_, .f32⟩
  | .hbm, ⟨32, _⟩ => ⟨S4x8x64, .f32⟩
  | .hbm, ⟨33, _⟩ => ⟨S4x8x64, .f32⟩
  | .hbm, ⟨34, _⟩ => ⟨S4x8x1x64, .f32⟩
  | .hbm, ⟨35, _⟩ => ⟨S4x8x4096x64, .f32⟩
  | .hbm, ⟨36, _⟩ => ⟨S4x8x4096x64, .f32⟩
  | .hbm, ⟨37, _⟩ => ⟨S4x8x4096x64, .f32⟩
  | .hbm, ⟨38, _⟩ => ⟨S_, .f32⟩
  | .hbm, ⟨39, _⟩ => ⟨S4x8x64, .f32⟩
  | .hbm, ⟨40, _⟩ => ⟨S4x8x1x64, .f32⟩
  | .hbm, ⟨41, _⟩ => ⟨S4x8x4096x64, .f32⟩
  | .hbm, ⟨42, _⟩ => ⟨S4x8x4096x64, .f32⟩
  | .hbm, ⟨43, _⟩ => ⟨S4x8x1x64, .f32⟩
  | .hbm, ⟨44, _⟩ => ⟨S4x8x1x64, .f32⟩
  | .hbm, ⟨45, _⟩ => ⟨S_, .f32⟩
  | .hbm, ⟨46, _⟩ => ⟨S4x8x1x64, .f32⟩
  | .hbm, ⟨47, _⟩ => ⟨S4x8x1x64, .f32⟩
  | .hbm, ⟨48, _⟩ => ⟨S_, .f32⟩
  | .hbm, ⟨49, _⟩ => ⟨S4x8x1x64, .f32⟩
  | .hbm, ⟨50, _⟩ => ⟨S4x8x1x64, .f32⟩
  | .hbm, ⟨51, _⟩ => ⟨S1, .f32⟩
  | .hbm, ⟨52, _⟩ => ⟨S_, .f32⟩
  | .hbm, ⟨53, _⟩ => ⟨S4x8x1x64, .f32⟩
  | .hbm, ⟨54, _⟩ => ⟨S4x8x1x64, .f32⟩
  | .hbm, ⟨55, _⟩ => ⟨S1, .f32⟩
  | .hbm, ⟨56, _⟩ => ⟨S_, .f32⟩
  | .hbm, ⟨57, _⟩ => ⟨S4x8x1x64, .f32⟩
  | .hbm, ⟨58, _⟩ => ⟨S4x8x1x64, .f32⟩
  | .hbm, ⟨59, _⟩ => ⟨S4x8x1x64, .f32⟩
  | .hbm, ⟨60, _⟩ => ⟨S1, .f32⟩
  | .hbm, ⟨61, _⟩ => ⟨S_, .f32⟩
  | .hbm, ⟨62, _⟩ => ⟨S4x8x1x64, .f32⟩
  | .hbm, ⟨63, _⟩ => ⟨S4x8x1x64, .f32⟩
  | .hbm, ⟨64, _⟩ => ⟨S4x8x1x64, .f32⟩
  | .hbm, ⟨65, _⟩ => ⟨S1, .f32⟩
  | .hbm, ⟨66, _⟩ => ⟨S_, .f32⟩
  | .hbm, ⟨67, _⟩ => ⟨S4x8x1x64, .f32⟩
  | .hbm, ⟨68, _⟩ => ⟨S4x8x1x64, .f32⟩
  | .hbm, ⟨69, _⟩ => ⟨S4x8x1x64, .f32⟩
  | .hbm, ⟨70, _⟩ => ⟨S1, .f32⟩
  | .hbm, ⟨71, _⟩ => ⟨S_, .f32⟩
  | .hbm, ⟨72, _⟩ => ⟨S4x8x1x64, .f32⟩
  | .hbm, ⟨73, _⟩ => ⟨S4x8x1x64, .f32⟩
  | .hbm, ⟨74, _⟩ => ⟨S4x8x64x64, .f32⟩
  | .hbm, ⟨75, _⟩ => ⟨S4x8x4096x64, .f32⟩
  | .hbm, ⟨76, _⟩ => ⟨S4x8x4096x64, .f32⟩
  | .hbm, ⟨77, _⟩ => ⟨S4x8x4096x64, .f32⟩
  | .hbm, ⟨78, _⟩ => ⟨S64x64, .i32⟩
  | .hbm, ⟨79, _⟩ => ⟨S64x64, .i32⟩
  | .hbm, ⟨80, _⟩ => ⟨S_, .i32⟩
  | .hbm, ⟨81, _⟩ => ⟨S64x64, .i32⟩
  | .hbm, ⟨82, _⟩ => ⟨S64x64, .i32⟩
  | .hbm, ⟨83, _⟩ => ⟨S64x64, .i1⟩
  | .hbm, ⟨84, _⟩ => ⟨S64x64, .f32⟩
  | .hbm, ⟨85, _⟩ => ⟨S4x8x64x64, .f32⟩
  | .hbm, ⟨86, _⟩ => ⟨S1x1x64x64, .f32⟩
  | .hbm, ⟨87, _⟩ => ⟨S4x8x64x64, .f32⟩
  | .hbm, ⟨88, _⟩ => ⟨S4x8x64x64, .f32⟩
  | .hbm, ⟨89, _⟩ => ⟨S4x8x64x64, .f32⟩
  | .hbm, ⟨90, _⟩ => ⟨S_, .f32⟩
  | .hbm, ⟨91, _⟩ => ⟨S4, .f32⟩
  | .hbm, ⟨92, _⟩ => ⟨S_, .f32⟩
  | .hbm, ⟨93, _⟩ => ⟨S4, .f32⟩
  | .hbm, ⟨94, _⟩ => ⟨S4, .f32⟩
  | .hbm, ⟨95, _⟩ => ⟨S_, .f32⟩
  | .hbm, ⟨96, _⟩ => ⟨S4, .f32⟩
  | .hbm, ⟨97, _⟩ => ⟨S4, .f32⟩
  | .hbm, ⟨98, _⟩ => ⟨S4x8x64x64, .f32⟩
  | .hbm, ⟨99, _⟩ => ⟨S1x1x64x64, .f32⟩
  | .hbm, ⟨100, _⟩ => ⟨S4x8x64x64, .f32⟩
  | .hbm, ⟨101, _⟩ => ⟨S4x8x64x64, .f32⟩
  | .hbm, ⟨102, _⟩ => ⟨S4x8x64x64, .f32⟩
  | .hbm, ⟨103, _⟩ => ⟨S_, .f32⟩
  | .hbm, ⟨104, _⟩ => ⟨S4, .f32⟩
  | .hbm, ⟨105, _⟩ => ⟨S_, .f32⟩
  | .hbm, ⟨106, _⟩ => ⟨S4, .f32⟩
  | .hbm, ⟨107, _⟩ => ⟨S4, .f32⟩
  | .hbm, ⟨108, _⟩ => ⟨S_, .f32⟩
  | .hbm, ⟨109, _⟩ => ⟨S4, .f32⟩
  | .hbm, ⟨110, _⟩ => ⟨S4, .f32⟩
  | .hbm, ⟨111, _⟩ => ⟨S4, .f32⟩
  | _, _ => ⟨S4x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_9 : Ref sig .tc := ⟨.hbm, 90, rfl⟩
abbrev main_v73 : Ref sig .tc := ⟨.hbm, 91, rfl⟩
abbrev main_cst_10 : Ref sig .tc := ⟨.hbm, 92, rfl⟩
abbrev main_v74 : Ref sig .tc := ⟨.hbm, 93, rfl⟩
abbrev main_v75 : Ref sig .tc := ⟨.hbm, 94, rfl⟩
abbrev main_cst_11 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_cst_12 : Ref sig .tc := ⟨.hbm, 103, rfl⟩
abbrev main_v83 : Ref sig .tc := ⟨.hbm, 104, rfl⟩
abbrev main_cst_13 : Ref sig .tc := ⟨.hbm, 105, rfl⟩
abbrev main_v84 : Ref sig .tc := ⟨.hbm, 106, rfl⟩
abbrev main_v85 : Ref sig .tc := ⟨.hbm, 107, rfl⟩
abbrev main_cst_14 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩

abbrev nD : Nat := 1
abbrev τ : Topo := Topo.v7x

variable {F : FTy → Type} [FloatOps F]

class Facts₀ : Prop where
  reducesTo_S4x8x4096x64_S4x8x4096_d3 : S4x8x4096x64.ReducesTo [3] S4x8x4096
  h_S_ : 0 < S_.numel
  bcast_S_S4x8x4096 : S_.BroadcastsInDim S4x8x4096 (![] : Fin 0 → Fin S4x8x4096.rank)
  bcast_S4x8x4096_S4x8x4096x1_0_1_2 : S4x8x4096.BroadcastsInDim S4x8x4096x1 (![0, 1, 2] : Fin 3 → Fin S4x8x4096x1.rank)
  bcast_S4x8x4096x1_S4x8x4096x64_0_1_2_3 : S4x8x4096x1.BroadcastsInDim S4x8x4096x64 (![0, 1, 2, 3] : Fin 4 → Fin S4x8x4096x64.rank)
  bcast_S4x4096_S4x1x4096x1_0_2 : S4x4096.BroadcastsInDim S4x1x4096x1 (![0, 2] : Fin 2 → Fin S4x1x4096x1.rank)
  bcast_S_S4x1x4096x1 : S_.BroadcastsInDim S4x1x4096x1 (![] : Fin 0 → Fin S4x1x4096x1.rank)
  bcast_S4x1x4096x1_S4x8x4096x64_0_1_2_3 : S4x1x4096x1.BroadcastsInDim S4x8x4096x64 (![0, 1, 2, 3] : Fin 4 → Fin S4x8x4096x64.rank)
  reducesTo_S4x8x4096x64_S4x8x64_d2 : S4x8x4096x64.ReducesTo [2] S4x8x64
  bcast_S_S4x8x64 : S_.BroadcastsInDim S4x8x64 (![] : Fin 0 → Fin S4x8x64.rank)
  bcast_S4x8x64_S4x8x1x64_0_1_3 : S4x8x64.BroadcastsInDim S4x8x1x64 (![0, 1, 3] : Fin 3 → Fin S4x8x1x64.rank)
  bcast_S4x8x1x64_S4x8x4096x64_0_1_2_3 : S4x8x1x64.BroadcastsInDim S4x8x4096x64 (![0, 1, 2, 3] : Fin 4 → Fin S4x8x4096x64.rank)
  bcast_S_S4x8x1x64 : S_.BroadcastsInDim S4x8x1x64 (![] : Fin 0 → Fin S4x8x1x64.rank)
  slices_S5_S1_4 : S5.Slices ![4] S1
  shapeCasts_S1_S_ : S1.ShapeCasts S_
  slices_S5_S1_3 : S5.Slices ![3] S1
  slices_S5_S1_2 : S5.Slices ![2] S1
  slices_S5_S1_1 : S5.Slices ![1] S1
  slices_S5_S1_0 : S5.Slices ![0] S1
  bcast_S_S64x64 : S_.BroadcastsInDim S64x64 (![] : Fin 0 → Fin S64x64.rank)
  bcast_S64x64_S1x1x64x64_2_3 : S64x64.BroadcastsInDim S1x1x64x64 (![2, 3] : Fin 2 → Fin S1x1x64x64.rank)
  bcast_S1x1x64x64_S4x8x64x64_0_1_2_3 : S1x1x64x64.BroadcastsInDim S4x8x64x64 (![0, 1, 2, 3] : Fin 4 → Fin S4x8x64x64.rank)
  reducesTo_S4x8x64x64_S4_d1_2_3 : S4x8x64x64.ReducesTo [1, 2, 3] S4
  bcast_S_S4 : S_.BroadcastsInDim S4 (![] : Fin 0 → Fin S4.rank)
  dot_S4x8x4096x64_S4x8x4096x64_S4x8x64x64_2_2_3_3_01_01_wf : DotDims.WF S4x8x4096x64 S4x8x4096x64 S4x8x64x64 [2] [2] [3] [3] [0, 1] [0, 1]
  dot_S4x8x4096x64_S4x8x64x64_S4x8x4096x64_3_2_2_3_01_01_wf : DotDims.WF S4x8x4096x64 S4x8x64x64 S4x8x4096x64 [3] [2] [2] [3] [0, 1] [0, 1]

variable [Facts₀]

def dot_S4x8x4096x64_S4x8x4096x64_S4x8x64x64_2_2_3_3_01_01 : DotDims S4x8x4096x64 S4x8x4096x64 S4x8x64x64 where
  lhsContracting := [2]
  rhsContracting := [2]
  lhsNonContracting := [3]
  rhsNonContracting := [3]
  lhsBatch := [0, 1]
  rhsBatch := [0, 1]
  wf := dot_S4x8x4096x64_S4x8x4096x64_S4x8x64x64_2_2_3_3_01_01_wf
def dot_S4x8x4096x64_S4x8x64x64_S4x8x4096x64_3_2_2_3_01_01 : DotDims S4x8x4096x64 S4x8x64x64 S4x8x4096x64 where
  lhsContracting := [3]
  rhsContracting := [2]
  lhsNonContracting := [2]
  rhsNonContracting := [3]
  lhsBatch := [0, 1]
  rhsBatch := [0, 1]
  wf := dot_S4x8x4096x64_S4x8x64x64_S4x8x4096x64_3_2_2_3_01_01_wf

class Facts : Prop extends Facts₀ where

variable [Facts]
-- ==== Proof.Head.lean ====
/-
  One head of the attention block, on lane-packed arrays.

  A packed array has 2048 rows of 128 lanes: row p holds sequence positions 2p (lanes 0–63) and 2p+1
  (lanes 64–127), each with its 64 rank coordinates. For one head the block computes, from the packed U,
  svd_V, V, the packed mask bias and the packed filter row:
    qOf   — the softmax of U over the 64 rank coordinates, separately in each half of every row;
    kOf   — the softmax of svd_V + bias over ALL sequence positions (both halves of all rows), per rank coordinate;
    xOf   — (q · filter) times (kᵀ V), the contraction over positions taken as the sum of the two halves' products;
    auxOf — 0.0125 · (mean |qᵀq − I| + mean |kᵀk − I|), spread over an (8,128) tile.
  Each value the block stores is one of these functions of the values it loads, the second head's as the first's.
-/
import proofs.«132056_j86612310491926_2_alg».proof.Proof.Gen.KernelIdeal.Skeleton

noncomputable section

namespace Cert.KernelIdeal.Head

open Idealize.ShloMosaic Idealize.SL.Sem Cert.KernelIdeal Cert.KernelIdeal.Gen

variable {F : FTy → Type} [FloatOps F]

/-- exp (u − m): m the maximum over the 64 lanes of the half of the row the entry lies in. -/
def expShifted (u : FVec F S2048x128 .f32) : FVec F S2048x128 .f32 :=
  have v10 : FVec F S2048x64 .f32 := extractStridedSlice S2048x64 ![0, 0] u slices_S2048x128_o0_0_S2048x64
  have v11 : FVec F S2048x64 .f32 := extractStridedSlice S2048x64 ![0, 64] u slices_S2048x128_o0_64_S2048x64
  have v12 : FVec F S2048 .f32 := multiReduction .maximumf [1] S2048 v10 0xFF800000#32 reduces_S2048x64_S2048 (.inl rfl) rfl
  have v13 : FVec F S2048x1 .f32 := shapeCast S2048x1 v12 shapeCasts_S2048_S2048x1
  have v14 : FVec F S2048 .f32 := multiReduction .maximumf [1] S2048 v11 0xFF800000#32 reduces_S2048x64_S2048 (.inl rfl) rfl
  have v15 : FVec F S2048x1 .f32 := shapeCast S2048x1 v14 shapeCasts_S2048_S2048x1
  have v16 : FVec F S2048x1 .f32 := shapeCast S2048x1 v13 shapeCasts_S2048x1_S2048x1
  have v17 : FVec F S2048x64 .f32 := broadcastTo S2048x64 v16 broadcasts_S2048x1_S2048x64
  have v18 : FVec F S2048x1 .f32 := shapeCast S2048x1 v15 shapeCasts_S2048x1_S2048x1
  have v19 : FVec F S2048x64 .f32 := broadcastTo S2048x64 v18 broadcasts_S2048x1_S2048x64
  have v20 : FVec F S2048x128 .f32 := concatenate S2048x128 1 [⟨S2048x64, v17⟩, ⟨S2048x64, v19⟩] concatenates_S2048x64_S2048x64_S2048x128_d1
  have v21 : FVec F S2048x128 .f32 := subf u v20
  have v22 : FVec F S2048x128 .f32 := exp v21
  v22

/-- The sum of e over the 64 lanes of the half of the row the entry lies in, spread back over that half. -/
def halfRowSums (e : FVec F S2048x128 .f32) : FVec F S2048x128 .f32 :=
  have v23 : FVec F S2048x64 .f32 := extractStridedSlice S2048x64 ![0, 0] e slices_S2048x128_o0_0_S2048x64
  have v24 : FVec F S2048 .f32 := multiReduction .add [1] S2048 v23 0x00000000#32 reduces_S2048x64_S2048 (.inl rfl) rfl
  have v25 : FVec F S2048x1 .f32 := shapeCast S2048x1 v24 shapeCasts_S2048_S2048x1
  have v26 : FVec F S2048x64 .f32 := extractStridedSlice S2048x64 ![0, 64] e slices_S2048x128_o0_64_S2048x64
  have v27 : FVec F S2048 .f32 := multiReduction .add [1] S2048 v26 0x00000000#32 reduces_S2048x64_S2048 (.inl rfl) rfl
  have v28 : FVec F S2048x1 .f32 := shapeCast S2048x1 v27 shapeCasts_S2048_S2048x1
  have v29 : FVec F S2048x1 .f32 := shapeCast S2048x1 v25 shapeCasts_S2048x1_S2048x1
  have v30 : FVec F S2048x64 .f32 := broadcastTo S2048x64 v29 broadcasts_S2048x1_S2048x64
  have v31 : FVec F S2048x1 .f32 := shapeCast S2048x1 v28 shapeCasts_S2048x1_S2048x1
  have v32 : FVec F S2048x64 .f32 := broadcastTo S2048x64 v31 broadcasts_S2048x1_S2048x64
  have v33 : FVec F S2048x128 .f32 := concatenate S2048x128 1 [⟨S2048x64, v30⟩, ⟨S2048x64, v32⟩] concatenates_S2048x64_S2048x64_S2048x128_d1
  v33

/-- The softmax over the rank coordinates, in each half of every packed row. -/
def qOf (u : FVec F S2048x128 .f32) : FVec F S2048x128 .f32 :=
  divf (expShifted u) (halfRowSums (expShifted u))

/-- The softmax of sv + bias over all sequence positions — both halves of all rows — per rank coordinate. -/
def kOf (bias sv : FVec F S2048x128 .f32) : FVec F S2048x128 .f32 :=
  have v35 : FVec F S2048x128 .f32 := addf sv bias
  have v36 : FVec F S2048x64 .f32 := extractStridedSlice S2048x64 ![0, 0] v35 slices_S2048x128_o0_0_S2048x64
  have v37 : FVec F S2048x64 .f32 := extractStridedSlice S2048x64 ![0, 64] v35 slices_S2048x128_o0_64_S2048x64
  have v38 : FVec F S64 .f32 := multiReduction .maximumf [0] S64 v36 0xFF800000#32 reduces_S2048x64_S64 (.inl rfl) rfl
  have v39 : FVec F S1x64 .f32 := shapeCast S1x64 v38 shapeCasts_S64_S1x64
  have v40 : FVec F S64 .f32 := multiReduction .maximumf [0] S64 v37 0xFF800000#32 reduces_S2048x64_S64 (.inl rfl) rfl
  have v41 : FVec F S1x64 .f32 := shapeCast S1x64 v40 shapeCasts_S64_S1x64
  have v42 : FVec F S1x64 .f32 := maximumf v39 v41
  have v43 : FVec F S1x128 .f32 := concatenate S1x128 1 [⟨S1x64, v42⟩, ⟨S1x64, v42⟩] concatenates_S1x64_S1x64_S1x128_d1
  have v44 : FVec F S1x128 .f32 := shapeCast S1x128 v43 shapeCasts_S1x128_S1x128
  have v45 : FVec F S2048x128 .f32 := broadcastTo S2048x128 v44 broadcasts_S1x128_S2048x128
  have v46 : FVec F S2048x128 .f32 := subf v35 v45
  have v47 : FVec F S2048x128 .f32 := exp v46
  have v48 : FVec F S2048x64 .f32 := extractStridedSlice S2048x64 ![0, 0] v47 slices_S2048x128_o0_0_S2048x64
  have v49 : FVec F S64 .f32 := multiReduction .add [0] S64 v48 0x00000000#32 reduces_S2048x64_S64 (.inl rfl) rfl
  have v50 : FVec F S1x64 .f32 := shapeCast S1x64 v49 shapeCasts_S64_S1x64
  have v51 : FVec F S2048x64 .f32 := extractStridedSlice S2048x64 ![0, 64] v47 slices_S2048x128_o0_64_S2048x64
  have v52 : FVec F S64 .f32 := multiReduction .add [0] S64 v51 0x00000000#32 reduces_S2048x64_S64 (.inl rfl) rfl
  have v53 : FVec F S1x64 .f32 := shapeCast S1x64 v52 shapeCasts_S64_S1x64
  have v54 : FVec F S1x64 .f32 := addf v50 v53
  have v55 : FVec F S1x128 .f32 := concatenate S1x128 1 [⟨S1x64, v54⟩, ⟨S1x64, v54⟩] concatenates_S1x64_S1x64_S1x128_d1
  have v56 : FVec F S1x128 .f32 := shapeCast S1x128 v55 shapeCasts_S1x128_S1x128
  have v57 : FVec F S2048x128 .f32 := broadcastTo S2048x128 v56 broadcasts_S1x128_S2048x128
  have v58 : FVec F S2048x128 .f32 := divf v47 v57
  v58

/-- (q · filter) (kᵀ V) for both halves of every row. -/
def xOf (q k v : FVec F S2048x128 .f32) (f : FVec F S1x128 .f32) : FVec F S2048x128 .f32 :=
  have v59 : FVec F S2048x64 .f32 := extractStridedSlice S2048x64 ![0, 0] q slices_S2048x128_o0_0_S2048x64
  have v60 : FVec F S2048x64 .f32 := extractStridedSlice S2048x64 ![0, 64] q slices_S2048x128_o0_64_S2048x64
  have v61 : FVec F S2048x64 .f32 := extractStridedSlice S2048x64 ![0, 0] k slices_S2048x128_o0_0_S2048x64
  have v62 : FVec F S2048x64 .f32 := extractStridedSlice S2048x64 ![0, 64] k slices_S2048x128_o0_64_S2048x64
  have v65 : FVec F S2048x64 .bf16 := truncf .bf16 v61 bitsLt_bf16_f32
  have v66 : FVec F S2048x64 .bf16 := truncf .bf16 v62 bitsLt_bf16_f32
  have v63 : FVec F S2048x64 .f32 := extractStridedSlice S2048x64 ![0, 0] v slices_S2048x128_o0_0_S2048x64
  have v64 : FVec F S2048x64 .f32 := extractStridedSlice S2048x64 ![0, 64] v slices_S2048x128_o0_64_S2048x64
  have v67 : FVec F S2048x64 .bf16 := truncf .bf16 v63 bitsLt_bf16_f32
  have v68 : FVec F S2048x64 .bf16 := truncf .bf16 v64 bitsLt_bf16_f32
  have cst_26 : FVec F S64x64 .f32 := constant S64x64 .f32 0x00000000#32
  have v69 : FVec F S64x64 .f32 := matmul dot_S2048x64_S2048x64_S64x64_0_0_1_1_n_n none v65 v67 cst_26
  have cst_27 : FVec F S64x64 .f32 := constant S64x64 .f32 0x00000000#32
  have v70 : FVec F S64x64 .f32 := matmul dot_S2048x64_S2048x64_S64x64_0_0_1_1_n_n none v66 v68 cst_27
  have v71 : FVec F S64x64 .f32 := addf v69 v70
  have v72 : FVec F S1x64 .f32 := extractStridedSlice S1x64 ![0, 0] f slices_S1x128_o0_0_S1x64
  have v73 : FVec F S1x64 .f32 := extractStridedSlice S1x64 ![0, 64] f slices_S1x128_o0_64_S1x64
  have v74 : FVec F S2048x64 .f32 := broadcastTo S2048x64 v72 broadcasts_S1x64_S2048x64
  have v75 : FVec F S2048x64 .f32 := mulf v59 v74
  have v76 : FVec F S2048x64 .f32 := broadcastTo S2048x64 v73 broadcasts_S1x64_S2048x64
  have v77 : FVec F S2048x64 .f32 := mulf v60 v76
  have v78 : FVec F S64x64 .bf16 := truncf .bf16 v71 bitsLt_bf16_f32
  have v79 : FVec F S2048x64 .bf16 := truncf .bf16 v75 bitsLt_bf16_f32
  have cst_28 : FVec F S2048x64 .f32 := constant S2048x64 .f32 0x00000000#32
  have v80 : FVec F S2048x64 .f32 := matmul dot_S2048x64_S64x64_S2048x64_1_0_0_1_n_n none v79 v78 cst_28
  have v81 : FVec F S2048x64 .bf16 := truncf .bf16 v77 bitsLt_bf16_f32
  have cst_29 : FVec F S2048x64 .f32 := constant S2048x64 .f32 0x00000000#32
  have v82 : FVec F S2048x64 .f32 := matmul dot_S2048x64_S64x64_S2048x64_1_0_0_1_n_n none v81 v78 cst_29
  have v83 : FVec F S2048x128 .f32 := concatenate S2048x128 1 [⟨S2048x64, v80⟩, ⟨S2048x64, v82⟩] concatenates_S2048x64_S2048x64_S2048x128_d1
  v83

/-- 0.0125 · (mean |qᵀq − I| + mean |kᵀk − I|), spread over an (8,128) tile. -/
def auxOf (q k : FVec F S2048x128 .f32) : FVec F S8x128 .f32 :=
  have v59 : FVec F S2048x64 .f32 := extractStridedSlice S2048x64 ![0, 0] q slices_S2048x128_o0_0_S2048x64
  have v60 : FVec F S2048x64 .f32 := extractStridedSlice S2048x64 ![0, 64] q slices_S2048x128_o0_64_S2048x64
  have v61 : FVec F S2048x64 .f32 := extractStridedSlice S2048x64 ![0, 0] k slices_S2048x128_o0_0_S2048x64
  have v62 : FVec F S2048x64 .f32 := extractStridedSlice S2048x64 ![0, 64] k slices_S2048x128_o0_64_S2048x64
  have v65 : FVec F S2048x64 .bf16 := truncf .bf16 v61 bitsLt_bf16_f32
  have v66 : FVec F S2048x64 .bf16 := truncf .bf16 v62 bitsLt_bf16_f32
  have v87 : IVec S64x64 32 := iota .tc S64x64 32 [0] iota_S64x64_d0_w32
  have v88 : IVec S64x64 32 := iota .tc S64x64 32 [1] iota_S64x64_d1_w32
  have v89 : IVec S64x64 1 := cmpi .eq v87 v88
  have v90 : IVec S64x64 32 := extui 32 v89 natLt_1_32
  have v91 : FVec F S64x64 .f32 := sitofp .f32 v90
  have v92 : FVec F S2048x64 .bf16 := truncf .bf16 v59 bitsLt_bf16_f32
  have v93 : FVec F S2048x64 .bf16 := truncf .bf16 v60 bitsLt_bf16_f32
  have cst_34 : FVec F S64x64 .f32 := constant S64x64 .f32 0x00000000#32
  have v94 : FVec F S64x64 .f32 := matmul dot_S2048x64_S2048x64_S64x64_0_0_1_1_n_n none v92 v92 cst_34
  have cst_35 : FVec F S64x64 .f32 := constant S64x64 .f32 0x00000000#32
  have v95 : FVec F S64x64 .f32 := matmul dot_S2048x64_S2048x64_S64x64_0_0_1_1_n_n none v93 v93 cst_35
  have v96 : FVec F S64x64 .f32 := addf v94 v95
  have v97 : FVec F S64x64 .f32 := subf v96 v91
  have cst_36 : FVec F S64x64 .f32 := constant S64x64 .f32 0x00000000#32
  have v98 : FVec F S64x64 .f32 := matmul dot_S2048x64_S2048x64_S64x64_0_0_1_1_n_n none v65 v65 cst_36
  have cst_37 : FVec F S64x64 .f32 := constant S64x64 .f32 0x00000000#32
  have v99 : FVec F S64x64 .f32 := matmul dot_S2048x64_S2048x64_S64x64_0_0_1_1_n_n none v66 v66 cst_37
  have v100 : FVec F S64x64 .f32 := addf v98 v99
  have v101 : FVec F S64x64 .f32 := subf v100 v91
  have v102 : FVec F S64x64 .f32 := absf v97
  have v103 : FVec F S64 .f32 := multiReduction .add [1] S64 v102 0x00000000#32 reduces_S64x64_S64 (.inl rfl) rfl
  have v104 : FVec F S64x1 .f32 := shapeCast S64x1 v103 shapeCasts_S64_S64x1
  have v105 : FVec F S1 .f32 := multiReduction .add [0] S1 v104 0x00000000#32 reduces_S64x1_S1 (.inl rfl) rfl
  have v106 : FVec F S1x1 .f32 := shapeCast S1x1 v105 shapeCasts_S1_S1x1
  have cst_40 : F .f32 := Scalar.ofBits .f32 0x45800000#32
  have v107 : FVec F S1x1 .f32 := broadcast S1x1 cst_40
  have v108 : FVec F S1x1 .f32 := divf v106 v107
  have v109 : FVec F S64x64 .f32 := absf v101
  have v110 : FVec F S64 .f32 := multiReduction .add [1] S64 v109 0x00000000#32 reduces_S64x64_S64 (.inl rfl) rfl
  have v111 : FVec F S64x1 .f32 := shapeCast S64x1 v110 shapeCasts_S64_S64x1
  have v112 : FVec F S1 .f32 := multiReduction .add [0] S1 v111 0x00000000#32 reduces_S64x1_S1 (.inl rfl) rfl
  have v113 : FVec F S1x1 .f32 := shapeCast S1x1 v112 shapeCasts_S1_S1x1
  have cst_43 : F .f32 := Scalar.ofBits .f32 0x45800000#32
  have v114 : FVec F S1x1 .f32 := broadcast S1x1 cst_43
  have v115 : FVec F S1x1 .f32 := divf v113 v114
  have v116 : FVec F S1x1 .f32 := addf v108 v115
  have cst_44 : F .f32 := Scalar.ofBits .f32 0x3C4CCCCD#32
  have v117 : FVec F S1x1 .f32 := broadcast S1x1 cst_44
  have v118 : FVec F S1x1 .f32 := mulf v117 v116
  have v119 : FVec F S1x1 .f32 := shapeCast S1x1 v118 shapeCasts_S1x1_S1x1
  have v120 : FVec F S8x128 .f32 := broadcastTo S8x128 v119 broadcasts_S1x1_S8x128
  v120

/-- A loaded (1,1,2048,128) piece as a packed array. -/
abbrev flat (x : Vec F S1x1x2048x128 .f32) : FVec F S2048x128 .f32 := shapeCast S2048x128 x shapeCasts_S1x1x2048x128_S2048x128
/-- A loaded (1,1,1,128) piece as a row. -/
abbrev flatRow (x : Vec F S1x1x1x128 .f32) : FVec F S1x128 .f32 := shapeCast S1x128 x shapeCasts_S1x1x1x128_S1x128

/-- What a head writes to the output block, of what it loads. -/
def headX (u s v b : Vec F S1x1x2048x128 .f32) (f : Vec F S1x1x1x128 .f32) : FVec F S1x1x2048x128 .f32 :=
  shapeCast S1x1x2048x128 (xOf (qOf (flat u)) (kOf (flat b) (flat s)) (flat v) (flatRow f)) shapeCasts_S2048x128_S1x1x2048x128
/-- What a head writes to the loss tile, of what it loads. -/
def headAux (u s b : Vec F S1x1x2048x128 .f32) : FVec F S1x1x8x128 .f32 :=
  shapeCast S1x1x8x128 (auxOf (qOf (flat u)) (kOf (flat b) (flat s))) shapeCasts_S8x128_S1x1x8x128

/-- The first head's output store. -/
theorem storeX_first (u s v b : Vec F S1x1x2048x128 .f32) (f : Vec F S1x1x1x128 .f32) :
    k0_pay15 (k0_pay14 (k0_pay2 b) (k0_pay3 s) (k0_pay4 v) (k0_pay5 f) (k0_pay6 u) (k0_pay7 u)) = headX u s v b f := rfl

/-- The second head's output store. -/
theorem storeX_second (u s v b : Vec F S1x1x2048x128 .f32) (f : Vec F S1x1x1x128 .f32) :
    k0_pay28 (k0_pay17 v) (k0_pay18 f) (k0_pay19 u) (k0_pay20 (k0_pay2 b) s) (k0_pay21 (k0_pay2 b) s) (k0_pay22 (k0_pay2 b) s)
      = headX u s v b f := rfl

/-- The first head's loss-tile store. -/
theorem storeAux_first (u s b : Vec F S1x1x2048x128 .f32) :
    k0_pay16 (k0_pay10 (k0_pay6 u) (k0_pay7 u)) (k0_pay11 (k0_pay6 u) (k0_pay7 u)) (k0_pay12 (k0_pay2 b) (k0_pay3 s)) (k0_pay13 (k0_pay2 b) (k0_pay3 s))
      = headAux u s b := rfl

/-- The second head's loss-tile store. -/
theorem storeAux_second (u s b : Vec F S1x1x2048x128 .f32) :
    k0_pay1 (k0_pay24 (k0_pay19 u)) (k0_pay25 (k0_pay19 u)) (k0_pay26 (k0_pay20 (k0_pay2 b) s) (k0_pay21 (k0_pay2 b) s) (k0_pay22 (k0_pay2 b) s))
        (k0_pay27 (k0_pay20 (k0_pay2 b) s) (k0_pay21 (k0_pay2 b) s) (k0_pay22 (k0_pay2 b) s)) k0_pay29
      = headAux u s b := rfl

end Cert.KernelIdeal.Head

end
-- ==== Proof.LibUnitAxes.lean ====
/-
  Shape casts that only add or remove axes of size one, read at an index by coordinates: a matrix seen as a
  `[1, 1, a, b]` array and back, and a column `[a, 1]` seen as the vector `[a]`. The row-major position of an index
  does not see a coordinate that can only be zero, so each cast reads its operand at the same remaining coordinates.
-/
import Idealize.ShloMosaic.Lib.Pipeline.Value
import Idealize.ShloMosaic.Lib.ValueIdx

noncomputable section

namespace Cert.LibUnitAxes

open Idealize.ShloMosaic Idealize.ShloMosaic.ValueIdx

variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, v, i, j)`, the operand at `(i, j)`, whatever the two unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- An `[a, 1]` column cast to the vector `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibUnitAxes

end
-- ==== Proof.BlockReads.lean ====
/-
  From blocks to arrays, over arbitrary operand arrays.

  The grid has 16 points t = 4·b + g (b the batch, g a pair of heads). At point t each of the three packed inputs
  stages the [1,2,2048,128] block of batch b, heads 2g and 2g+1; the bias stages batch b's one [1,1,2048,128]
  plane, the filter batch b's two rows. The body leaves, in the output block, head 2g's result in its first plane
  and head 2g+1's in its second; so what point t writes back is block t of the array that holds, at (b, h, p, l),
  the one-head function of the planes (b, h) of the inputs; the loss tiles likewise. Every entry of either output
  lies in the block of the point of its batch and head pair.
-/
import proofs.«132056_j86612310491926_2_alg».proof.Proof.Gen.KernelIdeal.Frame
import proofs.«132056_j86612310491926_2_alg».proof.Proof.Head
import proofs.«132056_j86612310491926_2_alg».proof.Proof.LibUnitAxes
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Head

variable {F : FTy → Type} [FloatOps F]

/-- Where each window's block sits at point t: batch t / 4, head pair t % 4. -/
theorem idx_facts : ∀ t : Fin cfg0.N,
    (win0_0.index t (0 : Fin 4) = t.val / 4 ∧ win0_0.index t (1 : Fin 4) = t.val % 4 ∧ win0_0.index t (2 : Fin 4) = 0 ∧ win0_0.index t (3 : Fin 4) = 0)
    ∧ (win0_1.index t (0 : Fin 4) = t.val / 4 ∧ win0_1.index t (1 : Fin 4) = t.val % 4 ∧ win0_1.index t (2 : Fin 4) = 0 ∧ win0_1.index t (3 : Fin 4) = 0)
    ∧ (win0_2.index t (0 : Fin 4) = t.val / 4 ∧ win0_2.index t (1 : Fin 4) = t.val % 4 ∧ win0_2.index t (2 : Fin 4) = 0 ∧ win0_2.index t (3 : Fin 4) = 0)
    ∧ (win0_3.index t (0 : Fin 4) = t.val / 4 ∧ win0_3.index t (1 : Fin 4) = 0 ∧ win0_3.index t (2 : Fin 4) = 0 ∧ win0_3.index t (3 : Fin 4) = 0)
    ∧ (win0_4.index t (0 : Fin 4) = t.val / 4 ∧ win0_4.index t (1 : Fin 4) = t.val % 4 ∧ win0_4.index t (2 : Fin 4) = 0 ∧ win0_4.index t (3 : Fin 4) = 0)
    ∧ (win0_5.index t (0 : Fin 4) = t.val / 4 ∧ win0_5.index t (1 : Fin 4) = t.val % 4 ∧ win0_5.index t (2 : Fin 4) = 0 ∧ win0_5.index t (3 : Fin 4) = 0)
    ∧ (win0_6.index t (0 : Fin 4) = t.val / 4 ∧ win0_6.index t (1 : Fin 4) = t.val % 4 ∧ win0_6.index t (2 : Fin 4) = 0 ∧ win0_6.index t (3 : Fin 4) = 0) :=
  (by decide +kernel : ∀ t : Fin grid0.N, _)

/-- The packed U's block at point t, at (u, hh, p, l), is the array at (t / 4, 2 (t % 4) + hh, p, l). -/
theorem read0_apply (A : S4x8x2048x128.Idx → Elt F .f32) (t : Fin cfg0.N) (x : S1x2x2048x128.Idx) (k : S4x8x2048x128.Idx)
    (h0 : (k 0).val = t.val / 4) (h1 : (k 1).val = 2 * (t.val % 4) + (x 1).val) (h2 : (k 2).val = (x 2).val) (h3 : (k 3).val = (x 3).val) :
    ((cfg0.win 0).blk t).view.read (Elt F) A x = A k := by
  obtain ⟨⟨e0, e1, e2, e3⟩, -, -, -, -, -, -⟩ := idx_facts t
  rw [View.read_apply]
  refine congrArg A ?_
  funext a
  apply Fin.ext
  have hx0 : (x 0).val < 1 := (x 0).isLt
  match a with
  | ⟨0, _⟩ => show win0_0.index t (0 : Fin 4) * 1 + 1 * (x 0).val = (k 0).val; rw [e0, h0]; omega
  | ⟨1, _⟩ => show win0_0.index t (1 : Fin 4) * 2 + 1 * (x 1).val = (k 1).val; rw [e1, h1]; omega
  | ⟨2, _⟩ => show win0_0.index t (2 : Fin 4) * 2048 + 1 * (x 2).val = (k 2).val; rw [e2, h2]; omega
  | ⟨3, _⟩ => show win0_0.index t (3 : Fin 4) * 128 + 1 * (x 3).val = (k 3).val; rw [e3, h3]; omega

/-- The packed svd_V's block likewise. -/
theorem read1_apply (A : S4x8x2048x128.Idx → Elt F .f32) (t : Fin cfg0.N) (x : S1x2x2048x128.Idx) (k : S4x8x2048x128.Idx)
    (h0 : (k 0).val = t.val / 4) (h1 : (k 1).val = 2 * (t.val % 4) + (x 1).val) (h2 : (k 2).val = (x 2).val) (h3 : (k 3).val = (x 3).val) :
    ((cfg0.win 1).blk t).view.read (Elt F) A x = A k := by
  obtain ⟨-, ⟨e0, e1, e2, e3⟩, -, -, -, -, -⟩ := idx_facts t
  rw [View.read_apply]
  refine congrArg A ?_
  funext a
  apply Fin.ext
  have hx0 : (x 0).val < 1 := (x 0).isLt
  match a with
  | ⟨0, _⟩ => show win0_1.index t (0 : Fin 4) * 1 + 1 * (x 0).val = (k 0).val; rw [e0, h0]; omega
  | ⟨1, _⟩ => show win0_1.index t (1 : Fin 4) * 2 + 1 * (x 1).val = (k 1).val; rw [e1, h1]; omega
  | ⟨2, _⟩ => show win0_1.index t (2 : Fin 4) * 2048 + 1 * (x 2).val = (k 2).val; rw [e2, h2]; omega
  | ⟨3, _⟩ => show win0_1.index t (3 : Fin 4) * 128 + 1 * (x 3).val = (k 3).val; rw [e3, h3]; omega

/-- The packed V's block likewise. -/
theorem read2_apply (A : S4x8x2048x128.Idx → Elt F .f32) (t : Fin cfg0.N) (x : S1x2x2048x128.Idx) (k : S4x8x2048x128.Idx)
    (h0 : (k 0).val = t.val / 4) (h1 : (k 1).val = 2 * (t.val % 4) + (x 1).val) (h2 : (k 2).val = (x 2).val) (h3 : (k 3).val = (x 3).val) :
    ((cfg0.win 2).blk t).view.read (Elt F) A x = A k := by
  obtain ⟨-, -, ⟨e0, e1, e2, e3⟩, -, -, -, -⟩ := idx_facts t
  rw [View.read_apply]
  refine congrArg A ?_
  funext a
  apply Fin.ext
  have hx0 : (x 0).val < 1 := (x 0).isLt
  match a with
  | ⟨0, _⟩ => show win0_2.index t (0 : Fin 4) * 1 + 1 * (x 0).val = (k 0).val; rw [e0, h0]; omega
  | ⟨1, _⟩ => show win0_2.index t (1 : Fin 4) * 2 + 1 * (x 1).val = (k 1).val; rw [e1, h1]; omega
  | ⟨2, _⟩ => show win0_2.index t (2 : Fin 4) * 2048 + 1 * (x 2).val = (k 2).val; rw [e2, h2]; omega
  | ⟨3, _⟩ => show win0_2.index t (3 : Fin 4) * 128 + 1 * (x 3).val = (k 3).val; rw [e3, h3]; omega

/-- The bias's block at point t is batch t / 4's one plane. -/
theorem read3_apply (A : S4x1x2048x128.Idx → Elt F .f32) (t : Fin cfg0.N) (x : S1x1x2048x128.Idx) (k : S4x1x2048x128.Idx)
    (h0 : (k 0).val = t.val / 4) (h1 : (k 1).val = 0) (h2 : (k 2).val = (x 2).val) (h3 : (k 3).val = (x 3).val) :
    ((cfg0.win 3).blk t).view.read (Elt F) A x = A k := by
  obtain ⟨-, -, -, ⟨e0, e1, e2, e3⟩, -, -, -⟩ := idx_facts t
  rw [View.read_apply]
  refine congrArg A ?_
  funext a
  apply Fin.ext
  have hx0 : (x 0).val < 1 := (x 0).isLt
  have hx1 : (x 1).val < 1 := (x 1).isLt
  match a with
  | ⟨0, _⟩ => show win0_3.index t (0 : Fin 4) * 1 + 1 * (x 0).val = (k 0).val; rw [e0, h0]; omega
  | ⟨1, _⟩ => show win0_3.index t (1 : Fin 4) * 1 + 1 * (x 1).val = (k 1).val; rw [e1, h1]; omega
  | ⟨2, _⟩ => show win0_3.index t (2 : Fin 4) * 2048 + 1 * (x 2).val = (k 2).val; rw [e2, h2]; omega
  | ⟨3, _⟩ => show win0_3.index t (3 : Fin 4) * 128 + 1 * (x 3).val = (k 3).val; rw [e3, h3]; omega

/-- The filter's block at point t, at (u, hh, u', l), is the array at (t / 4, 2 (t % 4) + hh, 0, l). -/
theorem read4_apply (A : S4x8x1x128.Idx → Elt F .f32) (t : Fin cfg0.N) (x : S1x2x1x128.Idx) (k : S4x8x1x128.Idx)
    (h0 : (k 0).val = t.val / 4) (h1 : (k 1).val = 2 * (t.val % 4) + (x 1).val) (h2 : (k 2).val = 0) (h3 : (k 3).val = (x 3).val) :
    ((cfg0.win 4).blk t).view.read (Elt F) A x = A k := by
  obtain ⟨-, -, -, -, ⟨e0, e1, e2, e3⟩, -, -⟩ := idx_facts t
  rw [View.read_apply]
  refine congrArg A ?_
  funext a
  apply Fin.ext
  have hx0 : (x 0).val < 1 := (x 0).isLt
  have hx2 : (x 2).val < 1 := (x 2).isLt
  match a with
  | ⟨0, _⟩ => show win0_4.index t (0 : Fin 4) * 1 + 1 * (x 0).val = (k 0).val; rw [e0, h0]; omega
  | ⟨1, _⟩ => show win0_4.index t (1 : Fin 4) * 2 + 1 * (x 1).val = (k 1).val; rw [e1, h1]; omega
  | ⟨2, _⟩ => show win0_4.index t (2 : Fin 4) * 1 + 1 * (x 2).val = (k 2).val; rw [e2, h2]; omega
  | ⟨3, _⟩ => show win0_4.index t (3 : Fin 4) * 128 + 1 * (x 3).val = (k 3).val; rw [e3, h3]; omega
/-! ## The arrays as the one-head functions of the inputs' planes -/

/-- Plane (b, h) of a [4,8,2048,128] array. -/
def plane {α : Type} (A : S4x8x2048x128.Idx → α) (b : Fin 4) (h : Fin 8) : S2048x128.Idx → α := fun j => A (ix4 b h (j 0) (j 1))
/-- Plane b of the [4,1,2048,128] bias. -/
def planeB {α : Type} (A : S4x1x2048x128.Idx → α) (b : Fin 4) : S2048x128.Idx → α := fun j => A (ix4 b (0 : Fin 1) (j 0) (j 1))
/-- Row (b, h) of the [4,8,1,128] filter. -/
def planeF {α : Type} (A : S4x8x1x128.Idx → α) (b : Fin 4) (h : Fin 8) : S1x128.Idx → α := fun j => A (ix4 b h (j 0) (j 1))

/-- The packed output: at (b, h, p, l) the one-head product of the planes (b, h). -/
def outX (A0 A1 A2 : S4x8x2048x128.Idx → F .f32) (A3 : S4x1x2048x128.Idx → F .f32) (A4 : S4x8x1x128.Idx → F .f32) : S4x8x2048x128.Idx → F .f32 :=
  fun i => xOf (qOf (plane A0 (i 0) (i 1))) (kOf (planeB A3 (i 0)) (plane A1 (i 0) (i 1))) (plane A2 (i 0) (i 1)) (planeF A4 (i 0) (i 1)) (ix2 (i 2) (i 3))

/-- The loss tiles: at (b, h, i, j) head (b, h)'s share of the loss. -/
def outAux (A0 A1 : S4x8x2048x128.Idx → F .f32) (A3 : S4x1x2048x128.Idx → F .f32) : S4x8x8x128.Idx → F .f32 :=
  fun i => auxOf (qOf (plane A0 (i 0) (i 1))) (kOf (planeB A3 (i 0)) (plane A1 (i 0) (i 1))) (ix2 (i 2) (i 3))

/-! ## What a head's loads are: planes of the operand arrays -/

/-- The batch of point t. -/
def bOf (t : Fin cfg0.N) : Fin 4 := ⟨t.val / 4, by have h : cfg0.N = 16 := N_0; have := t.isLt; omega⟩
/-- The head of point t's plane hh. -/
def hOf (t : Fin cfg0.N) (hh : Fin 2) : Fin 8 := ⟨2 * (t.val % 4) + hh.val, by have := hh.isLt; omega⟩

theorem flat_w0_h0 (A : S4x8x2048x128.Idx → Elt F .f32) (t : Fin cfg0.N) :
    flat (View.ld (((cfg0.win 0).blk t).view.read (Elt F) A) r0_1) = plane A (bOf t) (hOf t 0) := by
  funext j
  obtain ⟨i, l, rfl⟩ : ∃ (i : Fin 2048) (l : Fin 128), j = ix2 i l := ⟨j 0, j 1, eq_ix2 j⟩
  refine (Cert.LibUnitAxes.shapeCast_11ab_ab_apply _ _ i l).trans ?_
  show ((cfg0.win 0).blk t).view.read (Elt F) A (r0_1.idx (ix4 (0 : Fin 1) (0 : Fin 1) i l)) = A (ix4 (bOf t) (hOf t 0) i l)
  refine read0_apply A t _ _ rfl rfl ?_ ?_
  · show i.val = 0 + 1 * i.val; omega
  · show l.val = 0 + 1 * l.val; omega

theorem flat_w1_h0 (A : S4x8x2048x128.Idx → Elt F .f32) (t : Fin cfg0.N) :
    flat (View.ld (((cfg0.win 1).blk t).view.read (Elt F) A) r0_1) = plane A (bOf t) (hOf t 0) := by
  funext j
  obtain ⟨i, l, rfl⟩ : ∃ (i : Fin 2048) (l : Fin 128), j = ix2 i l := ⟨j 0, j 1, eq_ix2 j⟩
  refine (Cert.LibUnitAxes.shapeCast_11ab_ab_apply _ _ i l).trans ?_
  show ((cfg0.win 1).blk t).view.read (Elt F) A (r0_1.idx (ix4 (0 : Fin 1) (0 : Fin 1) i l)) = A (ix4 (bOf t) (hOf t 0) i l)
  refine read1_apply A t _ _ rfl rfl ?_ ?_
  · show i.val = 0 + 1 * i.val; omega
  · show l.val = 0 + 1 * l.val; omega

theorem flat_w2_h0 (A : S4x8x2048x128.Idx → Elt F .f32) (t : Fin cfg0.N) :
    flat (View.ld (((cfg0.win 2).blk t).view.read (Elt F) A) r0_1) = plane A (bOf t) (hOf t 0) := by
  funext j
  obtain ⟨i, l, rfl⟩ : ∃ (i : Fin 2048) (l : Fin 128), j = ix2 i l := ⟨j 0, j 1, eq_ix2 j⟩
  refine (Cert.LibUnitAxes.shapeCast_11ab_ab_apply _ _ i l).trans ?_
  show ((cfg0.win 2).blk t).view.read (Elt F) A (r0_1.idx (ix4 (0 : Fin 1) (0 : Fin 1) i l)) = A (ix4 (bOf t) (hOf t 0) i l)
  refine read2_apply A t _ _ rfl rfl ?_ ?_
  · show i.val = 0 + 1 * i.val; omega
  · show l.val = 0 + 1 * l.val; omega

theorem flat_w0_h1 (A : S4x8x2048x128.Idx → Elt F .f32) (t : Fin cfg0.N) :
    flat (View.ld (((cfg0.win 0).blk t).view.read (Elt F) A) r0_4) = plane A (bOf t) (hOf t 1) := by
  funext j
  obtain ⟨i, l, rfl⟩ : ∃ (i : Fin 2048) (l : Fin 128), j = ix2 i l := ⟨j 0, j 1, eq_ix2 j⟩
  refine (Cert.LibUnitAxes.shapeCast_11ab_ab_apply _ _ i l).trans ?_
  show ((cfg0.win 0).blk t).view.read (Elt F) A (r0_4.idx (ix4 (0 : Fin 1) (0 : Fin 1) i l)) = A (ix4 (bOf t) (hOf t 1) i l)
  refine read0_apply A t _ _ rfl rfl ?_ ?_
  · show i.val = 0 + 1 * i.val; omega
  · show l.val = 0 + 1 * l.val; omega

theorem flat_w1_h1 (A : S4x8x2048x128.Idx → Elt F .f32) (t : Fin cfg0.N) :
    flat (View.ld (((cfg0.win 1).blk t).view.read (Elt F) A) r0_4) = plane A (bOf t) (hOf t 1) := by
  funext j
  obtain ⟨i, l, rfl⟩ : ∃ (i : Fin 2048) (l : Fin 128), j = ix2 i l := ⟨j 0, j 1, eq_ix2 j⟩
  refine (Cert.LibUnitAxes.shapeCast_11ab_ab_apply _ _ i l).trans ?_
  show ((cfg0.win 1).blk t).view.read (Elt F) A (r0_4.idx (ix4 (0 : Fin 1) (0 : Fin 1) i l)) = A (ix4 (bOf t) (hOf t 1) i l)
  refine read1_apply A t _ _ rfl rfl ?_ ?_
  · show i.val = 0 + 1 * i.val; omega
  · show l.val = 0 + 1 * l.val; omega

theorem flat_w2_h1 (A : S4x8x2048x128.Idx → Elt F .f32) (t : Fin cfg0.N) :
    flat (View.ld (((cfg0.win 2).blk t).view.read (Elt F) A) r0_4) = plane A (bOf t) (hOf t 1) := by
  funext j
  obtain ⟨i, l, rfl⟩ : ∃ (i : Fin 2048) (l : Fin 128), j = ix2 i l := ⟨j 0, j 1, eq_ix2 j⟩
  refine (Cert.LibUnitAxes.shapeCast_11ab_ab_apply _ _ i l).trans ?_
  show ((cfg0.win 2).blk t).view.read (Elt F) A (r0_4.idx (ix4 (0 : Fin 1) (0 : Fin 1) i l)) = A (ix4 (bOf t) (hOf t 1) i l)
  refine read2_apply A t _ _ rfl rfl ?_ ?_
  · show i.val = 0 + 1 * i.val; omega
  · show l.val = 0 + 1 * l.val; omega

theorem flat_bias (A : S4x1x2048x128.Idx → Elt F .f32) (t : Fin cfg0.N) :
    flat (View.ld (((cfg0.win 3).blk t).view.read (Elt F) A) r0_0) = planeB A (bOf t) := by
  funext j
  obtain ⟨i, l, rfl⟩ : ∃ (i : Fin 2048) (l : Fin 128), j = ix2 i l := ⟨j 0, j 1, eq_ix2 j⟩
  refine (Cert.LibUnitAxes.shapeCast_11ab_ab_apply _ _ i l).trans ?_
  show ((cfg0.win 3).blk t).view.read (Elt F) A (r0_0.idx (ix4 (0 : Fin 1) (0 : Fin 1) i l)) = A (ix4 (bOf t) (0 : Fin 1) i l)
  refine read3_apply A t _ _ rfl rfl ?_ ?_
  · show i.val = 0 + 1 * i.val; omega
  · show l.val = 0 + 1 * l.val; omega

theorem flat_filter_h0 (A : S4x8x1x128.Idx → Elt F .f32) (t : Fin cfg0.N) :
    flatRow (View.ld (((cfg0.win 4).blk t).view.read (Elt F) A) r0_2) = planeF A (bOf t) (hOf t 0) := by
  funext j
  obtain ⟨i, l, rfl⟩ : ∃ (i : Fin 1) (l : Fin 128), j = ix2 i l := ⟨j 0, j 1, eq_ix2 j⟩
  refine (Cert.LibUnitAxes.shapeCast_11ab_ab_apply _ _ i l).trans ?_
  show ((cfg0.win 4).blk t).view.read (Elt F) A (r0_2.idx (ix4 (0 : Fin 1) (0 : Fin 1) i l)) = A (ix4 (bOf t) (hOf t 0) i l)
  have := i.isLt
  refine read4_apply A t _ _ rfl rfl ?_ ?_
  · show i.val = 0; omega
  · show l.val = 0 + 1 * l.val; omega

theorem flat_filter_h1 (A : S4x8x1x128.Idx → Elt F .f32) (t : Fin cfg0.N) :
    flatRow (View.ld (((cfg0.win 4).blk t).view.read (Elt F) A) r0_5) = planeF A (bOf t) (hOf t 1) := by
  funext j
  obtain ⟨i, l, rfl⟩ : ∃ (i : Fin 1) (l : Fin 128), j = ix2 i l := ⟨j 0, j 1, eq_ix2 j⟩
  refine (Cert.LibUnitAxes.shapeCast_11ab_ab_apply _ _ i l).trans ?_
  show ((cfg0.win 4).blk t).view.read (Elt F) A (r0_5.idx (ix4 (0 : Fin 1) (0 : Fin 1) i l)) = A (ix4 (bOf t) (hOf t 1) i l)
  have := i.isLt
  refine read4_apply A t _ _ rfl rfl ?_ ?_
  · show i.val = 0; omega
  · show l.val = 0 + 1 * l.val; omega

/-! ## What each store leaves, as the whole-array function at the store's place -/

theorem pieceX_h0 (A0 A1 A2 : S4x8x2048x128.Idx → Elt F .f32) (A3 : S4x1x2048x128.Idx → Elt F .f32) (A4 : S4x8x1x128.Idx → Elt F .f32)
    (t : Fin cfg0.N) (x : S1x1x2048x128.Idx) :
    headX (View.ld (((cfg0.win 0).blk t).view.read (Elt F) A0) r0_1) (View.ld (((cfg0.win 1).blk t).view.read (Elt F) A1) r0_1) (View.ld (((cfg0.win 2).blk t).view.read (Elt F) A2) r0_1) (View.ld (((cfg0.win 3).blk t).view.read (Elt F) A3) r0_0) (View.ld (((cfg0.win 4).blk t).view.read (Elt F) A4) r0_2) x
      = outX A0 A1 A2 A3 A4 (((cfg0.win 5).blk t).view.emb (r0_1.emb x)) := by
  obtain ⟨u0, u1, i, l, rfl⟩ : ∃ (u0 u1 : Fin 1) (i : Fin 2048) (l : Fin 128), x = ix4 u0 u1 i l := ⟨x 0, x 1, x 2, x 3, eq_ix4 x⟩
  obtain ⟨-, -, -, -, -, ⟨e0, e1, e2, e3⟩, -⟩ := idx_facts t
  have hK : ((cfg0.win 5).blk t).view.emb (r0_1.emb (ix4 u0 u1 i l)) = ix4 (bOf t) (hOf t 0) i l := by
    funext a
    apply Fin.ext
    have := u0.isLt
    have := u1.isLt
    match a with
    | ⟨0, _⟩ => show win0_5.index t (0 : Fin 4) * 1 + 1 * (0 + 1 * u0.val) = t.val / 4; rw [e0]; omega
    | ⟨1, _⟩ => show win0_5.index t (1 : Fin 4) * 2 + 1 * (0 + 1 * u1.val) = 2 * (t.val % 4) + 0; rw [e1]; omega
    | ⟨2, _⟩ => show win0_5.index t (2 : Fin 4) * 2048 + 1 * (0 + 1 * i.val) = i.val; rw [e2]; omega
    | ⟨3, _⟩ => show win0_5.index t (3 : Fin 4) * 128 + 1 * (0 + 1 * l.val) = l.val; rw [e3]; omega
  rw [hK]
  unfold headX
  refine (Cert.LibUnitAxes.shapeCast_ab_11ab_apply _ _ u0 u1 i l).trans ?_
  rw [flat_w0_h0, flat_w1_h0, flat_w2_h0, flat_bias, flat_filter_h0]
  rfl

theorem pieceAux_h0 (A0 A1 : S4x8x2048x128.Idx → Elt F .f32) (A3 : S4x1x2048x128.Idx → Elt F .f32)
    (t : Fin cfg0.N) (x : S1x1x8x128.Idx) :
    headAux (View.ld (((cfg0.win 0).blk t).view.read (Elt F) A0) r0_1) (View.ld (((cfg0.win 1).blk t).view.read (Elt F) A1) r0_1) (View.ld (((cfg0.win 3).blk t).view.read (Elt F) A3) r0_0) x
      = outAux A0 A1 A3 (((cfg0.win 6).blk t).view.emb (r0_3.emb x)) := by
  obtain ⟨u0, u1, i, l, rfl⟩ : ∃ (u0 u1 : Fin 1) (i : Fin 8) (l : Fin 128), x = ix4 u0 u1 i l := ⟨x 0, x 1, x 2, x 3, eq_ix4 x⟩
  obtain ⟨-, -, -, -, -, -, ⟨e0, e1, e2, e3⟩⟩ := idx_facts t
  have hK : ((cfg0.win 6).blk t).view.emb (r0_3.emb (ix4 u0 u1 i l)) = ix4 (bOf t) (hOf t 0) i l := by
    funext a
    apply Fin.ext
    have := u0.isLt
    have := u1.isLt
    match a with
    | ⟨0, _⟩ => show win0_6.index t (0 : Fin 4) * 1 + 1 * (0 + 1 * u0.val) = t.val / 4; rw [e0]; omega
    | ⟨1, _⟩ => show win0_6.index t (1 : Fin 4) * 2 + 1 * (0 + 1 * u1.val) = 2 * (t.val % 4) + 0; rw [e1]; omega
    | ⟨2, _⟩ => show win0_6.index t (2 : Fin 4) * 8 + 1 * (0 + 1 * i.val) = i.val; rw [e2]; omega
    | ⟨3, _⟩ => show win0_6.index t (3 : Fin 4) * 128 + 1 * (0 + 1 * l.val) = l.val; rw [e3]; omega
  rw [hK]
  unfold headAux
  refine (Cert.LibUnitAxes.shapeCast_ab_11ab_apply _ _ u0 u1 i l).trans ?_
  rw [flat_w0_h0, flat_w1_h0, flat_bias]
  rfl

theorem pieceX_h1 (A0 A1 A2 : S4x8x2048x128.Idx → Elt F .f32) (A3 : S4x1x2048x128.Idx → Elt F .f32) (A4 : S4x8x1x128.Idx → Elt F .f32)
    (t : Fin cfg0.N) (x : S1x1x2048x128.Idx) :
    headX (View.ld (((cfg0.win 0).blk t).view.read (Elt F) A0) r0_4) (View.ld (((cfg0.win 1).blk t).view.read (Elt F) A1) r0_4) (View.ld (((cfg0.win 2).blk t).view.read (Elt F) A2) r0_4) (View.ld (((cfg0.win 3).blk t).view.read (Elt F) A3) r0_0) (View.ld (((cfg0.win 4).blk t).view.read (Elt F) A4) r0_5) x
      = outX A0 A1 A2 A3 A4 (((cfg0.win 5).blk t).view.emb (r0_4.emb x)) := by
  obtain ⟨u0, u1, i, l, rfl⟩ : ∃ (u0 u1 : Fin 1) (i : Fin 2048) (l : Fin 128), x = ix4 u0 u1 i l := ⟨x 0, x 1, x 2, x 3, eq_ix4 x⟩
  obtain ⟨-, -, -, -, -, ⟨e0, e1, e2, e3⟩, -⟩ := idx_facts t
  have hK : ((cfg0.win 5).blk t).view.emb (r0_4.emb (ix4 u0 u1 i l)) = ix4 (bOf t) (hOf t 1) i l := by
    funext a
    apply Fin.ext
    have := u0.isLt
    have := u1.isLt
    match a with
    | ⟨0, _⟩ => show win0_5.index t (0 : Fin 4) * 1 + 1 * (0 + 1 * u0.val) = t.val / 4; rw [e0]; omega
    | ⟨1, _⟩ => show win0_5.index t (1 : Fin 4) * 2 + 1 * (1 + 1 * u1.val) = 2 * (t.val % 4) + 1; rw [e1]; omega
    | ⟨2, _⟩ => show win0_5.index t (2 : Fin 4) * 2048 + 1 * (0 + 1 * i.val) = i.val; rw [e2]; omega
    | ⟨3, _⟩ => show win0_5.index t (3 : Fin 4) * 128 + 1 * (0 + 1 * l.val) = l.val; rw [e3]; omega
  rw [hK]
  unfold headX
  refine (Cert.LibUnitAxes.shapeCast_ab_11ab_apply _ _ u0 u1 i l).trans ?_
  rw [flat_w0_h1, flat_w1_h1, flat_w2_h1, flat_bias, flat_filter_h1]
  rfl

theorem pieceAux_h1 (A0 A1 : S4x8x2048x128.Idx → Elt F .f32) (A3 : S4x1x2048x128.Idx → Elt F .f32)
    (t : Fin cfg0.N) (x : S1x1x8x128.Idx) :
    headAux (View.ld (((cfg0.win 0).blk t).view.read (Elt F) A0) r0_4) (View.ld (((cfg0.win 1).blk t).view.read (Elt F) A1) r0_4) (View.ld (((cfg0.win 3).blk t).view.read (Elt F) A3) r0_0) x
      = outAux A0 A1 A3 (((cfg0.win 6).blk t).view.emb (r0_6.emb x)) := by
  obtain ⟨u0, u1, i, l, rfl⟩ : ∃ (u0 u1 : Fin 1) (i : Fin 8) (l : Fin 128), x = ix4 u0 u1 i l := ⟨x 0, x 1, x 2, x 3, eq_ix4 x⟩
  obtain ⟨-, -, -, -, -, -, ⟨e0, e1, e2, e3⟩⟩ := idx_facts t
  have hK : ((cfg0.win 6).blk t).view.emb (r0_6.emb (ix4 u0 u1 i l)) = ix4 (bOf t) (hOf t 1) i l := by
    funext a
    apply Fin.ext
    have := u0.isLt
    have := u1.isLt
    match a with
    | ⟨0, _⟩ => show win0_6.index t (0 : Fin 4) * 1 + 1 * (0 + 1 * u0.val) = t.val / 4; rw [e0]; omega
    | ⟨1, _⟩ => show win0_6.index t (1 : Fin 4) * 2 + 1 * (1 + 1 * u1.val) = 2 * (t.val % 4) + 1; rw [e1]; omega
    | ⟨2, _⟩ => show win0_6.index t (2 : Fin 4) * 8 + 1 * (0 + 1 * i.val) = i.val; rw [e2]; omega
    | ⟨3, _⟩ => show win0_6.index t (3 : Fin 4) * 128 + 1 * (0 + 1 * l.val) = l.val; rw [e3]; omega
  rw [hK]
  unfold headAux
  refine (Cert.LibUnitAxes.shapeCast_ab_11ab_apply _ _ u0 u1 i l).trans ?_
  rw [flat_w0_h1, flat_w1_h1, flat_bias]
  rfl

/-! ## What a point writes back, and the covers -/

/-- The two heads' stores into the output block, over the blocks of arbitrary operand arrays, read through the window:
    block t of the packed output's function. -/
theorem blockX (A0 A1 A2 : S4x8x2048x128.Idx → Elt F .f32) (A3 : S4x1x2048x128.Idx → Elt F .f32) (A4 : S4x8x1x128.Idx → Elt F .f32)
    (t : Fin cfg0.N) :
    (cfg0.win 5).cut (grid0.coords t) (View.canon (Val := Elt F)
      [⟨r0_4, headX (View.ld (((cfg0.win 0).blk t).view.read (Elt F) A0) r0_4) (View.ld (((cfg0.win 1).blk t).view.read (Elt F) A1) r0_4) (View.ld (((cfg0.win 2).blk t).view.read (Elt F) A2) r0_4) (View.ld (((cfg0.win 3).blk t).view.read (Elt F) A3) r0_0) (View.ld (((cfg0.win 4).blk t).view.read (Elt F) A4) r0_5)⟩,
        ⟨r0_1, headX (View.ld (((cfg0.win 0).blk t).view.read (Elt F) A0) r0_1) (View.ld (((cfg0.win 1).blk t).view.read (Elt F) A1) r0_1) (View.ld (((cfg0.win 2).blk t).view.read (Elt F) A2) r0_1) (View.ld (((cfg0.win 3).blk t).view.read (Elt F) A3) r0_0) (View.ld (((cfg0.win 4).blk t).view.read (Elt F) A4) r0_2)⟩])
      = ((cfg0.win 5).blk t).view.read (Elt F) (outX A0 A1 A2 A3 A4) := by
  funext y
  refine View.canon_apply_of_pieces (fun y => outX A0 A1 A2 A3 A4 (((cfg0.win 5).blk t).view.emb y)) _ ?_ y (cover0_5 _ _ y)
  intro pc hpc x
  simp only [List.mem_cons, List.mem_nil_iff, or_false] at hpc
  rcases hpc with rfl | rfl
  · exact pieceX_h1 A0 A1 A2 A3 A4 t x
  · exact pieceX_h0 A0 A1 A2 A3 A4 t x

/-- The two heads' stores into the loss tiles' block likewise. -/
theorem blockAux (A0 A1 : S4x8x2048x128.Idx → Elt F .f32) (A3 : S4x1x2048x128.Idx → Elt F .f32) (t : Fin cfg0.N) :
    (cfg0.win 6).cut (grid0.coords t) (View.canon (Val := Elt F)
      [⟨r0_6, headAux (View.ld (((cfg0.win 0).blk t).view.read (Elt F) A0) r0_4) (View.ld (((cfg0.win 1).blk t).view.read (Elt F) A1) r0_4) (View.ld (((cfg0.win 3).blk t).view.read (Elt F) A3) r0_0)⟩,
        ⟨r0_3, headAux (View.ld (((cfg0.win 0).blk t).view.read (Elt F) A0) r0_1) (View.ld (((cfg0.win 1).blk t).view.read (Elt F) A1) r0_1) (View.ld (((cfg0.win 3).blk t).view.read (Elt F) A3) r0_0)⟩])
      = ((cfg0.win 6).blk t).view.read (Elt F) (outAux A0 A1 A3) := by
  funext y
  refine View.canon_apply_of_pieces (fun y => outAux A0 A1 A3 (((cfg0.win 6).blk t).view.emb y)) _ ?_ y (cover0_6 _ _ y)
  intro pc hpc x
  simp only [List.mem_cons, List.mem_nil_iff, or_false] at hpc
  rcases hpc with rfl | rfl
  · exact pieceAux_h1 A0 A1 A3 t x
  · exact pieceAux_h0 A0 A1 A3 t x

/-- Every entry of the packed output is in the block of the point of its batch and head pair. -/
theorem cover5 (i : S4x8x2048x128.Idx) : ∃ t : Fin cfg0.N, (cfg0.win 5).flush t = true ∧ i ∈ ((cfg0.win 5).blk t).view.set := by
  have hN : cfg0.N = 16 := N_0
  have h0 : (i 0).val < 4 := (i 0).isLt
  have h1 : (i 1).val < 8 := (i 1).isLt
  have h2 : (i 2).val < 2048 := (i 2).isLt
  have h3 : (i 3).val < 128 := (i 3).isLt
  obtain ⟨t, ht⟩ : ∃ t : Fin cfg0.N, t.val = 4 * (i 0).val + (i 1).val / 2 := ⟨⟨4 * (i 0).val + (i 1).val / 2, by omega⟩, rfl⟩
  obtain ⟨-, -, -, -, -, ⟨e0, e1, e2, e3⟩, -⟩ := idx_facts t
  refine ⟨t, flush0_5 t, ?_⟩
  show i ∈ ((View.whole main_v44_0).slice (win0_5.rect t)).set
  rw [View.set_slice_whole, Rect.mem_set_unit]
  intro a
  match a with
  | ⟨0, _⟩ => show win0_5.index t (0 : Fin 4) * 1 ≤ (i 0).val ∧ (i 0).val < win0_5.index t (0 : Fin 4) * 1 + 1; rw [e0]; omega
  | ⟨1, _⟩ => show win0_5.index t (1 : Fin 4) * 2 ≤ (i 1).val ∧ (i 1).val < win0_5.index t (1 : Fin 4) * 2 + 2; rw [e1]; omega
  | ⟨2, _⟩ => show win0_5.index t (2 : Fin 4) * 2048 ≤ (i 2).val ∧ (i 2).val < win0_5.index t (2 : Fin 4) * 2048 + 2048; rw [e2]; omega
  | ⟨3, _⟩ => show win0_5.index t (3 : Fin 4) * 128 ≤ (i 3).val ∧ (i 3).val < win0_5.index t (3 : Fin 4) * 128 + 128; rw [e3]; omega

/-- Every entry of the loss tiles likewise. -/
theorem cover6 (i : S4x8x8x128.Idx) : ∃ t : Fin cfg0.N, (cfg0.win 6).flush t = true ∧ i ∈ ((cfg0.win 6).blk t).view.set := by
  have hN : cfg0.N = 16 := N_0
  have h0 : (i 0).val < 4 := (i 0).isLt
  have h1 : (i 1).val < 8 := (i 1).isLt
  have h2 : (i 2).val < 8 := (i 2).isLt
  have h3 : (i 3).val < 128 := (i 3).isLt
  obtain ⟨t, ht⟩ : ∃ t : Fin cfg0.N, t.val = 4 * (i 0).val + (i 1).val / 2 := ⟨⟨4 * (i 0).val + (i 1).val / 2, by omega⟩, rfl⟩
  obtain ⟨-, -, -, -, -, -, ⟨e0, e1, e2, e3⟩⟩ := idx_facts t
  refine ⟨t, flush0_6 t, ?_⟩
  show i ∈ ((View.whole main_v44_1).slice (win0_6.rect t)).set
  rw [View.set_slice_whole, Rect.mem_set_unit]
  intro a
  match a with
  | ⟨0, _⟩ => show win0_6.index t (0 : Fin 4) * 1 ≤ (i 0).val ∧ (i 0).val < win0_6.index t (0 : Fin 4) * 1 + 1; rw [e0]; omega
  | ⟨1, _⟩ => show win0_6.index t (1 : Fin 4) * 2 ≤ (i 1).val ∧ (i 1).val < win0_6.index t (1 : Fin 4) * 2 + 2; rw [e1]; omega
  | ⟨2, _⟩ => show win0_6.index t (2 : Fin 4) * 8 ≤ (i 2).val ∧ (i 2).val < win0_6.index t (2 : Fin 4) * 8 + 8; rw [e2]; omega
  | ⟨3, _⟩ => show win0_6.index t (3 : Fin 4) * 128 ≤ (i 3).val ∧ (i 3).val < win0_6.index t (3 : Fin 4) * 128 + 128; rw [e3]; omega

end Cert.KernelIdeal.Blocks

end
-- ==== Proof.Blocks.lean ====
/-
  The arrays after the run.

  What point t writes back is block t of the one-head functions of the region's operand arrays (BlockReads, over
  arbitrary arrays; here at the arrays the region finds), and the blocks cover the outputs: so after the run the
  packed output and the loss tiles hold those functions, entry by entry.
-/
import proofs.«132056_j86612310491926_2_alg».proof.Proof.BlockReads

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Head

variable {F : FTy → Type} [FloatOps F]
variable (m : (ℓ : Loc nD τ sig) → Buf (Elt F) ℓ) (ρ : Dev nD → PrngReg)

/-- The packed output as the region's operand arrays determine it. -/
abbrev X5 (c : Dev nD) : S4x8x2048x128.Idx → F .f32 :=
  outX (V m c (Pipeline.arrRef spec0 0)) (V m c (Pipeline.arrRef spec0 1)) (V m c (Pipeline.arrRef spec0 2))
    (V m c (Pipeline.arrRef spec0 3)) (V m c (Pipeline.arrRef spec0 4))
/-- The loss tiles as the region's operand arrays determine them. -/
abbrev A6 (c : Dev nD) : S4x8x8x128.Idx → F .f32 :=
  outAux (V m c (Pipeline.arrRef spec0 0)) (V m c (Pipeline.arrRef spec0 1)) (V m c (Pipeline.arrRef spec0 3))

/-- Point t writes back block t of the packed output. -/
theorem flushed5_eq (c : Dev nD) (t : Fin cfg0.N) :
    (dats m 0 c).flushed 5 t = ((cfg0.win 5).blk t).view.read (Elt F) (X5 m c) := by
  show (cfg0.win 5).cut (grid0.coords t) ((dats m 0 c).after 5 t) = _
  rw [after0_5]
  unfold out0_5 iblk
  rw [storeX_first, storeX_second]
  exact blockX _ _ _ _ _ t

/-- Point t writes back block t of the loss tiles. -/
theorem flushed6_eq (c : Dev nD) (t : Fin cfg0.N) :
    (dats m 0 c).flushed 6 t = ((cfg0.win 6).blk t).view.read (Elt F) (A6 m c) := by
  show (cfg0.win 6).cut (grid0.coords t) ((dats m 0 c).after 6 t) = _
  rw [after0_6]
  unfold out0_6 iblk
  rw [storeAux_first, storeAux_second]
  exact blockAux _ _ _ t

/-- After the run the packed output array is the one-head product of the operands' planes, entry by entry. -/
theorem final5 (c : Dev nD) : (dats m 0 c).arrAt 5 cfg0.N = X5 m c :=
  (dats m 0 c).arrAt_eq_of_cover 5 (X5 m c) (fun t _ => flushed5_eq m c t) cover5

/-- And the loss tiles each head's share of the loss. -/
theorem final6 (c : Dev nD) : (dats m 0 c).arrAt 6 cfg0.N = A6 m c :=
  (dats m 0 c).arrAt_eq_of_cover 6 (A6 m c) (fun t _ => flushed6_eq m c t) cover6

end Cert.KernelIdeal.Blocks

end
-- ==== Proof.KernelRun.lean ====
/-
  The kernel's run, read back.

  After the region the output array holds the one-head products (Blocks.final5) and the loss tiles each head's
  share (Blocks.final6); the host lines after the region reshape the packed output back to [4,8,4096,64] and add,
  per batch, entry (0,0) of the eight heads' tiles from the zero word. So every execution ends with the two
  results at those terms of the region's operand arrays, the arguments unchanged.
-/
import proofs.«132056_j86612310491926_2_alg».proof.Proof.Blocks
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Blocks

open Cert.KernelIdeal Cert.KernelIdeal.Gen Cert.KernelIdeal.Head

variable {F : FTy → Type} [FloatOps F]
variable (m : (ℓ : Loc nD τ sig) → Buf (Elt F) ℓ) (ρ : Dev nD → PrngReg)

/-- The first result: the packed output reshaped back. -/
abbrev resX (c : Dev nD) : S4x8x4096x64.Idx → F .f32 :=
  shapeCast S4x8x4096x64 (X5 m c) shapeCasts_S4x8x2048x128_S4x8x4096x64

/-- The second result: per batch, the heads' tile entries (0,0) added from the zero word. -/
abbrev resLoss (c : Dev nD) : S4.Idx → F .f32 :=
  Host.reduceAdd (shapeCast S4x8 (extractStridedSlice S4x8x1x1 ![0, 0, 0, 0] (A6 m c) slices_S4x8x8x128_S4x8x1x1_0_0_0_0) shapeCasts_S4x8x1x1_S4x8)
    (constant S_ .f32 0x00000000#32) reducesTo_S4x8_S4_d1 h_S_

/-- What the lines after the region leave in the first result's buffer. -/
theorem tail_X (c : Dev nD) : Pipeline.afterTail₀ cfgs (dats m) 0 (V0 m) [hostOps1] c main_v45 = resX m c := by
  unfold Pipeline.afterTail₀
  show StableHlo.after hostOps1 _ (Proc.devRef .tc main_v45) = _
  after_results
  exact congrArg (fun A : S4x8x2048x128.Idx → Elt F .f32 => shapeCast S4x8x4096x64 A shapeCasts_S4x8x2048x128_S4x8x4096x64)
    ((Pipeline.withArrays_arr spec0 launch0.win.arr_inj c (V0 m c) (fun w => (dats m 0 c).arrAt w cfg0.N) 5).trans (final5 m c))

/-- What they leave in the second result's buffer. -/
theorem tail_loss (c : Dev nD) : Pipeline.afterTail₀ cfgs (dats m) 0 (V0 m) [hostOps1] c main_v48 = resLoss m c := by
  unfold Pipeline.afterTail₀
  show StableHlo.after hostOps1 _ (Proc.devRef .tc main_v48) = _
  after_results
  exact congrArg (fun A : S4x8x8x128.Idx → Elt F .f32 =>
      Host.reduceAdd (shapeCast S4x8 (extractStridedSlice S4x8x1x1 ![0, 0, 0, 0] A slices_S4x8x8x128_S4x8x1x1_0_0_0_0) shapeCasts_S4x8x1x1_S4x8)
        (constant S_ .f32 0x00000000#32) reducesTo_S4x8_S4_d1 h_S_)
    ((Pipeline.withArrays_arr spec0 launch0.win.arr_inj c (V0 m c) (fun w => (dats m 0 c).arrAt w cfg0.N) 6).trans (final6 m c))

/-- The run: both results at their terms of the region's operands, the six arguments as launched. -/
theorem run : θ_run defs (onTc (τ := τ) (main (F := F))) ⟨m, fun _ => 0, ρ⟩ fun r => ∀ c : Dev nD,
      r.2.mem ((c.tc : Thread nD τ).loc main_v45) = resX m c
      ∧ r.2.mem ((c.tc : Thread nD τ).loc main_v48) = resLoss m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v45 (Pipeline.mem_restRefs_of main_v45 (by decide) (by decide))).trans (tail_X m c),
      ((h c).2 main_v48 (Pipeline.mem_restRefs_of main_v48 (by decide) (by decide))).trans (tail_loss m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Blocks

end
-- ==== Proof.Attn.lean ====
/-
  The attention block as functions of coordinates, on the extended reals.

  softmax x k = exp (x k − max x) / ∑ exp (x k' − max x), the maximum folded from −∞.
  A lane-packed array holds sequence position 2p + e at row p, lanes 64e … 64e+63; a quantity taken over all
  sequence positions is there a combination of the same quantity over the two halves:
    the maximum the max of the two halves' maxima, a sum the sum of the two halves' sums.
  pairSoftmax is the softmax over all positions written that way; gramPair and ctxPair are the contractions
  over positions written as the sum of the two halves' contractions.
-/
import Idealize.ShloMosaic.Lib.ValueIdx
import Idealize.ShloMosaic.PureOps.Ideal.Laws

noncomputable section

open scoped BigOperators

namespace Cert.Attn

open Idealize.ShloMosaic Idealize.ShloMosaic.ValueIdx

/-- The f32 word of −∞: where every maximum starts. -/
abbrev negInf : EReal := Ideal.ofBits .f32 0xFF800000#32

/-- softmax of a finite family at one of its indices. -/
def softmax {κ : Type} [Fintype κ] (x : κ → EReal) (k : κ) : EReal :=
  Ideal.div (Ideal.exp (x k - (Finset.univ : Finset κ).fold max negInf x))
    (∑ k' : κ, Ideal.exp (x k' - (Finset.univ : Finset κ).fold max negInf x))

/-- The maximum of two half-families together. -/
def pairMax {κ : Type} [Fintype κ] (x : Fin 2 → κ → EReal) : EReal :=
  max ((Finset.univ : Finset κ).fold max negInf (x 0)) ((Finset.univ : Finset κ).fold max negInf (x 1))

/-- The softmax over two half-families together, at index k of half e. -/
def pairSoftmax {κ : Type} [Fintype κ] (x : Fin 2 → κ → EReal) (e : Fin 2) (k : κ) : EReal :=
  Ideal.div (Ideal.exp (x e k - pairMax x))
    ((∑ k' : κ, Ideal.exp (x 0 k' - pairMax x)) + ∑ k' : κ, Ideal.exp (x 1 k' - pairMax x))

/-- Lane 64e + r of a packed row: rank coordinate r of the row's half e. -/
def lane (e : Fin 2) (r : Fin 64) : Fin 128 := ⟨64 * e.val + r.val, by have := e.isLt; have := r.isLt; omega⟩

/-- The identity matrix's entry. -/
def eye (r s : Fin 64) : EReal := if r = s then 1 else 0

/-- |x| on the extended reals. -/
def absE (x : EReal) : EReal := max x (-x)

section packed

variable (q k v : (⟨2, ![2048, 128]⟩ : Shape).Idx → EReal) (f : (⟨2, ![1, 128]⟩ : Shape).Idx → EReal)

/-- ∑ over positions of a[·, r] · b[·, d], as the two halves' sums. -/
def ctxPair (a b : (⟨2, ![2048, 128]⟩ : Shape).Idx → EReal) (r d : Fin 64) : EReal :=
  (∑ p : Fin 2048, a (ix2 p (lane 0 r)) * b (ix2 p (lane 0 d))) + ∑ p : Fin 2048, a (ix2 p (lane 1 r)) * b (ix2 p (lane 1 d))

/-- The block's output at row p, half e, coordinate d. -/
def xPacked (p : Fin 2048) (e : Fin 2) (d : Fin 64) : EReal :=
  ∑ r : Fin 64, (q (ix2 p (lane e r)) * f (ix2 (0 : Fin 1) (lane e r))) * ctxPair k v r d

/-- ∑ over r, s of |aᵀa − I|. -/
def devSum (a : (⟨2, ![2048, 128]⟩ : Shape).Idx → EReal) : EReal :=
  ∑ r : Fin 64, ∑ s : Fin 64, absE (ctxPair a a r s - eye r s)

/-- One head's share of the loss: 0.0125 · (dev q / 4096 + dev k / 4096), the constants as their f32 words. -/
def lossPacked : EReal :=
  Ideal.ofBits .f32 0x3C4CCCCD#32 * (Ideal.div (devSum q) (Ideal.ofBits .f32 0x45800000#32) + Ideal.div (devSum k) (Ideal.ofBits .f32 0x45800000#32))

end packed

section whole

variable (x0 x2 x3 : (⟨4, ![4, 8, 4096, 64]⟩ : Shape).Idx → EReal) (x4 : (⟨2, ![4, 4096]⟩ : Shape).Idx → EReal)
  (filt : (⟨4, ![4, 8, 1, 64]⟩ : Shape).Idx → EReal)

/-- The mask's additive bias at batch b, position n: −1e9 · (1 − mask), the constants as their f32 words. -/
def maskBias (b : Fin 4) (n : Fin 4096) : EReal :=
  Ideal.ofBits .f32 0xCE6E6B28#32 * (Ideal.ofBits .f32 0x3F800000#32 - x4 (ix2 b n))

/-- Q: the softmax of U over the rank coordinate. -/
def qWhole (b : Fin 4) (h : Fin 8) (n : Fin 4096) (r : Fin 64) : EReal :=
  softmax (fun r' : Fin 64 => x0 (ix4 b h n r')) r

/-- K: the softmax of svd_V + bias over the sequence positions. -/
def kWhole (b : Fin 4) (h : Fin 8) (n : Fin 4096) (r : Fin 64) : EReal :=
  softmax (fun n' : Fin 4096 => x2 (ix4 b h n' r) + maskBias x4 b n') n

/-- X = (Q · filter) (Kᵀ V). -/
def xWhole (b : Fin 4) (h : Fin 8) (n : Fin 4096) (d : Fin 64) : EReal :=
  ∑ r : Fin 64, (qWhole x0 b h n r * filt (ix4 b h (0 : Fin 1) r)) * ∑ n' : Fin 4096, kWhole x2 x4 b h n' r * x3 (ix4 b h n' d)

/-- ∑ over heads and r, s of |AᵀA − I| for a family A of per-head matrices. -/
def devWhole (A : Fin 8 → Fin 4096 → Fin 64 → EReal) : EReal :=
  ∑ h : Fin 8, ∑ r : Fin 64, ∑ s : Fin 64, absE ((∑ n : Fin 4096, A h n r * A h n s) - eye r s)

/-- The loss of batch b: 0.1 · (dev Q / 32768) + 0.1 · (dev K / 32768), sums started from the zero word, the constants as their f32 words. -/
def lossWhole (b : Fin 4) : EReal :=
  Ideal.ofBits .f32 0x3DCCCCCD#32 * Ideal.div (Ideal.ofBits .f32 0x00000000#32 + devWhole (qWhole x0 b)) (Ideal.ofBits .f32 0x47000000#32)
    + Ideal.ofBits .f32 0x3DCCCCCD#32 * Ideal.div (Ideal.ofBits .f32 0x00000000#32 + devWhole (kWhole x2 x4 b)) (Ideal.ofBits .f32 0x47000000#32)

end whole

end Cert.Attn

end
-- ==== Proof.LibRowMax.lean ====
/-
  The maximum of a matrix along its rows, read at an index at the ideal values: a `vector.multi_reduction <maximumf>`
  of an [a, b] matrix along axis 1 is, at row i, the fold of max from the accumulator's value over the entries (i, k).
-/
import Idealize.ShloMosaic.Lib.ValueIdx
import Idealize.ShloMosaic.PureOps.Ideal.Laws

noncomputable section

namespace Cert.LibRowMax

open Idealize.ShloMosaic Idealize.ShloMosaic.ValueIdx

/-- At the ideal values the maximum of an `[a, b]` matrix along its rows is, at `i`, the fold of `max` from the
    accumulator's value over the entries `(i, k)`. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (fun f => (Finset.univ : Finset (Fin b)).fold max (Ideal.ofBits φ acc) f)
    (funext fun k => congrArg src (funext fun ax => Fin.ext ?_))
  match ax with
  | ⟨0, _⟩ => rfl
  | ⟨1, _⟩ => rfl

end Cert.LibRowMax

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.HeadSoftmax.lean ====
/-
  The two softmaxes of one head of the attention block, read at an index of the lane-packed array.

  A packed array has 2048 rows of 128 lanes; lane 64e + r of row p holds rank coordinate r of sequence position
  2p + e. The softmax over the rank coordinates is taken separately in each half of every row: the half's maximum
  and the half's sum are reductions along the lanes of the half, spread back over the half. The softmax over the
  sequence positions is taken per rank coordinate over both halves of all rows: the maximum is the max of the two
  halves' maxima along the rows, the sum the sum of the two halves' sums along the rows, each spread back over both
  halves of every row.
-/
import proofs.«132056_j86612310491926_2_alg».proof.Proof.Head
import proofs.«132056_j86612310491926_2_alg».proof.Proof.Attn
import proofs.«132056_j86612310491926_2_alg».proof.Proof.LibRowMax
import proofs.«132056_j86612310491926_2_alg».proof.Proof.LibKeepdims
import Idealize.ShloMosaic.Lib.ValueLayout

noncomputable section

open scoped BigOperators

namespace Cert.HeadSoftmax

open Idealize.ShloMosaic Idealize.ShloMosaic.ValueIdx Cert.KernelIdeal Cert.KernelIdeal.Gen Cert.KernelIdeal.Head Cert.Attn

/-! ## The two halves of a packed row: slices and concatenations along the lanes -/

section Layout
variable {α : Type}

/-- Lane r of the first half is lane r of the row. -/
theorem lane_zero_val (r : Fin 64) : (lane 0 r).val = r.val := by
  show 64 * 0 + r.val = r.val
  omega

/-- Lane r of the second half is lane 64 + r of the row. -/
theorem lane_one_val (r : Fin 64) : (lane 1 r).val = 64 + r.val := by
  show 64 * 1 + r.val = 64 + r.val
  omega

/-- The first 64 lanes of an [n, 128] array read, at (p, r), the array at lane r of the first half. -/
theorem sliceLo_apply {n : ℕ} (X : (⟨2, ![n, 128]⟩ : Shape).Idx → α)
    (h : (⟨2, ![n, 128]⟩ : Shape).Slices ![0, 0] ⟨2, ![n, 64]⟩) (p : Fin n) (r : Fin 64) :
    extractStridedSlice ⟨2, ![n, 64]⟩ ![0, 0] X h (ix2 p r) = X (ix2 p (lane 0 r)) :=
  slice2_axis1_apply 0 X h p r (lane 0 r) (by rw [lane_zero_val, Nat.zero_add])

/-- The last 64 lanes of an [n, 128] array read, at (p, r), the array at lane r of the second half. -/
theorem sliceHi_apply {n : ℕ} (X : (⟨2, ![n, 128]⟩ : Shape).Idx → α)
    (h : (⟨2, ![n, 128]⟩ : Shape).Slices ![0, 64] ⟨2, ![n, 64]⟩) (p : Fin n) (r : Fin 64) :
    extractStridedSlice ⟨2, ![n, 64]⟩ ![0, 64] X h (ix2 p r) = X (ix2 p (lane 1 r)) :=
  slice2_axis1_apply 64 X h p r (lane 1 r) (lane_one_val r)

/-- Two [n, 64] arrays put side by side read, at lane r of the first half, the first array at (p, r). -/
theorem concatLo_apply {n : ℕ} (a b : (⟨2, ![n, 64]⟩ : Shape).Idx → α)
    (h : Shape.Concatenates [(⟨2, ![n, 64]⟩ : Shape), ⟨2, ![n, 64]⟩] ⟨2, ![n, 128]⟩ 1) (p : Fin n) (r : Fin 64) :
    concatenate ⟨2, ![n, 128]⟩ 1 [⟨⟨2, ![n, 64]⟩, a⟩, ⟨⟨2, ![n, 64]⟩, b⟩] h (ix2 p (lane 0 r)) = a (ix2 p r) := by
  refine concatenate_pair_apply_left (t := ⟨2, ![n, 128]⟩) (s₁ := ⟨2, ![n, 64]⟩) (s₂ := ⟨2, ![n, 64]⟩) (1 : Fin 2) a b h
    (ix2 p (lane 0 r)) rfl (ix2 p r) (fun c => ?_)
  match c with
  | ⟨0, _⟩ => rfl
  | ⟨1, _⟩ => exact (lane_zero_val r).symm

/-- Two [n, 64] arrays put side by side read, at lane r of the second half, the second array at (p, r). -/
theorem concatHi_apply {n : ℕ} (a b : (⟨2, ![n, 64]⟩ : Shape).Idx → α)
    (h : Shape.Concatenates [(⟨2, ![n, 64]⟩ : Shape), ⟨2, ![n, 64]⟩] ⟨2, ![n, 128]⟩ 1) (p : Fin n) (r : Fin 64) :
    concatenate ⟨2, ![n, 128]⟩ 1 [⟨⟨2, ![n, 64]⟩, a⟩, ⟨⟨2, ![n, 64]⟩, b⟩] h (ix2 p (lane 1 r)) = b (ix2 p r) := by
  refine concatenate_pair_apply_right (t := ⟨2, ![n, 128]⟩) (s₁ := ⟨2, ![n, 64]⟩) (s₂ := ⟨2, ![n, 64]⟩) (1 : Fin 2) a b h
    (ix2 p (lane 1 r)) rfl rfl (ix2 p r) (fun c hc => ?_) ?_
  · match c with
    | ⟨0, _⟩ => rfl
    | ⟨1, _⟩ => exact absurd rfl hc
  · show r.val + 64 = (lane 1 r).val
    rw [lane_one_val, Nat.add_comm]

/-- A vector of 2048 row values made a column and spread over 64 lanes reads, at (p, r), the value of row p. -/
theorem spread_apply (m : S2048.Idx → α) (p : Fin 2048) (r : Fin 64) :
    broadcastTo S2048x64 (shapeCast S2048x1 (shapeCast S2048x1 m shapeCasts_S2048_S2048x1) shapeCasts_S2048x1_S2048x1)
        broadcasts_S2048x1_S2048x64 (ix2 p r) = m (ix1 p) := by
  rw [shapeCast_self]
  exact (Cert.LibKeepdims.broadcastTo_a1_ab_apply _ broadcasts_S2048x1_S2048x64 p r).trans
    (Cert.LibKeepdims.shapeCast_a_a1_apply m shapeCasts_S2048_S2048x1 p 0)

end Layout

/-! ## Reductions along the rows, per column -/

/-- At the ideal values the maximum of an [a, b] matrix along its columns is, at column k, the fold of max from the
    accumulator's value over the entries (i, k). -/
theorem colMax_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (k : Fin b) :
    multiReduction .maximumf [0] ⟨1, ![b]⟩ src acc h hφ hacc (ix1 k)
      = (Finset.univ : Finset (Fin a)).fold max (Ideal.ofBits φ acc) (fun i => src (ix2 i k)) := by
  refine (Ideal.multiReduction_maximumf_single src acc h hφ hacc (ix1 k)).trans ?_
  refine congrArg (fun f => (Finset.univ : Finset (Fin a)).fold max (Ideal.ofBits φ acc) f)
    (funext fun i => congrArg src (funext fun ax => Fin.ext ?_))
  match ax with
  | ⟨0, _⟩ => rfl
  | ⟨1, _⟩ => rfl

/-- At the ideal values the sum of an [a, b] matrix along its columns is, at column k, the sum over i of the
    entries (i, k). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (k : Fin b) :
    multiReduction .add [0] ⟨1, ![b]⟩ src acc h hφ hacc (ix1 k) = ∑ i : Fin a, src (ix2 i k) := by
  refine (Ideal.multiReduction_add_single src acc h hφ hacc (ix1 k)).trans ?_
  refine Finset.sum_congr rfl fun i _ => congrArg src (funext fun ax => Fin.ext ?_)
  match ax with
  | ⟨0, _⟩ => rfl
  | ⟨1, _⟩ => rfl

/-! ## One row of 64 values spread over both halves of every row -/

section Pair
variable {α : Type}

/-- A row of 64 values repeated in both halves of a 128-lane row and spread over all 2048 rows. -/
def rowOfPair (m : S1x64.Idx → α) : S2048x128.Idx → α :=
  broadcastTo S2048x128
    (shapeCast S1x128 (concatenate S1x128 1 [⟨S1x64, m⟩, ⟨S1x64, m⟩] concatenates_S1x64_S1x64_S1x128_d1) shapeCasts_S1x128_S1x128)
    broadcasts_S1x128_S2048x128

/-- It reads, at lane r of either half of any row, the value r. -/
theorem rowOfPair_apply (m : S1x64.Idx → α) (p : Fin 2048) (e : Fin 2) (r : Fin 64) :
    rowOfPair m (ix2 p (lane e r)) = m (ix2 (0 : Fin 1) r) := by
  unfold rowOfPair
  rw [shapeCast_self]
  refine (broadcastTo_1b_ab_apply _ broadcasts_S1x128_S2048x128 p (lane e r)).trans ?_
  have he : e = 0 ∨ e = 1 := by omega
  rcases he with rfl | rfl
  · exact concatLo_apply m m concatenates_S1x64_S1x64_S1x128_d1 (0 : Fin 1) r
  · exact concatHi_apply m m concatenates_S1x64_S1x64_S1x128_d1 (0 : Fin 1) r

end Pair

/-! ## The softmax over the rank coordinates, in each half of every row -/

/-- An exponential at an index is the exponential of the element. -/
theorem exp_apply {s : Shape} {φ : FTy} (a : FVec Ideal s φ) (i : s.Idx) : exp a i = Ideal.exp (a i) := rfl

/-- exp (u − m) at lane r of half e of row p, m the fold of max over the 64 lanes of that half. -/
theorem expShifted_apply (u : FVec Ideal S2048x128 .f32) (p : Fin 2048) (e : Fin 2) (r : Fin 64) :
    expShifted (F := Ideal) u (ix2 p (lane e r))
      = Ideal.exp (u (ix2 p (lane e r)) - (Finset.univ : Finset (Fin 64)).fold max negInf (fun k => u (ix2 p (lane e k)))) := by
  have he : e = 0 ∨ e = 1 := by omega
  show Ideal.exp (u (ix2 p (lane e r))
    - concatenate S2048x128 1 [⟨S2048x64, _⟩, ⟨S2048x64, _⟩] concatenates_S2048x64_S2048x64_S2048x128_d1 (ix2 p (lane e r))) = _
  rcases he with rfl | rfl
  · refine congrArg (fun m => Ideal.exp (u (ix2 p (lane 0 r)) - m)) ?_
    refine (concatLo_apply _ _ concatenates_S2048x64_S2048x64_S2048x128_d1 p r).trans ?_
    refine (spread_apply _ p r).trans ?_
    refine (Cert.LibRowMax.rowMax_apply _ _ reduces_S2048x64_S2048 (.inl rfl) rfl p).trans ?_
    exact congrArg (fun f => (Finset.univ : Finset (Fin 64)).fold max negInf f)
      (funext fun k => sliceLo_apply u slices_S2048x128_o0_0_S2048x64 p k)
  · refine congrArg (fun m => Ideal.exp (u (ix2 p (lane 1 r)) - m)) ?_
    refine (concatHi_apply _ _ concatenates_S2048x64_S2048x64_S2048x128_d1 p r).trans ?_
    refine (spread_apply _ p r).trans ?_
    refine (Cert.LibRowMax.rowMax_apply _ _ reduces_S2048x64_S2048 (.inl rfl) rfl p).trans ?_
    exact congrArg (fun f => (Finset.univ : Finset (Fin 64)).fold max negInf f)
      (funext fun k => sliceHi_apply u slices_S2048x128_o0_64_S2048x64 p k)

/-- The half's sum at lane r of half e of row p: the sum over the 64 lanes of that half. -/
theorem halfRowSums_apply (x : FVec Ideal S2048x128 .f32) (p : Fin 2048) (e : Fin 2) (r : Fin 64) :
    halfRowSums (F := Ideal) x (ix2 p (lane e r)) = ∑ k : Fin 64, x (ix2 p (lane e k)) := by
  have he : e = 0 ∨ e = 1 := by omega
  show concatenate S2048x128 1 [⟨S2048x64, _⟩, ⟨S2048x64, _⟩] concatenates_S2048x64_S2048x64_S2048x128_d1 (ix2 p (lane e r)) = _
  rcases he with rfl | rfl
  · refine (concatLo_apply _ _ concatenates_S2048x64_S2048x64_S2048x128_d1 p r).trans ?_
    refine (spread_apply _ p r).trans ?_
    refine (Cert.LibKeepdims.rowSum_apply _ _ reduces_S2048x64_S2048 (.inl rfl) rfl p).trans ?_
    exact Finset.sum_congr rfl fun k _ => sliceLo_apply x slices_S2048x128_o0_0_S2048x64 p k
  · refine (concatHi_apply _ _ concatenates_S2048x64_S2048x64_S2048x128_d1 p r).trans ?_
    refine (spread_apply _ p r).trans ?_
    refine (Cert.LibKeepdims.rowSum_apply _ _ reduces_S2048x64_S2048 (.inl rfl) rfl p).trans ?_
    exact Finset.sum_congr rfl fun k _ => sliceHi_apply x slices_S2048x128_o0_64_S2048x64 p k

/-- THE RANK SOFTMAX AT AN INDEX: at lane r of half e of row p, the softmax over the half's 64 lanes. -/
theorem qOf_apply (u : FVec Ideal S2048x128 .f32) (p : Fin 2048) (e : Fin 2) (r : Fin 64) :
    qOf (F := Ideal) u (ix2 p (Cert.Attn.lane e r))
      = Cert.Attn.softmax (fun r' : Fin 64 => u (ix2 p (Cert.Attn.lane e r'))) r := by
  show Ideal.div (expShifted (F := Ideal) u (ix2 p (lane e r)))
    (halfRowSums (F := Ideal) (expShifted (F := Ideal) u) (ix2 p (lane e r))) = _
  rw [halfRowSums_apply, expShifted_apply]
  exact congrArg
    (fun s => Ideal.div (Ideal.exp (u (ix2 p (lane e r))
      - (Finset.univ : Finset (Fin 64)).fold max negInf (fun k => u (ix2 p (lane e k))))) s)
    (Finset.sum_congr rfl fun k _ => expShifted_apply u p e k)

/-! ## The softmax over the sequence positions, per rank coordinate -/

/-- The maximum over both halves of all rows, per rank coordinate, as a row of 64 values. -/
def posMax (y : FVec Ideal S2048x128 .f32) : FVec Ideal S1x64 .f32 :=
  maximumf
    (shapeCast S1x64 (multiReduction .maximumf [0] S64
      (extractStridedSlice S2048x64 ![0, 0] y slices_S2048x128_o0_0_S2048x64) 0xFF800000#32 reduces_S2048x64_S64 (.inl rfl) rfl)
      shapeCasts_S64_S1x64)
    (shapeCast S1x64 (multiReduction .maximumf [0] S64
      (extractStridedSlice S2048x64 ![0, 64] y slices_S2048x128_o0_64_S2048x64) 0xFF800000#32 reduces_S2048x64_S64 (.inl rfl) rfl)
      shapeCasts_S64_S1x64)

/-- At rank coordinate r it is the max of the two halves' folds of max over the rows. -/
theorem posMax_apply (y : FVec Ideal S2048x128 .f32) (r : Fin 64) :
    posMax y (ix2 (0 : Fin 1) r)
      = max ((Finset.univ : Finset (Fin 2048)).fold max negInf (fun p' => y (ix2 p' (lane 0 r))))
          ((Finset.univ : Finset (Fin 2048)).fold max negInf (fun p' => y (ix2 p' (lane 1 r)))) := by
  unfold posMax
  rw [maximumf_apply]
  refine congrArg₂ max ?_ ?_
  · refine (shapeCast_a_1a_apply _ shapeCasts_S64_S1x64 (0 : Fin 1) r).trans ?_
    refine (colMax_apply _ _ reduces_S2048x64_S64 (.inl rfl) rfl r).trans ?_
    exact congrArg (fun f => (Finset.univ : Finset (Fin 2048)).fold max negInf f)
      (funext fun p' => sliceLo_apply y slices_S2048x128_o0_0_S2048x64 p' r)
  · refine (shapeCast_a_1a_apply _ shapeCasts_S64_S1x64 (0 : Fin 1) r).trans ?_
    refine (colMax_apply _ _ reduces_S2048x64_S64 (.inl rfl) rfl r).trans ?_
    exact congrArg (fun f => (Finset.univ : Finset (Fin 2048)).fold max negInf f)
      (funext fun p' => sliceHi_apply y slices_S2048x128_o0_64_S2048x64 p' r)

/-- The sum over both halves of all rows, per rank coordinate, as a row of 64 values. -/
def posSum (x : FVec Ideal S2048x128 .f32) : FVec Ideal S1x64 .f32 :=
  addf
    (shapeCast S1x64 (multiReduction .add [0] S64
      (extractStridedSlice S2048x64 ![0, 0] x slices_S2048x128_o0_0_S2048x64) 0x00000000#32 reduces_S2048x64_S64 (.inl rfl) rfl)
      shapeCasts_S64_S1x64)
    (shapeCast S1x64 (multiReduction .add [0] S64
      (extractStridedSlice S2048x64 ![0, 64] x slices_S2048x128_o0_64_S2048x64) 0x00000000#32 reduces_S2048x64_S64 (.inl rfl) rfl)
      shapeCasts_S64_S1x64)

/-- At rank coordinate r it is the sum of the two halves' sums over the rows. -/
theorem posSum_apply (x : FVec Ideal S2048x128 .f32) (r : Fin 64) :
    posSum x (ix2 (0 : Fin 1) r)
      = (∑ p' : Fin 2048, x (ix2 p' (lane 0 r))) + ∑ p' : Fin 2048, x (ix2 p' (lane 1 r)) := by
  unfold posSum
  rw [addf_apply]
  refine congrArg₂ (· + ·) ?_ ?_
  · refine (shapeCast_a_1a_apply _ shapeCasts_S64_S1x64 (0 : Fin 1) r).trans ?_
    refine (colSum_apply _ _ reduces_S2048x64_S64 (.inl rfl) rfl r).trans ?_
    exact Finset.sum_congr rfl fun p' _ => sliceLo_apply x slices_S2048x128_o0_0_S2048x64 p' r
  · refine (shapeCast_a_1a_apply _ shapeCasts_S64_S1x64 (0 : Fin 1) r).trans ?_
    refine (colSum_apply _ _ reduces_S2048x64_S64 (.inl rfl) rfl r).trans ?_
    exact Finset.sum_congr rfl fun p' _ => sliceHi_apply x slices_S2048x128_o0_64_S2048x64 p' r

/-- exp (y − m), m the maximum over all sequence positions of the entry's rank coordinate. -/
def posShifted (y : FVec Ideal S2048x128 .f32) : FVec Ideal S2048x128 .f32 :=
  exp (subf y (rowOfPair (posMax y)))

/-- At lane r of half e of row p. -/
theorem posShifted_apply (y : FVec Ideal S2048x128 .f32) (p : Fin 2048) (e : Fin 2) (r : Fin 64) :
    posShifted y (ix2 p (lane e r))
      = Ideal.exp (y (ix2 p (lane e r))
          - max ((Finset.univ : Finset (Fin 2048)).fold max negInf (fun p' => y (ix2 p' (lane 0 r))))
              ((Finset.univ : Finset (Fin 2048)).fold max negInf (fun p' => y (ix2 p' (lane 1 r))))) := by
  unfold posShifted
  rw [exp_apply, subf_apply, rowOfPair_apply, posMax_apply]

/-- The position softmax is the shifted exponential over its sum spread back. -/
theorem kOf_eq (bias sv : FVec Ideal S2048x128 .f32) :
    kOf (F := Ideal) bias sv = divf (posShifted (addf sv bias)) (rowOfPair (posSum (posShifted (addf sv bias)))) := rfl

/-- THE POSITION SOFTMAX AT AN INDEX: at lane r of half e of row p, the softmax over both halves of all rows of
    rank coordinate r of sv + bias. -/
theorem kOf_apply (bias sv : FVec Ideal S2048x128 .f32) (p : Fin 2048) (e : Fin 2) (r : Fin 64) :
    kOf (F := Ideal) bias sv (ix2 p (Cert.Attn.lane e r))
      = Cert.Attn.pairSoftmax (fun (e' : Fin 2) (p' : Fin 2048) =>
          sv (ix2 p' (Cert.Attn.lane e' r)) + bias (ix2 p' (Cert.Attn.lane e' r))) e p := by
  rw [kOf_eq, divf_apply, rowOfPair_apply, posSum_apply, posShifted_apply]
  simp only [posShifted_apply, addf_apply]
  rfl

end Cert.HeadSoftmax

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.HeadProducts.lean ====
/-
  The products and the loss tile of one head, read at an index.

  On lane-packed arrays (row p holds positions 2p and 2p+1, lanes 64e … 64e+63 the rank coordinates of half e):
    * a slice at lane offset 0 or 64 reads lane (e, r) of the packed row;
    * a contraction over axis 0 of both operands reads, at (r, d), ∑ n, a[n, r] · b[n, d];
    * a plain product reads, at (p, d), ∑ r, a[p, r] · b[r, d];
    * the matrix "row number = column number", as an integer and then as a float, is the identity matrix;
    * a sum along the rows followed by the sum of the resulting column is the double sum over both coordinates.
  From these, the head's output at row p, half e, coordinate d is ∑ r, (q · filter)[p, (e, r)] · (kᵀ v)[r, d], the
  contraction over positions the sum of the two halves' contractions, and every entry of the loss tile is
  0.0125 · (∑ |qᵀq − I| / 4096 + ∑ |kᵀk − I| / 4096).
-/
import proofs.«132056_j86612310491926_2_alg».proof.Proof.Head
import proofs.«132056_j86612310491926_2_alg».proof.Proof.Attn
import proofs.«132056_j86612310491926_2_alg».proof.Proof.LibKeepdims
import proofs.«132056_j86612310491926_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.HeadProducts

open Idealize.ShloMosaic Idealize.ShloMosaic.ValueIdx Idealize.SL.Sem Cert.KernelIdeal Cert.KernelIdeal.Gen Cert.KernelIdeal.Head
open Cert.Attn (lane eye absE ctxPair xPacked devSum lossPacked)

/-! ## The two contractions -/

/-- The contraction over axis 0 of both operands. -/
abbrev D0 := dot_S2048x64_S2048x64_S64x64_0_0_1_1_n_n
/-- The plain product's dimension numbers. -/
abbrev D1 := dot_S2048x64_S64x64_S2048x64_1_0_0_1_n_n

/-- The left operand's kept coordinate is the output's row. -/
theorem D0_lhs_kept (i : S64x64.Idx) (c : D0.contr.Idx) : (D0.lhsIdx i c 1).val = (i 0).val := by
  unfold DotDims.lhsIdx
  rw [dif_neg (show ¬(1 : Fin S2048x64.rank) ∈ D0.lhsBatch by simp [D0, dot_S2048x64_S2048x64_S64x64_0_0_1_1_n_n]),
    dif_pos (show (1 : Fin S2048x64.rank) ∈ D0.lhsNonContracting by simp [D0, dot_S2048x64_S2048x64_S64x64_0_0_1_1_n_n])]
  rfl

/-- The right operand's kept coordinate is the output's column. -/
theorem D0_rhs_kept (i : S64x64.Idx) (c : D0.contr.Idx) : (D0.rhsIdx i c 1).val = (i 1).val := by
  unfold DotDims.rhsIdx
  rw [dif_neg (show ¬(1 : Fin S2048x64.rank) ∈ D0.rhsBatch by simp [D0, dot_S2048x64_S2048x64_S64x64_0_0_1_1_n_n]),
    dif_pos (show (1 : Fin S2048x64.rank) ∈ D0.rhsNonContracting by simp [D0, dot_S2048x64_S2048x64_S64x64_0_0_1_1_n_n])]
  rfl

/-- The left operand's index at output (r, d) and contraction coordinate n is (n, r). -/
theorem D0_lhsIdx (r d : Fin 64) (n : Fin 2048) :
    D0.lhsIdx (ix2 r d) ((contrEquiv1 D0 2048 rfl rfl).symm n) = ix2 n r := by
  have hn := contrEquiv1_symm_val D0 2048 rfl rfl n
  funext a
  refine Fin.ext ?_
  match a with
  | ⟨0, _⟩ => exact (D0.lhsIdx_val_of_single rfl (ix2 r d) _).trans hn
  | ⟨1, _⟩ => exact D0_lhs_kept (ix2 r d) _

/-- The right operand's index at output (r, d) and contraction coordinate n is (n, d). -/
theorem D0_rhsIdx (r d : Fin 64) (n : Fin 2048) :
    D0.rhsIdx (ix2 r d) ((contrEquiv1 D0 2048 rfl rfl).symm n) = ix2 n d := by
  have hn := contrEquiv1_symm_val D0 2048 rfl rfl n
  funext a
  refine Fin.ext ?_
  match a with
  | ⟨0, _⟩ => exact (D0.rhsIdx_val_of_single rfl (ix2 r d) _).trans hn
  | ⟨1, _⟩ => exact D0_rhs_kept (ix2 r d) _

/-- A contraction over axis 0 of both operands into the zero splat reads, at (r, d), ∑ n, a[n, r] · b[n, d]. -/
theorem gram_apply {φ₁ φ₂ : FTy} (a : FVec Ideal S2048x64 φ₁) (b : FVec Ideal S2048x64 φ₂) (r d : Fin 64) :
    matmul D0 none a b (constant (F := Ideal) S64x64 .f32 0x00000000#32) (ix2 r d)
      = ∑ n : Fin 2048, a (ix2 n r) * b (ix2 n d) := by
  refine (Ideal.matmul_constant_zero_apply D0 none a b (ix2 r d)).trans ?_
  rw [← Equiv.sum_comp (contrEquiv1 D0 2048 rfl rfl).symm]
  refine Finset.sum_congr rfl fun n _ => ?_
  rw [D0_lhsIdx, D0_rhsIdx]

/-- The plain product contracts the left operand's axis 1 with the right operand's axis 0, with no batch axis. -/
theorem D1_eq : D1 = DotDims.plain 2048 64 64 := rfl

/-- A plain product into the zero splat reads, at (p, d), ∑ r, a[p, r] · b[r, d]. -/
theorem prod_apply {φ₁ φ₂ : FTy} (a : FVec Ideal S2048x64 φ₁) (b : FVec Ideal S64x64 φ₂) (p : Fin 2048) (d : Fin 64) :
    matmul D1 none a b (constant (F := Ideal) S2048x64 .f32 0x00000000#32) (ix2 p d)
      = ∑ r : Fin 64, a (ix2 p r) * b (ix2 r d) :=
  PlainDot.matmul_zero_apply 2048 64 64 none a b p d

/-! ## The identity matrix -/

/-- A number below 64 as a 32-bit word: equal words, equal numbers. -/
theorem ofNat32_inj (r s : Fin 64) : BitVec.ofNat 32 r.val = BitVec.ofNat 32 s.val ↔ r = s := by
  constructor
  · intro h
    have h' := congrArg BitVec.toNat h
    simp only [BitVec.toNat_ofNat] at h'
    have hr := r.isLt
    have hs := s.isLt
    rw [Nat.mod_eq_of_lt (by omega), Nat.mod_eq_of_lt (by omega)] at h'
    exact Fin.ext h'
  · rintro rfl
    rfl

/-- "Row number = column number", widened to a 32-bit integer and read exactly, is the identity matrix. -/
theorem eye_apply (h0 : S64x64.Iotas .tc 32 [0]) (h1 : S64x64.Iotas .tc 32 [1]) (hw : 1 < 32) (r s : Fin 64) :
    (sitofp (F := Ideal) .f32 (extui 32 (cmpi .eq (iota .tc S64x64 32 [0] h0) (iota .tc S64x64 32 [1] h1)) hw)
      : FVec Ideal S64x64 .f32) (ix2 r s) = eye r s := by
  show ((((BitVec.ofBool (iota .tc S64x64 32 [0] h0 (ix2 r s) == iota .tc S64x64 32 [1] h1 (ix2 r s))).setWidth 32).toInt : ℝ) : EReal)
    = eye r s
  rw [iota_single_apply, iota_single_apply]
  show ((((BitVec.ofBool (BitVec.ofNat 32 r.val == BitVec.ofNat 32 s.val)).setWidth 32).toInt : ℝ) : EReal) = eye r s
  unfold Cert.Attn.eye
  by_cases h : r = s
  · subst h
    simp
  · have hne : BitVec.ofNat 32 r.val ≠ BitVec.ofNat 32 s.val := fun e => h ((ofNat32_inj r s).mp e)
    have hb : (BitVec.ofNat 32 r.val == BitVec.ofNat 32 s.val) = false := beq_eq_false_iff_ne.mpr hne
    rw [if_neg h, hb]
    simp

/-! ## Layout: lanes of a packed row -/

section layout
variable {α : Type}

/-- The slice at lane offset 0 reads half 0 of the packed row. -/
theorem slice_lo_apply {n : Nat} (x : (⟨2, ![n, 128]⟩ : Shape).Idx → α)
    (h : (⟨2, ![n, 128]⟩ : Shape).Slices ![0, 0] ⟨2, ![n, 64]⟩) (p : Fin n) (r : Fin 64) :
    extractStridedSlice ⟨2, ![n, 64]⟩ ![0, 0] x h (ix2 p r) = x (ix2 p (lane 0 r)) :=
  slice2_axis1_apply 0 x h p r (lane 0 r) (by show 64 * 0 + r.val = 0 + r.val; omega)

/-- The slice at lane offset 64 reads half 1 of the packed row. -/
theorem slice_hi_apply {n : Nat} (x : (⟨2, ![n, 128]⟩ : Shape).Idx → α)
    (h : (⟨2, ![n, 128]⟩ : Shape).Slices ![0, 64] ⟨2, ![n, 64]⟩) (p : Fin n) (r : Fin 64) :
    extractStridedSlice ⟨2, ![n, 64]⟩ ![0, 64] x h (ix2 p r) = x (ix2 p (lane 1 r)) :=
  slice2_axis1_apply 64 x h p r (lane 1 r) (by show 64 * 1 + r.val = 64 + r.val; omega)

/-- Two halves put side by side read, at a lane of half 0, the first. -/
theorem concat_lo_apply {n : Nat} (x₀ x₁ : (⟨2, ![n, 64]⟩ : Shape).Idx → α)
    (h : Shape.Concatenates [(⟨2, ![n, 64]⟩ : Shape), ⟨2, ![n, 64]⟩] ⟨2, ![n, 128]⟩ 1) (p : Fin n) (d : Fin 64) :
    concatenate ⟨2, ![n, 128]⟩ 1 [⟨⟨2, ![n, 64]⟩, x₀⟩, ⟨⟨2, ![n, 64]⟩, x₁⟩] h (ix2 p (lane 0 d)) = x₀ (ix2 p d) :=
  concatenate_pair_apply_left 1 x₀ x₁ h (ix2 p (lane 0 d)) rfl (ix2 p d) (fun b => by
    match b with
    | ⟨0, _⟩ => rfl
    | ⟨1, _⟩ => show d.val = 64 * 0 + d.val; omega)

/-- Two halves put side by side read, at a lane of half 1, the second. -/
theorem concat_hi_apply {n : Nat} (x₀ x₁ : (⟨2, ![n, 64]⟩ : Shape).Idx → α)
    (h : Shape.Concatenates [(⟨2, ![n, 64]⟩ : Shape), ⟨2, ![n, 64]⟩] ⟨2, ![n, 128]⟩ 1) (p : Fin n) (d : Fin 64) :
    concatenate ⟨2, ![n, 128]⟩ 1 [⟨⟨2, ![n, 64]⟩, x₀⟩, ⟨⟨2, ![n, 64]⟩, x₁⟩] h (ix2 p (lane 1 d)) = x₁ (ix2 p d) :=
  concatenate_pair_apply_right 1 x₀ x₁ h (ix2 p (lane 1 d)) rfl rfl (ix2 p d) (fun b hb => by
    match b, hb with
    | ⟨0, _⟩, _ => rfl
    | ⟨1, _⟩, hb => exact absurd rfl hb) (by show d.val + 64 = 64 * 1 + d.val; omega)

/-- A [1, 1] array broadcast to [a, b] reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end layout

/-! ## The sum of all entries of a 64 × 64 matrix -/

/-- The sum along the rows, then the sum of the column of row sums, is the double sum. -/
theorem sumAll_apply (m : FVec Ideal S64x64 .f32) (h1 : S64x64.Reduces [1] S64) (hc : S64.ShapeCasts S64x1)
    (h0 : S64x1.Reduces [0] S1) (hc' : S1.ShapeCasts S1x1) (i j : Fin 1) :
    shapeCast S1x1 (multiReduction (F := Ideal) .add [0] S1
        (shapeCast S64x1 (multiReduction (F := Ideal) .add [1] S64 m 0x00000000#32 h1 (.inl rfl) rfl) hc)
        0x00000000#32 h0 (.inl rfl) rfl) hc' (ix2 i j)
      = ∑ r : Fin 64, ∑ s : Fin 64, m (ix2 r s) := by
  refine (LibKeepdims.shapeCast_a_a1_apply _ hc' i j).trans ?_
  refine (LibKeepdims.colSum_apply _ _ h0 _ _ i).trans ?_
  refine Finset.sum_congr rfl fun r _ => ?_
  refine (LibKeepdims.shapeCast_a_a1_apply _ hc r (0 : Fin 1)).trans ?_
  exact LibKeepdims.rowSum_apply m _ h1 _ _ r

/-! ## The contraction over positions, as the two halves' contractions -/

/-- The two halves' contractions over the rows, added, are the contraction over all positions. -/
theorem gramPair_apply (a b : FVec Ideal S2048x128 .f32) (hlo : S2048x128.Slices ![0, 0] S2048x64)
    (hhi : S2048x128.Slices ![0, 64] S2048x64) (hb : FTy.bits .bf16 < FTy.bits .f32) (r d : Fin 64) :
    addf
        (matmul D0 none (truncf .bf16 (extractStridedSlice S2048x64 ![0, 0] a hlo) hb)
          (truncf .bf16 (extractStridedSlice S2048x64 ![0, 0] b hlo) hb) (constant (F := Ideal) S64x64 .f32 0x00000000#32))
        (matmul D0 none (truncf .bf16 (extractStridedSlice S2048x64 ![0, 64] a hhi) hb)
          (truncf .bf16 (extractStridedSlice S2048x64 ![0, 64] b hhi) hb) (constant (F := Ideal) S64x64 .f32 0x00000000#32))
        (ix2 r d)
      = ctxPair a b r d := by
  refine (addf_apply _ _ _).trans ?_
  rw [gram_apply, gram_apply]
  unfold Cert.Attn.ctxPair
  refine congrArg₂ (· + ·) (Finset.sum_congr rfl fun n _ => ?_) (Finset.sum_congr rfl fun n _ => ?_)
  · exact congrArg₂ (· * ·) (slice_lo_apply a hlo n r) (slice_lo_apply b hlo n d)
  · exact congrArg₂ (· * ·) (slice_hi_apply a hhi n r) (slice_hi_apply b hhi n d)

/-! ## The output -/

/-- One half's product: (a half of q times the filter's half, spread over the rows) times a 64 × 64 matrix. -/
theorem xHalf_apply (qh : FVec Ideal S2048x64 .f32) (fh : FVec Ideal S1x64 .f32) (g : FVec Ideal S64x64 .f32)
    (hbr : S1x64.Broadcasts S2048x64) (hb : FTy.bits .bf16 < FTy.bits .f32) (p : Fin 2048) (d : Fin 64) :
    matmul D1 none (truncf .bf16 (mulf qh (broadcastTo S2048x64 fh hbr)) hb) (truncf .bf16 g hb)
        (constant (F := Ideal) S2048x64 .f32 0x00000000#32) (ix2 p d)
      = ∑ r : Fin 64, (qh (ix2 p r) * fh (ix2 (0 : Fin 1) r)) * g (ix2 r d) := by
  refine (prod_apply _ _ p d).trans ?_
  refine Finset.sum_congr rfl fun r _ => ?_
  show (qh (ix2 p r) * broadcastTo S2048x64 fh hbr (ix2 p r)) * g (ix2 r d) = _
  rw [broadcastTo_1b_ab_apply]

/-- The output at a lane of half 0. -/
theorem xOf_lo (q k v : FVec Ideal S2048x128 .f32) (f : FVec Ideal S1x128 .f32) (p : Fin 2048) (d : Fin 64) :
    xOf (F := Ideal) q k v f (ix2 p (lane 0 d)) = xPacked q k v f p 0 d := by
  unfold xOf
  refine (concat_lo_apply _ _ _ p d).trans ?_
  refine (xHalf_apply _ _ _ _ _ p d).trans ?_
  unfold Cert.Attn.xPacked
  refine Finset.sum_congr rfl fun r _ => ?_
  refine congrArg₂ (· * ·) (congrArg₂ (· * ·) (slice_lo_apply q _ p r) (slice_lo_apply f _ (0 : Fin 1) r)) ?_
  exact gramPair_apply k v _ _ _ r d

/-- The output at a lane of half 1. -/
theorem xOf_hi (q k v : FVec Ideal S2048x128 .f32) (f : FVec Ideal S1x128 .f32) (p : Fin 2048) (d : Fin 64) :
    xOf (F := Ideal) q k v f (ix2 p (lane 1 d)) = xPacked q k v f p 1 d := by
  unfold xOf
  refine (concat_hi_apply _ _ _ p d).trans ?_
  refine (xHalf_apply _ _ _ _ _ p d).trans ?_
  unfold Cert.Attn.xPacked
  refine Finset.sum_congr rfl fun r _ => ?_
  refine congrArg₂ (· * ·) (congrArg₂ (· * ·) (slice_hi_apply q _ p r) (slice_hi_apply f _ (0 : Fin 1) r)) ?_
  exact gramPair_apply k v _ _ _ r d

/-- The head's output at row p, half e, coordinate d. -/
theorem xOf_apply (q k v : FVec Ideal S2048x128 .f32) (f : FVec Ideal S1x128 .f32) (p : Fin 2048) (e : Fin 2) (d : Fin 64) :
    xOf (F := Ideal) q k v f (ix2 p (Cert.Attn.lane e d)) = Cert.Attn.xPacked q k v f p e d := by
  match e with
  | ⟨0, _⟩ => exact xOf_lo q k v f p d
  | ⟨1, _⟩ => exact xOf_hi q k v f p d

/-! ## The loss tile -/

/-- |aᵀa − I| at (r, s), the contraction over positions as the two halves' contractions. -/
theorem devHalf_apply (a : FVec Ideal S2048x128 .f32) (I : FVec Ideal S64x64 .f32) (hI : ∀ r s : Fin 64, I (ix2 r s) = eye r s)
    (hlo : S2048x128.Slices ![0, 0] S2048x64) (hhi : S2048x128.Slices ![0, 64] S2048x64)
    (hb : FTy.bits .bf16 < FTy.bits .f32) (r s : Fin 64) :
    absf (subf
        (addf
          (matmul D0 none (truncf .bf16 (extractStridedSlice S2048x64 ![0, 0] a hlo) hb)
            (truncf .bf16 (extractStridedSlice S2048x64 ![0, 0] a hlo) hb) (constant (F := Ideal) S64x64 .f32 0x00000000#32))
          (matmul D0 none (truncf .bf16 (extractStridedSlice S2048x64 ![0, 64] a hhi) hb)
            (truncf .bf16 (extractStridedSlice S2048x64 ![0, 64] a hhi) hb) (constant (F := Ideal) S64x64 .f32 0x00000000#32)))
        I) (ix2 r s)
      = absE (ctxPair a a r s - eye r s) := by
  have h := gramPair_apply a a hlo hhi hb r s
  unfold Cert.Attn.absE
  rw [← h, ← hI r s]
  rfl

/-- A constant times the sum of two quotients by a constant, on one-entry arrays, read at the entry. -/
theorem tile_apply (x y : FVec Ideal S1x1 .f32) (c n : BitVec (FTy.bits .f32)) (i : S1x1.Idx) :
    mulf (broadcast S1x1 (Scalar.ofBits (F := Ideal) .f32 c))
        (addf (divf x (broadcast S1x1 (Scalar.ofBits (F := Ideal) .f32 n))) (divf y (broadcast S1x1 (Scalar.ofBits (F := Ideal) .f32 n)))) i
      = Ideal.ofBits .f32 c * (Ideal.div (x i) (Ideal.ofBits .f32 n) + Ideal.div (y i) (Ideal.ofBits .f32 n)) := rfl

/-- Every entry of the head's loss tile. -/
theorem auxOf_apply (q k : FVec Ideal S2048x128 .f32) (i : Fin 8) (j : Fin 128) :
    auxOf (F := Ideal) q k (ix2 i j) = Cert.Attn.lossPacked q k := by
  unfold auxOf
  refine (broadcastTo_11_ab_apply _ _ i j).trans ?_
  refine (congrFun (shapeCast_self _ _) _).trans ?_
  refine (tile_apply _ _ _ _ _).trans ?_
  unfold Cert.Attn.lossPacked Cert.Attn.devSum
  refine congrArg₂ (fun x y : EReal => Ideal.ofBits .f32 0x3C4CCCCD#32
    * (Ideal.div x (Ideal.ofBits .f32 0x45800000#32) + Ideal.div y (Ideal.ofBits .f32 0x45800000#32))) ?_ ?_
  · refine (sumAll_apply _ _ _ _ _ 0 0).trans ?_
    exact Finset.sum_congr rfl fun r _ => Finset.sum_congr rfl fun s _ =>
      devHalf_apply q _ (eye_apply _ _ _) _ _ _ r s
  · refine (sumAll_apply _ _ _ _ _ 0 0).trans ?_
    exact Finset.sum_congr rfl fun r _ => Finset.sum_congr rfl fun s _ =>
      devHalf_apply k _ (eye_apply _ _ _) _ _ _ r s

end Cert.HeadProducts

end
-- ==== Proof.LibMaxFold.lean ====
/-
  Folds of `max` over finite index sets in a linear order, from an arbitrary starting value.

  A fold of `max` is characterised by its universal property (it is below `c` iff the start and every term are;
  `c` is below it iff `c` is below the start or below some term), so two folds are compared term by term, whatever the
  order in which the terms are visited and whatever the index sets are. The last lemma is the one a blocked maximum
  needs: when an index set is cut in four parts, the fold over the whole is the `max` of the four partial folds, each
  taken from the SAME start — the start is then met four times instead of once, which changes nothing because `max` is
  idempotent.
-/
import Mathlib.Data.Finset.Fold
import Mathlib.Data.Fintype.Basic

namespace Cert.LibMaxFold

variable {α : Type*} [LinearOrder α]

/-- The starting value is below the fold. -/
theorem start_le_fold_max {ι : Type*} (s : Finset ι) (f : ι → α) (b : α) : b ≤ s.fold max b f :=
  (Finset.le_fold_max _).2 (Or.inl le_rfl)

/-- Every term is below the fold. -/
theorem term_le_fold_max {ι : Type*} (s : Finset ι) (f : ι → α) (b : α) {x : ι} (hx : x ∈ s) : f x ≤ s.fold max b f :=
  (Finset.le_fold_max _).2 (Or.inr ⟨x, hx, le_rfl⟩)

/-- A fold of `max` is below another fold from the same start as soon as each of its terms is below some term of
    the other. -/
theorem fold_max_le_fold_max {ι κ : Type*} (s : Finset ι) (t : Finset κ) (f : ι → α) (g : κ → α) (b : α)
    (h : ∀ x ∈ s, ∃ y ∈ t, f x ≤ g y) : s.fold max b f ≤ t.fold max b g :=
  (Finset.fold_max_le _).2 ⟨start_le_fold_max t g b, fun x hx => by
    obtain ⟨y, hy, hxy⟩ := h x hx
    exact hxy.trans (term_le_fold_max t g b hy)⟩

/-- Two folds of `max` from the same start whose terms are the same VALUES (each term of one is a term of the other)
    are equal. -/
theorem fold_max_congr_of_terms {ι κ : Type*} (s : Finset ι) (t : Finset κ) (f : ι → α) (g : κ → α) (b : α)
    (h₁ : ∀ x ∈ s, ∃ y ∈ t, f x = g y) (h₂ : ∀ y ∈ t, ∃ x ∈ s, g y = f x) : s.fold max b f = t.fold max b g :=
  le_antisymm
    (fold_max_le_fold_max s t f g b fun x hx => by obtain ⟨y, hy, e⟩ := h₁ x hx; exact ⟨y, hy, e.le⟩)
    (fold_max_le_fold_max t s g f b fun y hy => by obtain ⟨x, hx, e⟩ := h₂ y hy; exact ⟨x, hx, e.le⟩)

/-- THE BLOCKED MAXIMUM. If every term of `f` is a term of one of four families `g₀ … g₃`, and every term of each
    family is a term of `f`, then the fold of `max` over `f` is the `max` of the four folds over the families, all from
    the same start `b`, nested to the left as a running maximum accumulates them. -/
theorem fold_max_eq_max_four {ι κ : Type*} [Fintype ι] [Fintype κ] (f : ι → α) (g₀ g₁ g₂ g₃ : κ → α) (b : α)
    (hsplit : ∀ x, (∃ y, f x = g₀ y) ∨ (∃ y, f x = g₁ y) ∨ (∃ y, f x = g₂ y) ∨ (∃ y, f x = g₃ y))
    (h₀ : ∀ y, ∃ x, g₀ y = f x) (h₁ : ∀ y, ∃ x, g₁ y = f x) (h₂ : ∀ y, ∃ x, g₂ y = f x) (h₃ : ∀ y, ∃ x, g₃ y = f x) :
    (Finset.univ : Finset ι).fold max b f
      = max (max (max ((Finset.univ : Finset κ).fold max b g₀) ((Finset.univ : Finset κ).fold max b g₁))
          ((Finset.univ : Finset κ).fold max b g₂)) ((Finset.univ : Finset κ).fold max b g₃) := by
  have part : ∀ g : κ → α, (∀ y, ∃ x, g y = f x) →
      (Finset.univ : Finset κ).fold max b g ≤ (Finset.univ : Finset ι).fold max b f := fun g hg =>
    fold_max_le_fold_max _ _ g f b fun y _ => by
      obtain ⟨x, e⟩ := hg y; exact ⟨x, Finset.mem_univ x, e.le⟩
  apply le_antisymm
  · refine (Finset.fold_max_le _).2 ⟨?_, fun x _ => ?_⟩
    · exact (start_le_fold_max _ g₀ b).trans
        (le_max_of_le_left (le_max_of_le_left (le_max_left _ _)))
    · rcases hsplit x with ⟨y, e⟩ | ⟨y, e⟩ | ⟨y, e⟩ | ⟨y, e⟩
      · exact (e.le.trans (term_le_fold_max _ g₀ b (Finset.mem_univ y))).trans
          (le_max_of_le_left (le_max_of_le_left (le_max_left _ _)))
      · exact (e.le.trans (term_le_fold_max _ g₁ b (Finset.mem_univ y))).trans
          (le_max_of_le_left (le_max_of_le_left (le_max_right _ _)))
      · exact (e.le.trans (term_le_fold_max _ g₂ b (Finset.mem_univ y))).trans
          (le_max_of_le_left (le_max_right _ _))
      · exact (e.le.trans (term_le_fold_max _ g₃ b (Finset.mem_univ y))).trans (le_max_right _ _)
  · exact max_le (max_le (max_le (part g₀ h₀) (part g₁ h₁)) (part g₂ h₂)) (part g₃ h₃)

end Cert.LibMaxFold
-- ==== Proof.Packing.lean ====
/-
  Lane packing: sequence position 2p + e sits at row p, half e.

  A row-major reshape of a [.., 4096, 64] array to [.., 2048, 128] puts entry (n, r) at row n / 2, lane 64 (n % 2) + r.
  Every position is 2p + e for exactly one (p, e); so a sum over the 4096 positions is the sum of the two halves' sums
  over rows, a maximum over them the max of the two halves' maxima, and the softmax over positions is the softmax
  written over the two halves.
-/
import proofs.«132056_j86612310491926_2_alg».proof.Proof.Attn
import proofs.«132056_j86612310491926_2_alg».proof.Proof.LibMaxFold
import Idealize.ShloMosaic.Lib.Pipeline.Value
import Idealize.ShloMosaic.Lib.ValueIdx

noncomputable section

open scoped BigOperators

namespace Cert.Attn

open Idealize.ShloMosaic Idealize.ShloMosaic.ValueIdx

/-- Sequence position 2p + e: row p, half e of a packed array. -/
def pos (p : Fin 2048) (e : Fin 2) : Fin 4096 := ⟨2 * p.val + e.val, by have := p.isLt; have := e.isLt; omega⟩

@[simp] theorem pos_val (p : Fin 2048) (e : Fin 2) : (pos p e).val = 2 * p.val + e.val := rfl
@[simp] theorem lane_val (e : Fin 2) (r : Fin 64) : (lane e r).val = 64 * e.val + r.val := rfl

/-- Rows and halves against positions. -/
def posEquiv : Fin 2048 × Fin 2 ≃ Fin 4096 where
  toFun pe := pos pe.1 pe.2
  invFun n := (⟨n.val / 2, by have := n.isLt; omega⟩, ⟨n.val % 2, by omega⟩)
  left_inv pe := by
    obtain ⟨p, e⟩ := pe
    have := p.isLt; have := e.isLt
    refine Prod.ext (Fin.ext ?_) (Fin.ext ?_) <;> simp only [pos_val] <;> omega
  right_inv n := Fin.ext (by simp only [pos_val]; omega)

/-- A sum over positions is the two halves' sums over rows. -/
theorem sum_pos {M : Type*} [AddCommMonoid M] (g : Fin 4096 → M) :
    ∑ n : Fin 4096, g n = (∑ p : Fin 2048, g (pos p 0)) + ∑ p : Fin 2048, g (pos p 1) := by
  rw [← Equiv.sum_comp posEquiv g, Fintype.sum_prod_type, ← Finset.sum_add_distrib]
  refine Finset.sum_congr rfl fun p _ => ?_
  rw [Fin.sum_univ_two]
  rfl

/-- A maximum over positions is the max of the two halves' maxima over rows. -/
theorem fold_max_pos {α : Type*} [LinearOrder α] (b : α) (g : Fin 4096 → α) :
    (Finset.univ : Finset (Fin 4096)).fold max b g
      = max ((Finset.univ : Finset (Fin 2048)).fold max b (fun p => g (pos p 0)))
          ((Finset.univ : Finset (Fin 2048)).fold max b (fun p => g (pos p 1))) := by
  refine le_antisymm ?_ ?_
  · rw [Finset.fold_max_le]
    refine ⟨le_max_of_le_left (Cert.LibMaxFold.start_le_fold_max _ _ _), fun n _ => ?_⟩
    obtain ⟨⟨p, e⟩, rfl⟩ := posEquiv.surjective n
    show g (pos p e) ≤ _
    match e with
    | ⟨0, _⟩ => exact le_max_of_le_left (Cert.LibMaxFold.term_le_fold_max _ (fun p => g (pos p 0)) b (Finset.mem_univ p))
    | ⟨1, _⟩ => exact le_max_of_le_right (Cert.LibMaxFold.term_le_fold_max _ (fun p => g (pos p 1)) b (Finset.mem_univ p))
  · refine max_le ?_ ?_
    · rw [Finset.fold_max_le]
      exact ⟨Cert.LibMaxFold.start_le_fold_max _ _ _, fun p _ => Cert.LibMaxFold.term_le_fold_max _ g b (Finset.mem_univ _)⟩
    · rw [Finset.fold_max_le]
      exact ⟨Cert.LibMaxFold.start_le_fold_max _ _ _, fun p _ => Cert.LibMaxFold.term_le_fold_max _ g b (Finset.mem_univ _)⟩

/-- The softmax over positions, at position 2p + e, is the softmax over the two halves at (e, p). -/
theorem softmax_pos (y : Fin 4096 → EReal) (p : Fin 2048) (e : Fin 2) :
    softmax y (pos p e) = pairSoftmax (fun e' p' => y (pos p' e')) e p := by
  unfold softmax pairSoftmax pairMax
  rw [fold_max_pos, sum_pos]

/-- A [4,8,4096,64] array reshaped to [4,8,2048,128], at row p, lane 64e + r, is the array at position 2p + e, coordinate r. -/
theorem packed_apply {α : Type} (x : (⟨4, ![4, 8, 4096, 64]⟩ : Shape).Idx → α)
    (h : (⟨4, ![4, 8, 4096, 64]⟩ : Shape).ShapeCasts ⟨4, ![4, 8, 2048, 128]⟩) (b : Fin 4) (hh : Fin 8) (p : Fin 2048) (e : Fin 2) (r : Fin 64) :
    shapeCast ⟨4, ![4, 8, 2048, 128]⟩ x h (ix4 b hh p (lane e r)) = x (ix4 b hh (pos p e) r) := by
  refine shapeCast_apply x h _ _ ?_
  rw [Shape.rowMajor_val_four, Shape.rowMajor_val_four]
  show ((b.val * 8 + hh.val) * 4096 + (2 * p.val + e.val)) * 64 + r.val = ((b.val * 8 + hh.val) * 2048 + p.val) * 128 + (64 * e.val + r.val)
  have := e.isLt
  omega

/-- And back: a [4,8,2048,128] array reshaped to [4,8,4096,64], at position 2p + e, coordinate r, is the array at row p, lane 64e + r. -/
theorem unpacked_apply {α : Type} (x : (⟨4, ![4, 8, 2048, 128]⟩ : Shape).Idx → α)
    (h : (⟨4, ![4, 8, 2048, 128]⟩ : Shape).ShapeCasts ⟨4, ![4, 8, 4096, 64]⟩) (b : Fin 4) (hh : Fin 8) (p : Fin 2048) (e : Fin 2) (r : Fin 64) :
    shapeCast ⟨4, ![4, 8, 4096, 64]⟩ x h (ix4 b hh (pos p e) r) = x (ix4 b hh p (lane e r)) := by
  refine shapeCast_apply x h _ _ ?_
  rw [Shape.rowMajor_val_four, Shape.rowMajor_val_four]
  show ((b.val * 8 + hh.val) * 2048 + p.val) * 128 + (64 * e.val + r.val) = ((b.val * 8 + hh.val) * 4096 + (2 * p.val + e.val)) * 64 + r.val
  have := e.isLt
  omega

end Cert.Attn

end
-- ==== Proof.Prologue.lean ====
/-
  Two operand arrays of the region, computed by the host operations before it, read at an index.

  The mask bias is −1e9 · (1 − mask) on [4, 4096], reshaped to [4, 2048, 2] — position 2p + e at (p, e) —, its two
  slices along the last axis each spread over 64 lanes and put side by side, so that lane 64e + r of row p holds the
  bias of position 2p + e, whatever r; a unit axis is then added. The filter row is a polynomial in the sigmoid of its
  argument on [4, 8, 1, 64], put side by side with itself: lane 64e + r holds its value r, whatever e.
-/
import proofs.«132056_j86612310491926_2_alg».proof.Proof.Gen.KernelIdeal.Frame
import proofs.«132056_j86612310491926_2_alg».proof.Proof.Gen.ReferenceIdeal.Read
import proofs.«132056_j86612310491926_2_alg».proof.Proof.Attn
import proofs.«132056_j86612310491926_2_alg».proof.Proof.Packing
import Idealize.ShloMosaic.Lib.StableHlo.Run
import Idealize.ShloMosaic.Lib.Pipeline.Value
import Idealize.ShloMosaic.Lib.ValueIdx
import Idealize.ShloMosaic.Lib.ValueLayout
import Idealize.ShloMosaic.Lib.Tactic

noncomputable section

open scoped BigOperators
open Idealize.ShloMosaic Idealize.ShloMosaic.TcCoe Idealize.SL.Sem Idealize.ShloMosaic.ValueIdx Idealize.ShloMosaic.StableHlo

namespace Cert.KernelIdeal.Prologue

open Cert.KernelIdeal Cert.KernelIdeal.Gen

/-! ## Layout operations of the two chains, read at an index -/

section Layout
variable {α : Type}

/-- A [4, 4096] array reshaped to [4, 2048, 2] reads, at (b, p, e), the array at position 2p + e of batch b. -/
theorem pairs_apply (x : (⟨2, ![4, 4096]⟩ : Shape).Idx → α)
    (h : (⟨2, ![4, 4096]⟩ : Shape).ShapeCasts ⟨3, ![4, 2048, 2]⟩) (b : Fin 4) (p : Fin 2048) (e : Fin 2) (n : Fin 4096)
    (hn : n.val = 2 * p.val + e.val) :
    shapeCast ⟨3, ![4, 2048, 2]⟩ x h (ix3 b p e) = x (ix2 b n) := by
  refine shapeCast_apply x h _ _ ?_
  rw [Shape.rowMajor_val_two, Shape.rowMajor_val_three]
  show b.val * 4096 + n.val = (b.val * 2048 + p.val) * 2 + e.val
  omega

/-- A rank-3 array cut along its last axis from o reads, at (a, b, j), the source at (a, b, k) with k = o + j. -/
theorem slice3_axis2_apply {n0 n1 n2 w : ℕ} (o : ℕ) (X : (⟨3, ![n0, n1, n2]⟩ : Shape).Idx → α)
    (h : (⟨3, ![n0, n1, n2]⟩ : Shape).Slices ![0, 0, o] ⟨3, ![n0, n1, w]⟩)
    (a : Fin n0) (b : Fin n1) (j : Fin w) (k : Fin n2) (hk : k.val = o + j.val) :
    extractStridedSlice ⟨3, ![n0, n1, w]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An [n0, n1, 1] array broadcast along its last axis reads, at (a, b, r), the array at (a, b, 0). -/
theorem bcastLast_apply {n0 n1 w : ℕ} (y : (⟨3, ![n0, n1, 1]⟩ : Shape).Idx → α)
    (h : (⟨3, ![n0, n1, 1]⟩ : Shape).BroadcastsInDim ⟨3, ![n0, n1, w]⟩ ![0, 1, 2]) (a : Fin n0) (b : Fin n1) (r : Fin w) :
    broadcastInDim ⟨3, ![n0, n1, w]⟩ ![0, 1, 2] h y (ix3 a b r) = y (ix3 a b (0 : Fin 1)) := by
  refine broadcastInDim_apply _ h y (ix3 a b r) (ix3 a b (0 : Fin 1)) (fun ax => ?_)
  match ax with
  | ⟨0, _⟩ =>
    show a.val = if n0 = 1 then 0 else a.val
    split
    · have := a.isLt; omega
    · rfl
  | ⟨1, _⟩ =>
    show b.val = if n1 = 1 then 0 else b.val
    split
    · have := b.isLt; omega
    · rfl
  | ⟨2, _⟩ => rfl

/-- Two [n0, n1, 64] arrays put side by side along the last axis read, at lane r of the first half, the first. -/
theorem concat3Lo_apply {n0 n1 : ℕ} (a b : (⟨3, ![n0, n1, 64]⟩ : Shape).Idx → α)
    (h : Shape.Concatenates [(⟨3, ![n0, n1, 64]⟩ : Shape), ⟨3, ![n0, n1, 64]⟩] ⟨3, ![n0, n1, 128]⟩ 2)
    (i : Fin n0) (p : Fin n1) (r : Fin 64) :
    concatenate ⟨3, ![n0, n1, 128]⟩ 2 [⟨⟨3, ![n0, n1, 64]⟩, a⟩, ⟨⟨3, ![n0, n1, 64]⟩, b⟩] h (ix3 i p (Cert.Attn.lane 0 r))
      = a (ix3 i p r) := by
  refine concatenate_pair_apply_left (t := ⟨3, ![n0, n1, 128]⟩) (s₁ := ⟨3, ![n0, n1, 64]⟩) (s₂ := ⟨3, ![n0, n1, 64]⟩)
    (2 : Fin 3) a b h (ix3 i p (Cert.Attn.lane 0 r)) rfl (ix3 i p r) (fun c => ?_)
  match c with
  | ⟨0, _⟩ => rfl
  | ⟨1, _⟩ => rfl
  | ⟨2, _⟩ => show r.val = 64 * 0 + r.val; omega

/-- … and, at lane r of the second half, the second. -/
theorem concat3Hi_apply {n0 n1 : ℕ} (a b : (⟨3, ![n0, n1, 64]⟩ : Shape).Idx → α)
    (h : Shape.Concatenates [(⟨3, ![n0, n1, 64]⟩ : Shape), ⟨3, ![n0, n1, 64]⟩] ⟨3, ![n0, n1, 128]⟩ 2)
    (i : Fin n0) (p : Fin n1) (r : Fin 64) :
    concatenate ⟨3, ![n0, n1, 128]⟩ 2 [⟨⟨3, ![n0, n1, 64]⟩, a⟩, ⟨⟨3, ![n0, n1, 64]⟩, b⟩] h (ix3 i p (Cert.Attn.lane 1 r))
      = b (ix3 i p r) := by
  refine concatenate_pair_apply_right (t := ⟨3, ![n0, n1, 128]⟩) (s₁ := ⟨3, ![n0, n1, 64]⟩) (s₂ := ⟨3, ![n0, n1, 64]⟩)
    (2 : Fin 3) a b h (ix3 i p (Cert.Attn.lane 1 r)) rfl rfl (ix3 i p r) (fun c hc => ?_) ?_
  · match c with
    | ⟨0, _⟩ => rfl
    | ⟨1, _⟩ => rfl
    | ⟨2, _⟩ => exact absurd rfl hc
  · show r.val + 64 = 64 * 1 + r.val
    omega

/-- An [n0, n1, n2] array reshaped to [n0, 1, n1, n2] reads, at (a, u, b, l), the array at (a, b, l). -/
theorem addUnit1_apply {n0 n1 n2 : ℕ} (x : (⟨3, ![n0, n1, n2]⟩ : Shape).Idx → α)
    (h : (⟨3, ![n0, n1, n2]⟩ : Shape).ShapeCasts ⟨4, ![n0, 1, n1, n2]⟩) (a : Fin n0) (u : Fin 1) (b : Fin n1) (l : Fin n2) :
    shapeCast ⟨4, ![n0, 1, n1, n2]⟩ x h (ix4 a u b l) = x (ix3 a b l) := by
  refine shapeCast_apply x h _ _ ?_
  have hu : u.val = 0 := by omega
  rw [Shape.rowMajor_val_three, Shape.rowMajor_val_four]
  show (a.val * n1 + b.val) * n2 + l.val = ((a.val * 1 + u.val) * n1 + b.val) * n2 + l.val
  rw [hu, Nat.mul_one, Nat.add_zero]

/-- Two [n0, n1, n2, 64] arrays put side by side along the last axis read, at lane r of the first half, the first. -/
theorem concat4Lo_apply {n0 n1 n2 : ℕ} (a b : (⟨4, ![n0, n1, n2, 64]⟩ : Shape).Idx → α)
    (h : Shape.Concatenates [(⟨4, ![n0, n1, n2, 64]⟩ : Shape), ⟨4, ![n0, n1, n2, 64]⟩] ⟨4, ![n0, n1, n2, 128]⟩ 3)
    (i : Fin n0) (j : Fin n1) (k : Fin n2) (r : Fin 64) :
    concatenate ⟨4, ![n0, n1, n2, 128]⟩ 3 [⟨⟨4, ![n0, n1, n2, 64]⟩, a⟩, ⟨⟨4, ![n0, n1, n2, 64]⟩, b⟩] h
        (ix4 i j k (Cert.Attn.lane 0 r)) = a (ix4 i j k r) := by
  refine concatenate_pair_apply_left (t := ⟨4, ![n0, n1, n2, 128]⟩) (s₁ := ⟨4, ![n0, n1, n2, 64]⟩)
    (s₂ := ⟨4, ![n0, n1, n2, 64]⟩) (3 : Fin 4) a b h (ix4 i j k (Cert.Attn.lane 0 r)) rfl (ix4 i j k r) (fun c => ?_)
  match c with
  | ⟨0, _⟩ => rfl
  | ⟨1, _⟩ => rfl
  | ⟨2, _⟩ => rfl
  | ⟨3, _⟩ => show r.val = 64 * 0 + r.val; omega

/-- … and, at lane r of the second half, the second. -/
theorem concat4Hi_apply {n0 n1 n2 : ℕ} (a b : (⟨4, ![n0, n1, n2, 64]⟩ : Shape).Idx → α)
    (h : Shape.Concatenates [(⟨4, ![n0, n1, n2, 64]⟩ : Shape), ⟨4, ![n0, n1, n2, 64]⟩] ⟨4, ![n0, n1, n2, 128]⟩ 3)
    (i : Fin n0) (j : Fin n1) (k : Fin n2) (r : Fin 64) :
    concatenate ⟨4, ![n0, n1, n2, 128]⟩ 3 [⟨⟨4, ![n0, n1, n2, 64]⟩, a⟩, ⟨⟨4, ![n0, n1, n2, 64]⟩, b⟩] h
        (ix4 i j k (Cert.Attn.lane 1 r)) = b (ix4 i j k r) := by
  refine concatenate_pair_apply_right (t := ⟨4, ![n0, n1, n2, 128]⟩) (s₁ := ⟨4, ![n0, n1, n2, 64]⟩)
    (s₂ := ⟨4, ![n0, n1, n2, 64]⟩) (3 : Fin 4) a b h (ix4 i j k (Cert.Attn.lane 1 r)) rfl rfl (ix4 i j k r) (fun c hc => ?_) ?_
  · match c with
    | ⟨0, _⟩ => rfl
    | ⟨1, _⟩ => rfl
    | ⟨2, _⟩ => rfl
    | ⟨3, _⟩ => exact absurd rfl hc
  · show r.val + 64 = 64 * 1 + r.val
    omega

end Layout

/-! ## The mask bias -/

/-- −1e9 · (1 − mask) on [4, 4096], the two constants as their f32 words. -/
def biasFlat (x4 : (⟨S4x4096, .f32⟩ : BufTy).Contents (Elt Ideal)) : (⟨S4x4096, .f32⟩ : BufTy).Contents (Elt Ideal) :=
  mulf (broadcastInDim S4x4096 ![] bcast_S_S4x4096 (constant (F := Ideal) S_ .f32 0xCE6E6B28#32))
    (subf (broadcastInDim S4x4096 ![] bcast_S_S4x4096 (constant (F := Ideal) S_ .f32 0x3F800000#32)) x4)

/-- At (b, n) it is the bias of position n of batch b. -/
theorem biasFlat_apply (x4 : (⟨S4x4096, .f32⟩ : BufTy).Contents (Elt Ideal)) (b : Fin 4) (n : Fin 4096) :
    biasFlat x4 (ix2 b n) = Cert.Attn.maskBias x4 b n := rfl

/-- The packed bias: the flat bias reshaped to pairs, each member of a pair spread over its half of the row. -/
def biasTerm (x4 : (⟨S4x4096, .f32⟩ : BufTy).Contents (Elt Ideal)) : (⟨S4x1x2048x128, .f32⟩ : BufTy).Contents (Elt Ideal) :=
  shapeCast S4x1x2048x128
    (concatenate S4x2048x128 2
      [⟨S4x2048x64, broadcastInDim S4x2048x64 ![0, 1, 2] bcast_S4x2048x1_S4x2048x64_0_1_2
          (extractStridedSlice S4x2048x1 ![0, 0, 0] (shapeCast S4x2048x2 (biasFlat x4) shapeCasts_S4x4096_S4x2048x2)
            slices_S4x2048x2_S4x2048x1_0_0_0)⟩,
        ⟨S4x2048x64, broadcastInDim S4x2048x64 ![0, 1, 2] bcast_S4x2048x1_S4x2048x64_0_1_2
          (extractStridedSlice S4x2048x1 ![0, 0, 1] (shapeCast S4x2048x2 (biasFlat x4) shapeCasts_S4x4096_S4x2048x2)
            slices_S4x2048x2_S4x2048x1_0_0_1)⟩]
      concatenates_S4x2048x64_S4x2048x64_S4x2048x128_d2)
    shapeCasts_S4x2048x128_S4x1x2048x128

/-- At lane r of half e of row p of batch b it is the bias of position 2p + e. -/
theorem biasTerm_apply (x4 : (⟨S4x4096, .f32⟩ : BufTy).Contents (Elt Ideal)) (b : Fin 4) (p : Fin 2048) (e : Fin 2) (r : Fin 64) :
    biasTerm x4 (ix4 b (0 : Fin 1) p (Cert.Attn.lane e r)) = Cert.Attn.maskBias x4 b (Cert.Attn.pos p e) := by
  unfold biasTerm
  refine (addUnit1_apply _ shapeCasts_S4x2048x128_S4x1x2048x128 b (0 : Fin 1) p (Cert.Attn.lane e r)).trans ?_
  have he : e = 0 ∨ e = 1 := by omega
  rcases he with rfl | rfl
  · refine (concat3Lo_apply _ _ concatenates_S4x2048x64_S4x2048x64_S4x2048x128_d2 b p r).trans ?_
    refine (bcastLast_apply _ bcast_S4x2048x1_S4x2048x64_0_1_2 b p r).trans ?_
    refine (slice3_axis2_apply 0 _ slices_S4x2048x2_S4x2048x1_0_0_0 b p (0 : Fin 1) (0 : Fin 2) rfl).trans ?_
    exact (pairs_apply _ shapeCasts_S4x4096_S4x2048x2 b p 0 (Cert.Attn.pos p 0) rfl).trans
      (biasFlat_apply x4 b (Cert.Attn.pos p 0))
  · refine (concat3Hi_apply _ _ concatenates_S4x2048x64_S4x2048x64_S4x2048x128_d2 b p r).trans ?_
    refine (bcastLast_apply _ bcast_S4x2048x1_S4x2048x64_0_1_2 b p r).trans ?_
    refine (slice3_axis2_apply 1 _ slices_S4x2048x2_S4x2048x1_0_0_1 b p (0 : Fin 1) (1 : Fin 2) rfl).trans ?_
    exact (pairs_apply _ shapeCasts_S4x4096_S4x2048x2 b p 1 (Cert.Attn.pos p 1) rfl).trans
      (biasFlat_apply x4 b (Cert.Attn.pos p 1))

/-- The results of a line of host operations, one rewrite at a time: each operation's result at its own result
    buffer is its function's value, and at any other buffer what was there. -/
macro "results_loop" : tactic =>
  `(tactic| repeat (first
      | rw [nullary_result] | rw [unary_result] | rw [binary_result] | rw [reshape_result]
      | (rw [nullary_result_ne]; rotate_left; decide)
      | (rw [unary_result_ne]; rotate_left; decide)
      | (rw [binary_result_ne]; rotate_left; decide)
      | (rw [reshape_result_ne]; rotate_left; decide)))

variable (m : (ℓ : Loc nD τ sig) → Buf (Elt Ideal) ℓ)

/-! ## The two arrays when the region is entered -/

set_option maxHeartbeats 4000000 in
/-- The region's bias operand is the packed bias of the mask argument. -/
theorem bias_eq (c : Dev nD) :
    (V m c (Pipeline.arrRef spec0 3) : S4x1x2048x128.Idx → Elt Ideal .f32)
      = biasTerm (m ((c : Thread nD τ).loc main_arg4)) := by
  show StableHlo.after hostOps0 (fun b => m (c, b)) (Proc.devRef .tc main_v40) = _
  after_results_simp
  results_loop
  rfl

/-- THE BIAS AT AN INDEX: at lane r of half e of row p of batch b, the mask bias of position 2p + e. -/
theorem bias_apply (c : Dev nD) (b : Fin 4) (p : Fin 2048) (e : Fin 2) (r : Fin 64) :
    (V m c (Pipeline.arrRef spec0 3) : S4x1x2048x128.Idx → Elt Ideal .f32) (ix4 b (0 : Fin 1) p (Cert.Attn.lane e r))
      = Cert.Attn.maskBias (m ((c : Thread nD τ).loc main_arg4)) b (Cert.Attn.pos p e) := by
  rw [bias_eq]
  exact biasTerm_apply _ b p e r

set_option maxHeartbeats 8000000 in
/-- The region's filter operand is the reference's filter row put side by side with itself. -/
theorem filter_eq (c : Dev nD) :
    (V m c (Pipeline.arrRef spec0 4) : S4x8x1x128.Idx → Elt Ideal .f32)
      = concatenate S4x8x1x128 3
          [⟨S4x8x1x64, Cert.ReferenceIdeal.Read.val_main_v57 (F := Ideal) (m ((c : Thread nD τ).loc main_arg1)) (m ((c : Thread nD τ).loc main_arg5))⟩,
            ⟨S4x8x1x64, Cert.ReferenceIdeal.Read.val_main_v57 (F := Ideal) (m ((c : Thread nD τ).loc main_arg1)) (m ((c : Thread nD τ).loc main_arg5))⟩]
          concatenates_S4x8x1x64_S4x8x1x64_S4x8x1x128_d3 := by
  show StableHlo.after hostOps0 (fun b => m (c, b)) (Proc.devRef .tc main_v29) = _
  after_results_simp
  results_loop
  rfl

/-- THE FILTER AT AN INDEX: at lane r of either half, the reference's filter row at r. -/
theorem filter_apply (c : Dev nD) (b : Fin 4) (h : Fin 8) (e : Fin 2) (r : Fin 64) :
    (V m c (Pipeline.arrRef spec0 4) : S4x8x1x128.Idx → Elt Ideal .f32) (ix4 b h (0 : Fin 1) (Cert.Attn.lane e r))
      = Cert.ReferenceIdeal.Read.val_main_v57 (F := Ideal) (m ((c : Thread nD τ).loc main_arg1)) (m ((c : Thread nD τ).loc main_arg5))
          (ix4 b h (0 : Fin 1) r) := by
  rw [filter_eq]
  have he : e = 0 ∨ e = 1 := by omega
  rcases he with rfl | rfl
  · exact concat4Lo_apply _ _ concatenates_S4x8x1x64_S4x8x1x64_S4x8x1x128_d3 b h (0 : Fin 1) r
  · exact concat4Hi_apply _ _ concatenates_S4x8x1x64_S4x8x1x64_S4x8x1x128_d3 b h (0 : Fin 1) r

end Cert.KernelIdeal.Prologue

end
-- ==== Proof.LibNonnegSum.lean ====
/-
  Nonnegative extended reals under multiplication by a constant.

  Multiplication does not distribute over addition on all of the extended reals — at infinities of opposite signs
  the two sides differ — but it does over nonnegative terms. Hence:

  * `mul_self_nonneg`: a square is never negative, at the infinities too;
  * `sqrt_nonneg`: the ideal square root of a nonnegative extended real is nonnegative;
  * `mul_sum_of_nonneg`: a constant times a finite sum of nonnegative terms is the sum of the terms times the
    constant, whatever the constant (negative, infinite);
  * `sum_weighted`: three families summed with weights, row by row or family by family;
  * `ofBits_one_f32`: the f32 word `0x3F800000` is one.
-/
import Idealize.ShloMosaic.PureOps.Ideal
import Idealize.ShloMosaic.PureOps.Ideal.Laws

noncomputable section

open scoped BigOperators

namespace Cert.LibNonnegSum

open Idealize.ShloMosaic

/-- A square is never negative, at the infinities too. -/
theorem mul_self_nonneg (d : EReal) : 0 ≤ d * d := by
  induction d using EReal.rec with
  | bot => simp
  | top => simp
  | coe r => rw [← EReal.coe_mul]; exact EReal.coe_nonneg.mpr (_root_.mul_self_nonneg r)

/-- The root of a nonnegative extended real is nonnegative. -/
theorem sqrt_nonneg {s : EReal} (h : 0 ≤ s) : 0 ≤ Ideal.sqrt s := by
  induction s using EReal.rec with
  | bot => exact absurd h (by simp)
  | top => simp
  | coe r =>
    have hr : 0 ≤ r := EReal.coe_nonneg.mp h
    rw [Ideal.sqrt_coe, if_neg (not_lt.mpr hr)]
    exact EReal.coe_nonneg.mpr (Real.sqrt_nonneg r)

/-- A weight applied to a sum of nonnegative terms is the sum of the weighted terms. -/
theorem mul_sum_of_nonneg {ι : Type*} (s : Finset ι) (f : ι → EReal) (c : EReal) (hf : ∀ i ∈ s, 0 ≤ f i) :
    c * ∑ i ∈ s, f i = ∑ i ∈ s, f i * c := by
  classical
  induction s using Finset.induction_on with
  | empty => simp
  | insert a s ha ih =>
    rw [Finset.sum_insert ha, Finset.sum_insert ha,
      EReal.left_distrib_of_nonneg (hf a (Finset.mem_insert_self a s))
        (Finset.sum_nonneg fun i hi => hf i (Finset.mem_insert_of_mem hi)),
      ih fun i hi => hf i (Finset.mem_insert_of_mem hi), EReal.mul_comm c (f a)]

/-- Three families of terms, the first taken as it is (times a unit), the other two nonnegative and weighted:
    weighting and adding row by row and then summing is summing each family and then weighting and adding. -/
theorem sum_weighted {ι : Type*} (s : Finset ι) (f0 f1 f2 : ι → EReal) (one c1 c2 : EReal) (h1 : one = 1)
    (hf1 : ∀ i ∈ s, 0 ≤ f1 i) (hf2 : ∀ i ∈ s, 0 ≤ f2 i) :
    ∑ i ∈ s, ((f0 i * one + f1 i * c1) + f2 i * c2)
      = (∑ i ∈ s, f0 i + c1 * ∑ i ∈ s, f1 i) + c2 * ∑ i ∈ s, f2 i := by
  subst h1
  rw [Finset.sum_add_distrib, Finset.sum_add_distrib, mul_sum_of_nonneg s f1 c1 hf1, mul_sum_of_nonneg s f2 c2 hf2]
  simp only [mul_one]

/-- The f32 word of one. -/
theorem ofBits_one_f32 : Ideal.ofBits .f32 0x3F800000#32 = 1 := by
  simp [Ideal.ofBits, Ideal.ieee]
  norm_cast
  norm_num

end Cert.LibNonnegSum

end
-- ==== Proof.LossAlgebra.lean ====
/-
  The loss: one head's share summed over the heads against the reference's form.

  With A h, B h ≥ 0 the deviations' sums of head h (sums of absolute values), the block adds, over the 8 heads,
    (0.1/8) · (A h / 4096 + B h / 4096),
  and the reference computes 0.1 · ((∑ A) / 32768) + 0.1 · ((∑ B) / 32768), each constant an f32 word. The word of
  0.1/8 is the word of 0.1 with its exponent lowered by three, so it reads exactly an eighth of it, and
  4096 · 8 = 32768; multiplication distributes over sums of nonnegative extended reals, so the two are equal.
-/
import Idealize.ShloMosaic.PureOps.Ideal
import Idealize.ShloMosaic.PureOps.Ideal.Laws
import proofs.«132056_j86612310491926_2_alg».proof.Proof.LibNonnegSum

noncomputable section

open scoped BigOperators

namespace Cert.LossAlgebra

open Idealize.ShloMosaic

/-- The f32 word 0x45800000 reads 4096. -/
theorem word_4096 : Ideal.ofBits .f32 0x45800000#32 = ((4096 : ℝ) : EReal) := by
  simp [Ideal.ofBits, Ideal.ieee, -EReal.coe_mul]; norm_num
/-- The f32 word 0x47000000 reads 32768. -/
theorem word_32768 : Ideal.ofBits .f32 0x47000000#32 = ((32768 : ℝ) : EReal) := by
  simp [Ideal.ofBits, Ideal.ieee, -EReal.coe_mul]; norm_num
/-- The f32 word nearest 0.1 reads 13421773 / 2^27. -/
theorem word_tenth : Ideal.ofBits .f32 0x3DCCCCCD#32 = ((13421773 / 134217728 : ℝ) : EReal) := by
  simp [Ideal.ofBits, Ideal.ieee, -EReal.coe_mul]; norm_num
/-- The f32 word nearest 0.0125 reads 13421773 / 2^30: an eighth of the former. -/
theorem word_eightieth : Ideal.ofBits .f32 0x3C4CCCCD#32 = ((13421773 / 1073741824 : ℝ) : EReal) := by
  simp [Ideal.ofBits, Ideal.ieee, -EReal.coe_mul]; norm_num

/-- The heads' shares added from the zero word are the reference's loss of the summed deviations. -/
theorem loss_eq (A B : Fin 8 → EReal) (hA : ∀ h, 0 ≤ A h) (hB : ∀ h, 0 ≤ B h) :
    Ideal.ofBits .f32 0x00000000#32 + ∑ h : Fin 8, Ideal.ofBits .f32 0x3C4CCCCD#32 *
        (Ideal.div (A h) (Ideal.ofBits .f32 0x45800000#32) + Ideal.div (B h) (Ideal.ofBits .f32 0x45800000#32))
      = Ideal.ofBits .f32 0x3DCCCCCD#32 * Ideal.div (Ideal.ofBits .f32 0x00000000#32 + ∑ h : Fin 8, A h) (Ideal.ofBits .f32 0x47000000#32)
        + Ideal.ofBits .f32 0x3DCCCCCD#32 * Ideal.div (Ideal.ofBits .f32 0x00000000#32 + ∑ h : Fin 8, B h) (Ideal.ofBits .f32 0x47000000#32) := by
  rw [Ideal.ofBits_zero_f32, zero_add, zero_add, zero_add, word_4096, word_32768, word_tenth, word_eightieth,
    Ideal.div_coe (by norm_num : (32768 : ℝ) ≠ 0), Ideal.div_coe (by norm_num : (32768 : ℝ) ≠ 0)]
  simp only [Ideal.div_coe (by norm_num : (4096 : ℝ) ≠ 0)]
  have hk4 : (0 : EReal) ≤ ((1 / 4096 : ℝ) : EReal) := by exact_mod_cast (by norm_num : (0 : ℝ) ≤ 1 / 4096)
  have hc : ((13421773 / 1073741824 : ℝ) * (1 / 4096 : ℝ)) = (13421773 / 134217728 : ℝ) * (1 / 32768 : ℝ) := by norm_num
  have lhsTerm : ∀ h, ((13421773 / 1073741824 : ℝ) : EReal) * (A h * ((1 / 4096 : ℝ) : EReal) + B h * ((1 / 4096 : ℝ) : EReal))
      = A h * (((13421773 / 1073741824 : ℝ) * (1 / 4096 : ℝ) : ℝ) : EReal) + B h * (((13421773 / 1073741824 : ℝ) * (1 / 4096 : ℝ) : ℝ) : EReal) := by
    intro h
    rw [EReal.left_distrib_of_nonneg (mul_nonneg (hA h) hk4) (mul_nonneg (hB h) hk4), mul_left_comm, mul_left_comm _ (B h), EReal.coe_mul]
  have rhsTerm : ∀ S : EReal, ((13421773 / 134217728 : ℝ) : EReal) * (S * ((1 / 32768 : ℝ) : EReal))
      = (((13421773 / 1073741824 : ℝ) * (1 / 4096 : ℝ) : ℝ) : EReal) * S := by
    intro S
    rw [mul_left_comm, hc, EReal.coe_mul, mul_comm]
  rw [Finset.sum_congr rfl (fun h _ => lhsTerm h), Finset.sum_add_distrib, rhsTerm, rhsTerm,
    Cert.LibNonnegSum.mul_sum_of_nonneg _ _ _ (fun h _ => hA h), Cert.LibNonnegSum.mul_sum_of_nonneg _ _ _ (fun h _ => hB h)]

end Cert.LossAlgebra

end
-- ==== Proof.KernelValue.lean ====
/-
  The kernel's two results as the attention block's functions of the six arguments.

  Entry (b, h, 2p+e, d) of the first result is entry (b, h, p, 64e+d) of the packed output, the one-head product of
  planes (b, h) of the packed operands; those planes' entries are the arguments' at position 2p+e (a row-major
  reshape), the bias's the mask term of batch b at that position, the filter's the filter row in both halves. The
  one-head softmaxes are the block's over the rank coordinate and, combining the two halves, over all positions, and
  the contraction over the two halves' rows is the contraction over all positions. The second result adds the heads'
  shares, which is the reference's form of the loss since the deviations are sums of absolute values.
-/
import proofs.«132056_j86612310491926_2_alg».proof.Proof.KernelRun
import proofs.«132056_j86612310491926_2_alg».proof.Proof.HeadSoftmax
import proofs.«132056_j86612310491926_2_alg».proof.Proof.HeadProducts
import proofs.«132056_j86612310491926_2_alg».proof.Proof.Prologue
import proofs.«132056_j86612310491926_2_alg».proof.Proof.Packing
import proofs.«132056_j86612310491926_2_alg».proof.Proof.LossAlgebra
import proofs.«132056_j86612310491926_2_alg».proof.Proof.LibKeepdims

noncomputable section

open scoped BigOperators
open Idealize.ShloMosaic Idealize.ShloMosaic.TcCoe Idealize.SL.Sem Idealize.ShloMosaic.ValueIdx Idealize.ShloMosaic.StableHlo

namespace Cert.KernelIdeal.Bridge

open Cert.KernelIdeal Cert.KernelIdeal.Gen Cert.KernelIdeal.Head Cert.KernelIdeal.Blocks Cert.Attn

variable (m : (ℓ : Loc nD τ sig) → Buf (Elt Ideal) ℓ)

/-- The region finds the packed U as the argument reshaped; -/
theorem V_U (c : Dev nD) : (V m c (Pipeline.arrRef spec0 0) : S4x8x2048x128.Idx → Elt Ideal .f32)
    = shapeCast S4x8x2048x128 (m ((c : Thread nD τ).loc main_arg0) : S4x8x4096x64.Idx → Elt Ideal .f32) shapeCasts_S4x8x4096x64_S4x8x2048x128 := by
  show StableHlo.after hostOps0 (fun b => m (c, b)) (Proc.devRef .tc main_v41) = _
  after_results
  rfl
/-- the packed svd_V likewise; -/
theorem V_SV (c : Dev nD) : (V m c (Pipeline.arrRef spec0 1) : S4x8x2048x128.Idx → Elt Ideal .f32)
    = shapeCast S4x8x2048x128 (m ((c : Thread nD τ).loc main_arg2) : S4x8x4096x64.Idx → Elt Ideal .f32) shapeCasts_S4x8x4096x64_S4x8x2048x128 := by
  show StableHlo.after hostOps0 (fun b => m (c, b)) (Proc.devRef .tc main_v42) = _
  after_results
  rfl
/-- and the packed V. -/
theorem V_V (c : Dev nD) : (V m c (Pipeline.arrRef spec0 2) : S4x8x2048x128.Idx → Elt Ideal .f32)
    = shapeCast S4x8x2048x128 (m ((c : Thread nD τ).loc main_arg3) : S4x8x4096x64.Idx → Elt Ideal .f32) shapeCasts_S4x8x4096x64_S4x8x2048x128 := by
  show StableHlo.after hostOps0 (fun b => m (c, b)) (Proc.devRef .tc main_v43) = _
  after_results
  rfl

/-- So plane (b, h) of the packed U at row p, lane 64e + r is U at position 2p + e. -/
theorem U_entry (c : Dev nD) (b : Fin 4) (h : Fin 8) (p : Fin 2048) (e : Fin 2) (r : Fin 64) :
    plane (V m c (Pipeline.arrRef spec0 0)) b h (ix2 p (lane e r)) = m ((c : Thread nD τ).loc main_arg0) (ix4 b h (pos p e) r) := by
  show (V m c (Pipeline.arrRef spec0 0) : S4x8x2048x128.Idx → Elt Ideal .f32) (ix4 b h p (lane e r)) = _
  rw [V_U]
  exact packed_apply _ _ b h p e r
theorem SV_entry (c : Dev nD) (b : Fin 4) (h : Fin 8) (p : Fin 2048) (e : Fin 2) (r : Fin 64) :
    plane (V m c (Pipeline.arrRef spec0 1)) b h (ix2 p (lane e r)) = m ((c : Thread nD τ).loc main_arg2) (ix4 b h (pos p e) r) := by
  show (V m c (Pipeline.arrRef spec0 1) : S4x8x2048x128.Idx → Elt Ideal .f32) (ix4 b h p (lane e r)) = _
  rw [V_SV]
  exact packed_apply _ _ b h p e r
theorem Vv_entry (c : Dev nD) (b : Fin 4) (h : Fin 8) (p : Fin 2048) (e : Fin 2) (r : Fin 64) :
    plane (V m c (Pipeline.arrRef spec0 2)) b h (ix2 p (lane e r)) = m ((c : Thread nD τ).loc main_arg3) (ix4 b h (pos p e) r) := by
  show (V m c (Pipeline.arrRef spec0 2) : S4x8x2048x128.Idx → Elt Ideal .f32) (ix4 b h p (lane e r)) = _
  rw [V_V]
  exact packed_apply _ _ b h p e r
/-- The bias plane's entry is the mask term of the position. -/
theorem bias_entry (c : Dev nD) (b : Fin 4) (p : Fin 2048) (e : Fin 2) (r : Fin 64) :
    planeB (V m c (Pipeline.arrRef spec0 3)) b (ix2 p (lane e r)) = maskBias (m ((c : Thread nD τ).loc main_arg4)) b (pos p e) :=
  Cert.KernelIdeal.Prologue.bias_apply m c b p e r
/-- The filter row's entry, in either half, is the filter's. -/
theorem filter_entry (c : Dev nD) (b : Fin 4) (h : Fin 8) (e : Fin 2) (r : Fin 64) :
    planeF (V m c (Pipeline.arrRef spec0 4)) b h (ix2 (0 : Fin 1) (lane e r))
      = Cert.ReferenceIdeal.Read.val_main_v57 (F := Ideal) (m ((c : Thread nD τ).loc main_arg1)) (m ((c : Thread nD τ).loc main_arg5)) (ix4 b h (0 : Fin 1) r) :=
  Cert.KernelIdeal.Prologue.filter_apply m c b h e r

/-- The one-head softmax over the rank coordinate is the block's Q. -/
theorem q_entry (c : Dev nD) (b : Fin 4) (h : Fin 8) (p : Fin 2048) (e : Fin 2) (r : Fin 64) :
    qOf (F := Ideal) (plane (V m c (Pipeline.arrRef spec0 0)) b h) (ix2 p (lane e r)) = qWhole (m ((c : Thread nD τ).loc main_arg0)) b h (pos p e) r := by
  rw [Cert.HeadSoftmax.qOf_apply]
  unfold qWhole
  exact congrArg (fun x : Fin 64 → EReal => softmax x r) (funext fun r' => U_entry m c b h p e r')

/-- The one-head softmax over both halves of all rows is the block's K. -/
theorem k_entry (c : Dev nD) (b : Fin 4) (h : Fin 8) (p : Fin 2048) (e : Fin 2) (r : Fin 64) :
    kOf (F := Ideal) (planeB (V m c (Pipeline.arrRef spec0 3)) b) (plane (V m c (Pipeline.arrRef spec0 1)) b h) (ix2 p (lane e r))
      = kWhole (m ((c : Thread nD τ).loc main_arg2)) (m ((c : Thread nD τ).loc main_arg4)) b h (pos p e) r := by
  rw [Cert.HeadSoftmax.kOf_apply]
  unfold kWhole
  rw [softmax_pos]
  exact congrArg (fun x : Fin 2 → Fin 2048 → EReal => pairSoftmax x e p)
    (funext fun e' => funext fun p' => by rw [SV_entry, bias_entry])

/-- The first result, entry by entry, is the block's X. -/
theorem resX_apply (c : Dev nD) (b : Fin 4) (h : Fin 8) (p : Fin 2048) (e : Fin 2) (d : Fin 64) :
    resX m c (ix4 b h (pos p e) d)
      = xWhole (m ((c : Thread nD τ).loc main_arg0)) (m ((c : Thread nD τ).loc main_arg2)) (m ((c : Thread nD τ).loc main_arg3)) (m ((c : Thread nD τ).loc main_arg4))
          (Cert.ReferenceIdeal.Read.val_main_v57 (F := Ideal) (m ((c : Thread nD τ).loc main_arg1)) (m ((c : Thread nD τ).loc main_arg5))) b h (pos p e) d := by
  refine (unpacked_apply _ _ b h p e d).trans ?_
  show xOf (F := Ideal) (qOf (plane (V m c (Pipeline.arrRef spec0 0)) b h)) (kOf (planeB (V m c (Pipeline.arrRef spec0 3)) b) (plane (V m c (Pipeline.arrRef spec0 1)) b h)) (plane (V m c (Pipeline.arrRef spec0 2)) b h)
      (planeF (V m c (Pipeline.arrRef spec0 4)) b h) (ix2 p (lane e d)) = _
  rw [Cert.HeadProducts.xOf_apply]
  unfold xPacked xWhole ctxPair
  refine Finset.sum_congr rfl fun r _ => ?_
  rw [q_entry, filter_entry, sum_pos]
  simp only [k_entry m c, Vv_entry m c]

/-- One head's deviations' sum is the block's, for Q and for K. -/
theorem dev_q (c : Dev nD) (b : Fin 4) (h : Fin 8) :
    devSum (qOf (F := Ideal) (plane (V m c (Pipeline.arrRef spec0 0)) b h))
      = ∑ r : Fin 64, ∑ s : Fin 64, absE ((∑ n : Fin 4096, qWhole (m ((c : Thread nD τ).loc main_arg0)) b h n r * qWhole (m ((c : Thread nD τ).loc main_arg0)) b h n s) - eye r s) := by
  unfold devSum ctxPair
  refine Finset.sum_congr rfl fun r _ => Finset.sum_congr rfl fun s _ => ?_
  rw [sum_pos]
  simp only [q_entry m c]
theorem dev_k (c : Dev nD) (b : Fin 4) (h : Fin 8) :
    devSum (kOf (F := Ideal) (planeB (V m c (Pipeline.arrRef spec0 3)) b) (plane (V m c (Pipeline.arrRef spec0 1)) b h))
      = ∑ r : Fin 64, ∑ s : Fin 64, absE ((∑ n : Fin 4096, kWhole (m ((c : Thread nD τ).loc main_arg2)) (m ((c : Thread nD τ).loc main_arg4)) b h n r
          * kWhole (m ((c : Thread nD τ).loc main_arg2)) (m ((c : Thread nD τ).loc main_arg4)) b h n s) - eye r s) := by
  unfold devSum ctxPair
  refine Finset.sum_congr rfl fun r _ => Finset.sum_congr rfl fun s _ => ?_
  rw [sum_pos]
  simp only [k_entry m c]

/-- An absolute value is not negative. -/
theorem absE_nonneg (x : EReal) : 0 ≤ absE x := by
  unfold absE
  rcases le_total 0 x with hx | hx
  · exact le_max_of_le_left hx
  · exact le_max_of_le_right (by simpa using EReal.neg_le_neg_iff.mpr hx)

/-- The second result, entry by entry, is the block's loss. -/
theorem resLoss_apply (c : Dev nD) (b : Fin 4) :
    resLoss m c (ix1 b)
      = lossWhole (m ((c : Thread nD τ).loc main_arg0)) (m ((c : Thread nD τ).loc main_arg2)) (m ((c : Thread nD τ).loc main_arg4)) b := by
  have hsum : resLoss m c (ix1 b) = Ideal.ofBits .f32 0x00000000#32 + ∑ h : Fin 8, A6 m c (ix4 b h (0 : Fin 8) (0 : Fin 128)) := by
    show Host.reduceAdd (F := Ideal) _ _ reducesTo_S4x8_S4_d1 h_S_ (ix1 b) = _
    simp only [Host.reduceAdd, Ideal.hostReduceAdd_def]
    rw [Ideal.hostReduceAdd_single reducesTo_S4x8_S4_d1 (by decide)]
    refine congrArg₂ (· + ·) rfl (Finset.sum_congr rfl fun h _ => ?_)
    refine (shapeCast_apply _ _ _ (ix4 b h (0 : Fin 1) (0 : Fin 1)) ?_).trans ?_
    · rw [Shape.rowMajor_val_four, Shape.rowMajor_val_two]
      show ((b.val * 8 + h.val) * 1 + 0) * 1 + 0 = b.val * 8 + h.val
      omega
    · refine extractStridedSlice_apply _ _ _ _ (ix4 b h (0 : Fin 8) (0 : Fin 128)) fun a => ?_
      match a with
      | ⟨0, _⟩ => show b.val = 0 + b.val; omega
      | ⟨1, _⟩ => show h.val = 0 + h.val; omega
      | ⟨2, _⟩ => show 0 = 0 + 0; rfl
      | ⟨3, _⟩ => show 0 = 0 + 0; rfl
  rw [hsum]
  have hA : ∀ h : Fin 8, A6 m c (ix4 b h (0 : Fin 8) (0 : Fin 128))
      = lossPacked (qOf (F := Ideal) (plane (V m c (Pipeline.arrRef spec0 0)) b h)) (kOf (F := Ideal) (planeB (V m c (Pipeline.arrRef spec0 3)) b) (plane (V m c (Pipeline.arrRef spec0 1)) b h)) :=
    fun h => Cert.HeadProducts.auxOf_apply _ _ (0 : Fin 8) (0 : Fin 128)
  simp only [hA]
  unfold lossPacked lossWhole devWhole
  simp only [dev_q m c, dev_k m c]
  exact Cert.LossAlgebra.loss_eq _ _
    (fun h => Finset.sum_nonneg fun r _ => Finset.sum_nonneg fun s _ => absE_nonneg _)
    (fun h => Finset.sum_nonneg fun r _ => Finset.sum_nonneg fun s _ => absE_nonneg _)

end Cert.KernelIdeal.Bridge

end
-- ==== Proof.RefRead.lean ====
/-
  The reference program's two results read at an index, on the extended reals.

  The reference computes Q as the softmax of U over the rank coordinate and K as the softmax of svd_V minus
  1e9 · (1 − mask) over the sequence positions; its first result is (Q · filter) (Kᵀ V) and its second, per batch,
  0.1 · (∑ |QᵀQ − I| / 32768) + 0.1 · (∑ |KᵀK − I| / 32768), the sums over heads and both matrix coordinates.
  Each maximum of the reference is a fold of max from −∞, so the later maximum with −∞ changes nothing; subtracting
  c · y is adding (−c) · y; and a sum over three axes is the triple sum over their coordinates.
-/
import proofs.«132056_j86612310491926_2_alg».proof.Proof.Gen.ReferenceIdeal.Read
import proofs.«132056_j86612310491926_2_alg».proof.Proof.Attn
import proofs.«132056_j86612310491926_2_alg».proof.Proof.LibMaxFold
import proofs.«132056_j86612310491926_2_alg».proof.Proof.LibNonnegSum

noncomputable section

open scoped BigOperators

namespace Cert.RefRead

open Idealize.ShloMosaic Idealize.ShloMosaic.ValueIdx Idealize.SL.Sem Cert.ReferenceIdeal Cert.ReferenceIdeal.Gen
  Cert.ReferenceIdeal.Read

/-! ## Q: the softmax over the rank coordinate -/

/-- The index over (b, h, n) with coordinate k put back on the last axis is (b, h, n, k). -/
theorem lift_last (hr : S4x8x4096x64.Reduces [3] S4x8x4096) (b : Fin 4) (h : Fin 8) (n : Fin 4096)
    (k : Fin (S4x8x4096x64.size 3)) : hr.lift (ix3 b h n) k = ix4 b h n (⟨k.val, k.isLt⟩ : Fin 64) := by
  funext c; apply Fin.ext
  match c with
  | ⟨0, _⟩ => rfl
  | ⟨1, _⟩ => rfl
  | ⟨2, _⟩ => rfl
  | ⟨3, _⟩ => rfl

/-- From −∞ the maximum of a [4, 8, 4096, 64] array along its last axis is, at (b, h, n), the fold of max over that axis. -/
theorem max_last (x : FVec Ideal S4x8x4096x64 .f32) (h' : S4x8x4096x64.ReducesTo [3] S4x8x4096)
    (hu : 0 < S_.numel) (b : Fin 4) (h : Fin 8) (n : Fin 4096) :
    Host.reduce FloatOps.maximumf x (constant S_ .f32 0xFF800000#32) h' hu (ix3 b h n)
      = (Finset.univ : Finset (Fin 64)).fold max (Ideal.ofBits .f32 0xFF800000#32) (fun r => x (ix4 b h n r)) := by
  have hr : S4x8x4096x64.Reduces [3] S4x8x4096 := by decide
  rw [Host.reduce_eq_fold_single FloatOps.maximumf x _ h' hr hu]
  have hf : (x ∘ hr.lift (ix3 b h n)) = fun k : Fin 64 => x (ix4 b h n k) :=
    funext fun k => congrArg x (lift_last hr b h n k)
  exact congrArg (fun f => Finset.fold max (Ideal.ofBits .f32 0xFF800000#32) f (Finset.univ : Finset (Fin 64))) hf

/-- The maximum along the last axis is, at (b, h, n), the fold of max from −∞ over the rank coordinate. -/
theorem v0_apply (x0 : (⟨S4x8x4096x64, .f32⟩ : BufTy).Contents (Elt Ideal)) (b : Fin 4) (h : Fin 8) (n : Fin 4096) :
    val_main_v0 (F := Ideal) x0 (ix3 b h n)
      = (Finset.univ : Finset (Fin 64)).fold max Cert.Attn.negInf (fun r => x0 (ix4 b h n r)) :=
  max_last x0 reducesTo_S4x8x4096x64_S4x8x4096_d3 h_S_ b h n

/-- The later maximum with −∞ changes nothing: −∞ is where the fold started. -/
theorem v2_apply (x0 : (⟨S4x8x4096x64, .f32⟩ : BufTy).Contents (Elt Ideal)) (b : Fin 4) (h : Fin 8) (n : Fin 4096) :
    val_main_v2 (F := Ideal) x0 (ix3 b h n)
      = (Finset.univ : Finset (Fin 64)).fold max Cert.Attn.negInf (fun r => x0 (ix4 b h n r)) := by
  rw [val_main_v2_apply, val_main_v1_apply, val_main_cst_0_apply, v0_apply]
  exact max_eq_right (Cert.LibMaxFold.start_le_fold_max _ _ _)

/-- The maximum spread back over the rank coordinate. -/
theorem v4_apply (x0 : (⟨S4x8x4096x64, .f32⟩ : BufTy).Contents (Elt Ideal)) (b : Fin 4) (h : Fin 8) (n : Fin 4096) (r : Fin 64) :
    val_main_v4 (F := Ideal) x0 (ix4 b h n r)
      = (Finset.univ : Finset (Fin 64)).fold max Cert.Attn.negInf (fun r' => x0 (ix4 b h n r')) := by
  rw [val_main_v4_apply, val_main_v3_apply]
  have e : idx_main_v3 (idx_main_v4 (ix4 b h n r)) = ix3 b h n :=
    funext fun a => Fin.ext (by match a with | ⟨0, _⟩ => rfl | ⟨1, _⟩ => rfl | ⟨2, _⟩ => rfl)
  rw [e, v2_apply]

/-- exp (U − max). -/
theorem v6_apply (x0 : (⟨S4x8x4096x64, .f32⟩ : BufTy).Contents (Elt Ideal)) (b : Fin 4) (h : Fin 8) (n : Fin 4096) (r : Fin 64) :
    val_main_v6 (F := Ideal) x0 (ix4 b h n r)
      = Ideal.exp (x0 (ix4 b h n r) - (Finset.univ : Finset (Fin 64)).fold max Cert.Attn.negInf (fun r' => x0 (ix4 b h n r'))) := by
  rw [val_main_v6_apply, val_main_v5_apply, v4_apply]
  rfl

/-- The f32 word of zero is zero. -/
theorem ofBits_zero : Ideal.ofBits .f32 0x00000000#32 = 0 := Ideal.ofBits_zero_f32

/-- The sum of the exponentials over the rank coordinate. -/
theorem v7_apply (x0 : (⟨S4x8x4096x64, .f32⟩ : BufTy).Contents (Elt Ideal)) (b : Fin 4) (h : Fin 8) (n : Fin 4096) :
    val_main_v7 (F := Ideal) x0 (ix3 b h n)
      = ∑ r : Fin 64, Ideal.exp (x0 (ix4 b h n r) - (Finset.univ : Finset (Fin 64)).fold max Cert.Attn.negInf (fun r' => x0 (ix4 b h n r'))) := by
  rw [val_main_v7_apply, val_main_cst_1_apply]
  refine (congrArg (· + _) ofBits_zero).trans ((zero_add _).trans (Finset.sum_congr rfl fun k _ => ?_))
  have e : idx_main_v7 (ix3 b h n) k = ix4 b h n k :=
    funext fun a => Fin.ext (by match a with | ⟨0, _⟩ => rfl | ⟨1, _⟩ => rfl | ⟨2, _⟩ => rfl | ⟨3, _⟩ => rfl)
  rw [e, v6_apply]

/-- Q of the reference is the softmax of U over the rank coordinate. -/
theorem v10_apply (x0 : (⟨S4x8x4096x64, .f32⟩ : BufTy).Contents (Elt Ideal)) (b : Fin 4) (h : Fin 8) (n : Fin 4096) (r : Fin 64) :
    val_main_v10 (F := Ideal) x0 (ix4 b h n r) = Cert.Attn.qWhole x0 b h n r := by
  rw [val_main_v10_apply, val_main_v9_apply, val_main_v8_apply]
  have e : idx_main_v8 (idx_main_v9 (ix4 b h n r)) = ix3 b h n :=
    funext fun a => Fin.ext (by match a with | ⟨0, _⟩ => rfl | ⟨1, _⟩ => rfl | ⟨2, _⟩ => rfl)
  rw [e, v7_apply, v6_apply]
  rfl

/-! ## K: the softmax over the sequence positions -/

/-- The f32 word 0x4E6E6B28 is 10⁹. -/
theorem ofBits_1e9 : Ideal.ofBits .f32 0x4E6E6B28#32 = ((1000000000 : ℝ) : EReal) := by
  simp [Ideal.ofBits, Ideal.ieee, -EReal.coe_mul]; norm_num

/-- The f32 word 0xCE6E6B28 is −10⁹. -/
theorem ofBits_neg_1e9 : Ideal.ofBits .f32 0xCE6E6B28#32 = ((-(1000000000 : ℝ)) : EReal) := by
  simp [Ideal.ofBits, Ideal.ieee, -EReal.coe_mul, -EReal.coe_neg]; norm_num

/-- The second word is the negative of the first. -/
theorem ofBits_neg_word : Ideal.ofBits .f32 0xCE6E6B28#32 = -Ideal.ofBits .f32 0x4E6E6B28#32 := by
  rw [ofBits_1e9, ofBits_neg_1e9]

/-- Subtracting c · y is adding (−c) · y. -/
theorem sub_mul_eq_add_neg_mul (a c y : EReal) : a - c * y = a + (-c) * y := by
  rw [EReal.neg_mul, sub_eq_add_neg]

/-- svd_V − 1e9 · (1 − mask) is svd_V plus the mask's bias. -/
theorem v17_apply (x2 : (⟨S4x8x4096x64, .f32⟩ : BufTy).Contents (Elt Ideal)) (x4 : (⟨S4x4096, .f32⟩ : BufTy).Contents (Elt Ideal)) (b : Fin 4) (h : Fin 8) (n : Fin 4096) (r : Fin 64) :
    val_main_v17 (F := Ideal) x2 x4 (ix4 b h n r) = x2 (ix4 b h n r) + Cert.Attn.maskBias x4 b n := by
  rw [val_main_v17_apply, val_main_v16_apply, val_main_v15_apply, val_main_v14_apply, val_main_cst_3_apply,
    val_main_v13_apply, val_main_v12_apply, val_main_cst_2_apply, val_main_v11_apply]
  have e : idx_main_v11 (idx_main_v16 (ix4 b h n r)) = ix2 b n :=
    funext fun a => Fin.ext (by match a with | ⟨0, _⟩ => rfl | ⟨1, _⟩ => rfl)
  rw [e]
  refine (sub_mul_eq_add_neg_mul _ (Ideal.ofBits .f32 0x4E6E6B28#32) _).trans ?_
  unfold Cert.Attn.maskBias
  rw [ofBits_neg_word]
  rfl

/-- The index over (b, h, r) with coordinate k put back on the position axis is (b, h, k, r). -/
theorem lift_pos (hr : S4x8x4096x64.Reduces [2] S4x8x64) (b : Fin 4) (h : Fin 8) (r : Fin 64)
    (k : Fin (S4x8x4096x64.size 2)) : hr.lift (ix3 b h r) k = ix4 b h (⟨k.val, k.isLt⟩ : Fin 4096) r := by
  funext c; apply Fin.ext
  match c with
  | ⟨0, _⟩ => rfl
  | ⟨1, _⟩ => rfl
  | ⟨2, _⟩ => rfl
  | ⟨3, _⟩ => rfl

/-- From −∞ the maximum of a [4, 8, 4096, 64] array along its position axis is, at (b, h, r), the fold of max over that axis. -/
theorem max_pos (x : FVec Ideal S4x8x4096x64 .f32) (h' : S4x8x4096x64.ReducesTo [2] S4x8x64)
    (hu : 0 < S_.numel) (b : Fin 4) (h : Fin 8) (r : Fin 64) :
    Host.reduce FloatOps.maximumf x (constant S_ .f32 0xFF800000#32) h' hu (ix3 b h r)
      = (Finset.univ : Finset (Fin 4096)).fold max (Ideal.ofBits .f32 0xFF800000#32) (fun n => x (ix4 b h n r)) := by
  have hr : S4x8x4096x64.Reduces [2] S4x8x64 := by decide
  rw [Host.reduce_eq_fold_single FloatOps.maximumf x _ h' hr hu]
  have hf : (x ∘ hr.lift (ix3 b h r)) = fun k : Fin 4096 => x (ix4 b h k r) :=
    funext fun k => congrArg x (lift_pos hr b h r k)
  exact congrArg (fun f => Finset.fold max (Ideal.ofBits .f32 0xFF800000#32) f (Finset.univ : Finset (Fin 4096))) hf

/-- The maximum along the position axis is, at (b, h, r), the fold of max from −∞ over the positions. -/
theorem v18_apply (x2 : (⟨S4x8x4096x64, .f32⟩ : BufTy).Contents (Elt Ideal)) (x4 : (⟨S4x4096, .f32⟩ : BufTy).Contents (Elt Ideal)) (b : Fin 4) (h : Fin 8) (r : Fin 64) :
    val_main_v18 (F := Ideal) x2 x4 (ix3 b h r)
      = (Finset.univ : Finset (Fin 4096)).fold max Cert.Attn.negInf (fun n' => x2 (ix4 b h n' r) + Cert.Attn.maskBias x4 b n') := by
  refine (max_pos (val_main_v17 (F := Ideal) x2 x4) reducesTo_S4x8x4096x64_S4x8x64_d2 h_S_ b h r).trans ?_
  exact congrArg (fun f => Finset.fold max (Ideal.ofBits .f32 0xFF800000#32) f (Finset.univ : Finset (Fin 4096)))
    (funext fun n' => v17_apply x2 x4 b h n' r)

/-- The later maximum with −∞ changes nothing. -/
theorem v20_apply (x2 : (⟨S4x8x4096x64, .f32⟩ : BufTy).Contents (Elt Ideal)) (x4 : (⟨S4x4096, .f32⟩ : BufTy).Contents (Elt Ideal)) (b : Fin 4) (h : Fin 8) (r : Fin 64) :
    val_main_v20 (F := Ideal) x2 x4 (ix3 b h r)
      = (Finset.univ : Finset (Fin 4096)).fold max Cert.Attn.negInf (fun n' => x2 (ix4 b h n' r) + Cert.Attn.maskBias x4 b n') := by
  rw [val_main_v20_apply, val_main_v19_apply, val_main_cst_5_apply, v18_apply]
  exact max_eq_right (Cert.LibMaxFold.start_le_fold_max _ _ _)

/-- The maximum spread back over the positions. -/
theorem v22_apply (x2 : (⟨S4x8x4096x64, .f32⟩ : BufTy).Contents (Elt Ideal)) (x4 : (⟨S4x4096, .f32⟩ : BufTy).Contents (Elt Ideal)) (b : Fin 4) (h : Fin 8) (n : Fin 4096) (r : Fin 64) :
    val_main_v22 (F := Ideal) x2 x4 (ix4 b h n r)
      = (Finset.univ : Finset (Fin 4096)).fold max Cert.Attn.negInf (fun n' => x2 (ix4 b h n' r) + Cert.Attn.maskBias x4 b n') := by
  rw [val_main_v22_apply, val_main_v21_apply]
  have e : idx_main_v21 (idx_main_v22 (ix4 b h n r)) = ix3 b h r :=
    funext fun a => Fin.ext (by match a with | ⟨0, _⟩ => rfl | ⟨1, _⟩ => rfl | ⟨2, _⟩ => rfl)
  rw [e, v20_apply]

/-- exp (svd_V + bias − max). -/
theorem v24_apply (x2 : (⟨S4x8x4096x64, .f32⟩ : BufTy).Contents (Elt Ideal)) (x4 : (⟨S4x4096, .f32⟩ : BufTy).Contents (Elt Ideal)) (b : Fin 4) (h : Fin 8) (n : Fin 4096) (r : Fin 64) :
    val_main_v24 (F := Ideal) x2 x4 (ix4 b h n r)
      = Ideal.exp (x2 (ix4 b h n r) + Cert.Attn.maskBias x4 b n
          - (Finset.univ : Finset (Fin 4096)).fold max Cert.Attn.negInf (fun n' => x2 (ix4 b h n' r) + Cert.Attn.maskBias x4 b n')) := by
  rw [val_main_v24_apply, val_main_v23_apply, v22_apply, v17_apply]
  rfl

/-- The sum of the exponentials over the positions. -/
theorem v25_apply (x2 : (⟨S4x8x4096x64, .f32⟩ : BufTy).Contents (Elt Ideal)) (x4 : (⟨S4x4096, .f32⟩ : BufTy).Contents (Elt Ideal)) (b : Fin 4) (h : Fin 8) (r : Fin 64) :
    val_main_v25 (F := Ideal) x2 x4 (ix3 b h r)
      = ∑ n : Fin 4096, Ideal.exp (x2 (ix4 b h n r) + Cert.Attn.maskBias x4 b n
          - (Finset.univ : Finset (Fin 4096)).fold max Cert.Attn.negInf (fun n' => x2 (ix4 b h n' r) + Cert.Attn.maskBias x4 b n')) := by
  rw [val_main_v25_apply, val_main_cst_6_apply]
  refine (congrArg (· + _) ofBits_zero).trans ((zero_add _).trans (Finset.sum_congr rfl fun k _ => ?_))
  have e : idx_main_v25 (ix3 b h r) k = ix4 b h k r :=
    funext fun a => Fin.ext (by match a with | ⟨0, _⟩ => rfl | ⟨1, _⟩ => rfl | ⟨2, _⟩ => rfl | ⟨3, _⟩ => rfl)
  rw [e, v24_apply]

/-- K of the reference is the softmax of svd_V + bias over the positions. -/
theorem v28_apply (x2 : (⟨S4x8x4096x64, .f32⟩ : BufTy).Contents (Elt Ideal)) (x4 : (⟨S4x4096, .f32⟩ : BufTy).Contents (Elt Ideal)) (b : Fin 4) (h : Fin 8) (n : Fin 4096) (r : Fin 64) :
    val_main_v28 (F := Ideal) x2 x4 (ix4 b h n r) = Cert.Attn.kWhole x2 x4 b h n r := by
  rw [val_main_v28_apply, val_main_v27_apply, val_main_v26_apply]
  have e : idx_main_v26 (idx_main_v27 (ix4 b h n r)) = ix3 b h r :=
    funext fun a => Fin.ext (by match a with | ⟨0, _⟩ => rfl | ⟨1, _⟩ => rfl | ⟨2, _⟩ => rfl)
  rw [e, v25_apply, v24_apply]
  rfl

/-! ## X = (Q · filter) (Kᵀ V) -/

/-- Kᵀ V at (b, h, r, d): the contraction over the positions. -/
theorem v58_apply (x2 x3 : (⟨S4x8x4096x64, .f32⟩ : BufTy).Contents (Elt Ideal)) (x4 : (⟨S4x4096, .f32⟩ : BufTy).Contents (Elt Ideal)) (b : Fin 4) (h : Fin 8) (r d : Fin 64) :
    val_main_v58 (F := Ideal) x2 x3 x4 (ix4 b h r d)
      = ∑ n' : Fin 4096, Cert.Attn.kWhole x2 x4 b h n' r * x3 (ix4 b h n' d) := by
  rw [val_main_v58_apply]
  refine Finset.sum_congr rfl fun k _ => ?_
  have el : lidx_main_v58 (ix4 b h r d) k = ix4 b h k r :=
    funext fun a => Fin.ext (by match a with | ⟨0, _⟩ => rfl | ⟨1, _⟩ => rfl | ⟨2, _⟩ => rfl | ⟨3, _⟩ => rfl)
  have er : ridx_main_v58 (ix4 b h r d) k = ix4 b h k d :=
    funext fun a => Fin.ext (by match a with | ⟨0, _⟩ => rfl | ⟨1, _⟩ => rfl | ⟨2, _⟩ => rfl | ⟨3, _⟩ => rfl)
  rw [el, er, v28_apply]

/-- Q · filter at (b, h, n, r). -/
theorem v60_apply (x0 : (⟨S4x8x4096x64, .f32⟩ : BufTy).Contents (Elt Ideal)) (x1 : (⟨S4x8x1x64, .f32⟩ : BufTy).Contents (Elt Ideal)) (x5 : (⟨S5, .f32⟩ : BufTy).Contents (Elt Ideal)) (b : Fin 4) (h : Fin 8) (n : Fin 4096) (r : Fin 64) :
    val_main_v60 (F := Ideal) x0 x1 x5 (ix4 b h n r)
      = Cert.Attn.qWhole x0 b h n r * val_main_v57 (F := Ideal) x1 x5 (ix4 b h (0 : Fin 1) r) := by
  rw [val_main_v60_apply, val_main_v59_apply, v10_apply]
  have e : idx_main_v59 (ix4 b h n r) = ix4 b h (0 : Fin 1) r :=
    funext fun a => Fin.ext (by match a with | ⟨0, _⟩ => rfl | ⟨1, _⟩ => rfl | ⟨2, _⟩ => rfl | ⟨3, _⟩ => rfl)
  rw [e]
  rfl

/-- The reference's first result at (b, h, n, d). -/
theorem ref_X_apply (x0 : (⟨S4x8x4096x64, .f32⟩ : BufTy).Contents (Elt Ideal)) (x1 : (⟨S4x8x1x64, .f32⟩ : BufTy).Contents (Elt Ideal)) (x2 x3 : (⟨S4x8x4096x64, .f32⟩ : BufTy).Contents (Elt Ideal)) (x4 : (⟨S4x4096, .f32⟩ : BufTy).Contents (Elt Ideal)) (x5 : (⟨S5, .f32⟩ : BufTy).Contents (Elt Ideal))
    (b : Fin 4) (h : Fin 8) (n : Fin 4096) (d : Fin 64) :
    val_main_v61 (F := Ideal) x0 x1 x2 x3 x4 x5 (ix4 b h n d)
      = Cert.Attn.xWhole x0 x2 x3 x4 (val_main_v57 (F := Ideal) x1 x5) b h n d := by
  rw [val_main_v61_apply]
  unfold Cert.Attn.xWhole
  refine Finset.sum_congr rfl fun k _ => ?_
  have el : lidx_main_v61 (ix4 b h n d) k = ix4 b h n k :=
    funext fun a => Fin.ext (by match a with | ⟨0, _⟩ => rfl | ⟨1, _⟩ => rfl | ⟨2, _⟩ => rfl | ⟨3, _⟩ => rfl)
  have er : ridx_main_v61 (ix4 b h n d) k = ix4 b h k d :=
    funext fun a => Fin.ext (by match a with | ⟨0, _⟩ => rfl | ⟨1, _⟩ => rfl | ⟨2, _⟩ => rfl | ⟨3, _⟩ => rfl)
  rw [el, er, v60_apply, v58_apply]

/-! ## The loss -/

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {N : Type*} [AddCommMonoid N] {n0 n1 n2 n3 : Nat} (f : (⟨4, ![n0, n1, n2, n3]⟩ : Shape).Idx → N) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Dropping the last three coordinates of (a, h, r, s) leaves a. -/
theorem drop_ix4 (h' : S4x8x64x64.ReducesTo [1, 2, 3] S4) (a : Fin 4) (h : Fin 8) (r s : Fin 64) :
    h'.drop (ix4 a h r s) = ix1 a := by
  funext c; apply Fin.ext
  match c with
  | ⟨0, _⟩ => rfl

/-- The sum of a [4, 8, 64, 64] array over its last three axes is, at b, the initial value plus the triple sum over
    their coordinates. -/
theorem sum_three (x : FVec Ideal S4x8x64x64 .f32) (init : S_.Idx → Ideal .f32) (h' : S4x8x64x64.ReducesTo [1, 2, 3] S4)
    (hu : 0 < S_.numel) (b : Fin 4) :
    Host.reduceAdd x init h' hu (ix1 b)
      = init (Shape.Idx.first hu) + ∑ h : Fin 8, ∑ r : Fin 64, ∑ s : Fin 64, x (ix4 b h r s) := by
  show Ideal.hostReduceAdd h' x (init (Shape.Idx.first hu)) (ix1 b) = _
  unfold Ideal.hostReduceAdd
  refine congrArg (init (Shape.Idx.first hu) + ·) ?_
  rw [Finset.sum_filter, sum_idx4]
  have hd : ∀ (a : Fin 4) (h : Fin 8) (r s : Fin 64), (h'.drop (ix4 a h r s) = ix1 b) ↔ a = b := fun a h r s => by
    rw [drop_ix4]; exact ⟨fun e => congrFun e 0, fun e => e ▸ rfl⟩
  simp only [hd]
  rw [Finset.sum_eq_single b]
  · simp
  · intro a _ hab; simp [hab]
  · intro hb; exact absurd (Finset.mem_univ b) hb

/-- Two coordinates below 64 with the same 32-bit word are equal. -/
theorem ofNat32_inj (r s : Fin 64) : BitVec.ofNat 32 r.val = BitVec.ofNat 32 s.val ↔ r = s := by
  constructor
  · intro e
    have e' := congrArg BitVec.toNat e
    simp only [BitVec.toNat_ofNat] at e'
    apply Fin.ext
    have hr := r.isLt; have hs := s.isLt
    omega
  · rintro rfl; rfl

/-- The comparison of the two coordinate words is the bit of r = s. -/
theorem cmp_word (r s : Fin 64) :
    IntOp.cmpi .eq (IntOp.addi (BitVec.ofNat 32 r.val) 0#32) (BitVec.ofNat 32 s.val) = if r = s then 1#1 else 0#1 := by
  unfold IntOp.cmpi IntOp.addi
  rw [BitVec.add_zero]
  by_cases hrs : r = s
  · subst hrs; simp
  · rw [if_neg hrs]
    have hne : (BitVec.ofNat 32 r.val == BitVec.ofNat 32 s.val) = false := by
      rw [beq_eq_false_iff_ne]; exact fun e => hrs ((ofNat32_inj r s).1 e)
    simp only [hne]; rfl

/-- The matrix built from the two iotas is the identity matrix. -/
theorem v67_apply (r s : Fin 64) : val_main_v67 (F := Ideal) (ix2 r s) = Cert.Attn.eye r s := by
  rw [val_main_v67_apply, val_main_v66_apply, val_main_v65_apply, val_main_v62_apply, val_main_v63_apply,
    val_main_v64_apply, val_main_c_apply]
  show (((IntOp.cmpi .eq (IntOp.addi (BitVec.ofNat 32 r.val) 0#32) (BitVec.ofNat 32 s.val)).toNat : ℝ) : EReal) = _
  rw [cmp_word]
  unfold Cert.Attn.eye
  by_cases hrs : r = s
  · rw [if_pos hrs, if_pos hrs]; norm_num
  · rw [if_neg hrs, if_neg hrs]; norm_num

/-- The identity matrix spread over batches and heads (first copy). -/
theorem v70_apply (b : Fin 4) (h : Fin 8) (r s : Fin 64) :
    val_main_v70 (F := Ideal) (ix4 b h r s) = Cert.Attn.eye r s := by
  rw [val_main_v70_apply, val_main_v69_apply]
  have e : idx_main_v69 (idx_main_v70 (ix4 b h r s)) = ix2 r s :=
    funext fun a => Fin.ext (by match a with | ⟨0, _⟩ => rfl | ⟨1, _⟩ => rfl)
  rw [e, v67_apply]

/-- The identity matrix spread over batches and heads (second copy). -/
theorem v80_apply (b : Fin 4) (h : Fin 8) (r s : Fin 64) :
    val_main_v80 (F := Ideal) (ix4 b h r s) = Cert.Attn.eye r s := by
  rw [val_main_v80_apply, val_main_v79_apply]
  have e : idx_main_v79 (idx_main_v80 (ix4 b h r s)) = ix2 r s :=
    funext fun a => Fin.ext (by match a with | ⟨0, _⟩ => rfl | ⟨1, _⟩ => rfl)
  rw [e, v67_apply]

/-- |QᵀQ − I| at (b, h, r, s). -/
theorem v72_apply (x0 : (⟨S4x8x4096x64, .f32⟩ : BufTy).Contents (Elt Ideal)) (b : Fin 4) (h : Fin 8) (r s : Fin 64) :
    val_main_v72 (F := Ideal) x0 (ix4 b h r s)
      = Cert.Attn.absE ((∑ n : Fin 4096, Cert.Attn.qWhole x0 b h n r * Cert.Attn.qWhole x0 b h n s) - Cert.Attn.eye r s) := by
  rw [val_main_v72_apply, val_main_v71_apply, v70_apply, val_main_v68_apply]
  have es : (∑ k : Fin 4096, val_main_v10 (F := Ideal) x0 (lidx_main_v68 (ix4 b h r s) k) * val_main_v10 (F := Ideal) x0 (ridx_main_v68 (ix4 b h r s) k))
      = ∑ n : Fin 4096, Cert.Attn.qWhole x0 b h n r * Cert.Attn.qWhole x0 b h n s := by
    refine Finset.sum_congr rfl fun k _ => ?_
    have el : lidx_main_v68 (ix4 b h r s) k = ix4 b h k r := funext fun a => Fin.ext (by match a with | ⟨0, _⟩ => rfl | ⟨1, _⟩ => rfl | ⟨2, _⟩ => rfl | ⟨3, _⟩ => rfl)
    have er : ridx_main_v68 (ix4 b h r s) k = ix4 b h k s := funext fun a => Fin.ext (by match a with | ⟨0, _⟩ => rfl | ⟨1, _⟩ => rfl | ⟨2, _⟩ => rfl | ⟨3, _⟩ => rfl)
    rw [el, er, v10_apply, v10_apply]
  rw [es]
  rfl

/-- |KᵀK − I| at (b, h, r, s). -/
theorem v82_apply (x2 : (⟨S4x8x4096x64, .f32⟩ : BufTy).Contents (Elt Ideal)) (x4 : (⟨S4x4096, .f32⟩ : BufTy).Contents (Elt Ideal)) (b : Fin 4) (h : Fin 8) (r s : Fin 64) :
    val_main_v82 (F := Ideal) x2 x4 (ix4 b h r s)
      = Cert.Attn.absE ((∑ n : Fin 4096, Cert.Attn.kWhole x2 x4 b h n r * Cert.Attn.kWhole x2 x4 b h n s) - Cert.Attn.eye r s) := by
  rw [val_main_v82_apply, val_main_v81_apply, v80_apply, val_main_v78_apply]
  have es : (∑ k : Fin 4096, val_main_v28 (F := Ideal) x2 x4 (lidx_main_v78 (ix4 b h r s) k) * val_main_v28 (F := Ideal) x2 x4 (ridx_main_v78 (ix4 b h r s) k))
      = ∑ n : Fin 4096, Cert.Attn.kWhole x2 x4 b h n r * Cert.Attn.kWhole x2 x4 b h n s := by
    refine Finset.sum_congr rfl fun k _ => ?_
    have el : lidx_main_v78 (ix4 b h r s) k = ix4 b h k r := funext fun a => Fin.ext (by match a with | ⟨0, _⟩ => rfl | ⟨1, _⟩ => rfl | ⟨2, _⟩ => rfl | ⟨3, _⟩ => rfl)
    have er : ridx_main_v78 (ix4 b h r s) k = ix4 b h k s := funext fun a => Fin.ext (by match a with | ⟨0, _⟩ => rfl | ⟨1, _⟩ => rfl | ⟨2, _⟩ => rfl | ⟨3, _⟩ => rfl)
    rw [el, er, v28_apply, v28_apply]
  rw [es]
  rfl

/-- The sum of |QᵀQ − I| over heads and both matrix coordinates, from the zero word. -/
theorem v73_apply (x0 : (⟨S4x8x4096x64, .f32⟩ : BufTy).Contents (Elt Ideal)) (b : Fin 4) :
    val_main_v73 (F := Ideal) x0 (ix1 b)
      = Ideal.ofBits .f32 0x00000000#32 + Cert.Attn.devWhole (Cert.Attn.qWhole x0 b) := by
  refine (sum_three (val_main_v72 (F := Ideal) x0) (val_main_cst_9 (F := Ideal)) reducesTo_S4x8x64x64_S4_d1_2_3 h_S_ b).trans ?_
  refine congrArg (Ideal.ofBits .f32 0x00000000#32 + ·) ?_
  unfold Cert.Attn.devWhole
  exact Finset.sum_congr rfl fun h _ => Finset.sum_congr rfl fun r _ => Finset.sum_congr rfl fun s _ => v72_apply x0 b h r s

/-- The sum of |KᵀK − I| over heads and both matrix coordinates, from the zero word. -/
theorem v83_apply (x2 : (⟨S4x8x4096x64, .f32⟩ : BufTy).Contents (Elt Ideal)) (x4 : (⟨S4x4096, .f32⟩ : BufTy).Contents (Elt Ideal)) (b : Fin 4) :
    val_main_v83 (F := Ideal) x2 x4 (ix1 b)
      = Ideal.ofBits .f32 0x00000000#32 + Cert.Attn.devWhole (Cert.Attn.kWhole x2 x4 b) := by
  refine (sum_three (val_main_v82 (F := Ideal) x2 x4) (val_main_cst_12 (F := Ideal)) reducesTo_S4x8x64x64_S4_d1_2_3 h_S_ b).trans ?_
  refine congrArg (Ideal.ofBits .f32 0x00000000#32 + ·) ?_
  unfold Cert.Attn.devWhole
  exact Finset.sum_congr rfl fun h _ => Finset.sum_congr rfl fun r _ => Finset.sum_congr rfl fun s _ => v82_apply x2 x4 b h r s

/-- The reference's second result at batch b. -/
theorem ref_loss_apply (x0 x2 : (⟨S4x8x4096x64, .f32⟩ : BufTy).Contents (Elt Ideal)) (x4 : (⟨S4x4096, .f32⟩ : BufTy).Contents (Elt Ideal)) (b : Fin 4) :
    val_main_v88 (F := Ideal) x0 x2 x4 (ix1 b) = Cert.Attn.lossWhole x0 x2 x4 b := by
  rw [val_main_v88_apply, val_main_v77_apply, val_main_v87_apply, val_main_v76_apply, val_main_v86_apply,
    val_main_cst_11_apply, val_main_cst_14_apply, val_main_v75_apply, val_main_v85_apply, val_main_v74_apply,
    val_main_v84_apply, val_main_cst_10_apply, val_main_cst_13_apply, v73_apply, v83_apply]
  rfl

end Cert.RefRead

end
-- ==== Proof.lean ====
/-
  The certificate: a lane-packed attention block against its plain reference.

  Both programs compute, per batch b and head h, Q = softmax of U over the 64 rank coordinates, K = softmax of
  svd_V − 1e9·(1 − mask) over the 4096 sequence positions, X = (Q · filter) (Kᵀ V) with the filter a polynomial in
  sigmoid(Sigma), and per batch the loss 0.1·mean|QᵀQ − I| + 0.1·mean|KᵀK − I| over heads and coordinates.
  The block works on arrays packed two positions per 128-lane row and two heads per grid point; it takes maxima and
  sums over positions as combinations of the two halves', adds the mask term where the reference subtracts it, and
  scales each head's deviations by 0.1/8 and 1/4096 where the reference scales their total by 0.1 and 1/32768.
  On the extended reals these are the same functions of the arguments: a maximum or a sum over positions is the
  combination of its halves (Packing), −c·y subtracted is (−c)·y added, the word of 0.1/8 is exactly an eighth of
  the word of 0.1, and multiplication distributes over sums of absolute values (LossAlgebra). Every execution of
  each program ends with its results at those functions (KernelRun with KernelValue; the reference's run with RefRead),
  and the argument arrays as launched.
-/
import proofs.«132056_j86612310491926_2_alg».proof.Defs
import proofs.«132056_j86612310491926_2_alg».proof.Proof.Gen.Kernel
import proofs.«132056_j86612310491926_2_alg».proof.Proof.Gen.Kernel.Skeleton
import proofs.«132056_j86612310491926_2_alg».proof.Proof.Gen.Kernel.Launch
import proofs.«132056_j86612310491926_2_alg».proof.Proof.Gen.Kernel.Points
import proofs.«132056_j86612310491926_2_alg».proof.Proof.Gen.Kernel.Frame
import proofs.«132056_j86612310491926_2_alg».proof.Proof.Gen.KernelIdeal
import proofs.«132056_j86612310491926_2_alg».proof.Proof.Gen.KernelIdeal.Skeleton
import proofs.«132056_j86612310491926_2_alg».proof.Proof.Gen.KernelIdeal.Launch
import proofs.«132056_j86612310491926_2_alg».proof.Proof.Gen.KernelIdeal.Points
import proofs.«132056_j86612310491926_2_alg».proof.Proof.Gen.KernelIdeal.Frame
import proofs.«132056_j86612310491926_2_alg».proof.Proof.Gen.ReferenceIdeal
import proofs.«132056_j86612310491926_2_alg».proof.Proof.Gen.Pre_finite_inputs
import proofs.«132056_j86612310491926_2_alg».proof.Proof.Gen.ReferenceIdeal.Run
import proofs.«132056_j86612310491926_2_alg».proof.Proof.Gen.ReferenceIdeal.Read
import proofs.«132056_j86612310491926_2_alg».proof.Proof.KernelValue
import proofs.«132056_j86612310491926_2_alg».proof.Proof.RefRead
import Idealize.ShloMosaic.Adequacy
import Idealize.ShloMosaic.Init

noncomputable section

namespace Cert.Proof

open Idealize.ShloMosaic Idealize.SL.Sem Idealize.ShloMosaic.ValueIdx

/-- The kernel's first result is the reference's first stage of the same arguments. -/
theorem resX_eq (m : (ℓ : Loc Cert.KernelIdeal.nD Cert.KernelIdeal.τ Cert.KernelIdeal.sig) → Buf (Elt Ideal) ℓ) (c : Dev Cert.KernelIdeal.nD) :
    Cert.KernelIdeal.Blocks.resX m c
      = Cert.ReferenceIdeal.Read.val_main_v61 (F := Ideal)
          (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  funext i
  obtain ⟨b, h, n, d, rfl⟩ : ∃ (b : Fin 4) (h : Fin 8) (n : Fin 4096) (d : Fin 64), i = ix4 b h n d := ⟨i 0, i 1, i 2, i 3, eq_ix4 i⟩
  obtain ⟨⟨p, e⟩, rfl⟩ := Cert.Attn.posEquiv.surjective n
  exact (Cert.KernelIdeal.Bridge.resX_apply m c b h p e d).trans (Cert.RefRead.ref_X_apply _ _ _ _ _ _ b h (Cert.Attn.pos p e) d).symm

/-- The kernel's second result is the reference's second stage of the same arguments. -/
theorem resLoss_eq (m : (ℓ : Loc Cert.KernelIdeal.nD Cert.KernelIdeal.τ Cert.KernelIdeal.sig) → Buf (Elt Ideal) ℓ) (c : Dev Cert.KernelIdeal.nD) :
    Cert.KernelIdeal.Blocks.resLoss m c
      = Cert.ReferenceIdeal.Read.val_main_v88 (F := Ideal)
          (m ((c.tc : Thread Cert.KernelIdeal.nD Cert.KernelIdeal.τ).loc Cert.KernelIdeal.main_arg0)) (m ((c.tc : Thread Cert.KernelIdeal.nD Cert.KernelIdeal.τ).loc Cert.KernelIdeal.main_arg2))
          (m ((c.tc : Thread Cert.KernelIdeal.nD Cert.KernelIdeal.τ).loc Cert.KernelIdeal.main_arg4)) := by
  funext i
  obtain ⟨b, rfl⟩ : ∃ b : Fin 4, i = ix1 b := ⟨i 0, eq_ix1 i⟩
  exact (Cert.KernelIdeal.Bridge.resLoss_apply m c b).trans (Cert.RefRead.ref_loss_apply _ _ _ b).symm

theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2.2) (Cert.ReferenceIdeal.Value.run (F := Ideal) m ρ)

/-- No operation of the kernel was rewritten for its ideal reading. -/
theorem preserves : Cert.preserves_Kernel_KernelIdeal := trivial

/-- From memories agreeing on the arguments both programs end with equal results: the kernel's run has them at its
    functions of the arguments, the reference's at its stages, and the two are equal entry by entry. -/
theorem algebraic : Cert.algebraic_KernelIdeal_ReferenceIdeal := by
  intro m ρ m' ρ' _ hagree
  refine ⟨fun c => Cert.KernelIdeal.Blocks.resX m c, fun c => Cert.KernelIdeal.Blocks.resLoss m c,
    Cert.KernelIdeal.Blocks.run (F := Ideal) m ρ, ?_⟩
  refine (θ_run Cert.ReferenceIdeal.defs _ _).mono (fun _ h c => ?_) (Cert.ReferenceIdeal.Value.run (F := Ideal) m' ρ')
  obtain ⟨hX, hL, hargs⟩ := h c
  obtain ⟨a0, a1, a2, a3, a4, a5⟩ := hagree c
  refine ⟨hX.trans ?_, hL.trans ?_, hargs⟩
  · rw [Cert.ReferenceIdeal.Read.val_main_v61_eq, a0, a1, a2, a3, a4, a5]
    exact (resX_eq m c).symm
  · rw [Cert.ReferenceIdeal.Read.val_main_v88_eq, a0, a2, a4]
    exact (resLoss_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
